-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x32 : Shape := ⟨2, ![600000, 32]⟩
abbrev S32x128 : Shape := ⟨2, ![32, 128]⟩
abbrev S128 : Shape := ⟨1, ![128]⟩
abbrev S128x128 : Shape := ⟨2, ![128, 128]⟩
abbrev S256x128 : Shape := ⟨2, ![256, 128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x32 : S_.BroadcastsInDim S600000x32 (![] : Fin 0 → Fin S600000x32.rank)
  reducesTo_S600000x32_S_d0_1 : S600000x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg15 : FVec F S256x128 .f32) (main_arg16 : FVec F S128 .f32) (main_arg17 : FVec F S128x2 .f32) (main_arg18 : FVec F S2 .f32) (main_v63 : IVec S_ 1) (main_v67 : IVec S_ 1) : IVec S_ 1 :=
  let main_v68 : IVec S_ 1 := andi main_v63 main_v67
  let main_v69 : FVec F S256x128 .f32 := Host.absf main_arg15
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x2 .f32 := Host.absf main_arg17
  let main_cst_30 : FVec F S_ .f32 := constant S_ .f32 0x7F800000#32
  let main_v80 : FVec F S128x2 .f32 := broadcastInDim S128x2 ![] bcast_S_S128x2 main_cst_30
  let main_v81 : IVec S128x2 1 := cmpf .olt main_v79 main_v80
  let main_c_31 : IVec S_ 1 := constantI S_ 1 1#1
  let main_v82 : IVec S_ 1 := (fun x v => Host.reduce IntOp.andi x v reducesTo_S128x2_S_d0_1 h_S_) main_v81 main_c_31
  let main_v83 : IVec S_ 1 := andi main_v78 main_v82
  let main_v84 : FVec F S2 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128x128 .f32) (main_arg14 : FVec F S128 .f32) (main_arg15 : FVec F S256x128 .f32) (main_arg16 : FVec F S128 .f32) (main_arg17 : FVec F S128x2 .f32) (main_arg18 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S32x128 .f32) (main_arg10 : FVec F S128 .f32) (main_arg11 : FVec F S128x128 .f32) (main_arg12 : FVec F S128 .f32) (main_arg13 : FVec F S128x128 .f32) (main_arg14 : FVec F S128 .f32) (main_arg15 : FVec F S256x128 .f32) (main_arg16 : FVec F S128 .f32) (main_arg17 : FVec F S128x2 .f32) (main_arg18 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S32x128 .f32 := Host.absf main_arg9
  let main_cst_14 : FVec F S_ .f32 := constant S_ .f32 0x7F800000#32
  let main_v40 : FVec F S32x128 .f32 := broadcastInDim S32x128 ![] bcast_S_S32x128 main_cst_14
  let main_v41 : IVec S32x128 1 := cmpf .olt main_v39 main_v40
  let main_c_15 : IVec S_ 1 := constantI S_ 1 1#1
  let main_v42 : IVec S_ 1 := (fun x v => Host.reduce IntOp.andi x v reducesTo_S32x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S32x128 .f32) (main_arg10 : FVec F S128 .f32) (main_arg11 : FVec F S128x128 .f32) (main_arg12 : FVec F S128 .f32) (main_arg13 : FVec F S128x128 .f32) (main_arg14 : FVec F S128 .f32) (main_arg15 : FVec F S256x128 .f32) (main_arg16 : FVec F S128 .f32) (main_arg17 : FVec F S128x2 .f32) (main_arg18 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x128 .f32) (main_arg1 : IVec S2x600000 32) (main_arg2 : FVec F S600000x32 .f32) (main_arg3 : FVec F S32x128 .f32) (main_arg4 : FVec F S128 .f32) (main_arg5 : FVec F S128x128 .f32) (main_arg6 : FVec F S128 .f32) (main_arg7 : FVec F S128x128 .f32) (main_arg8 : FVec F S128 .f32) (main_arg9 : FVec F S32x128 .f32) (main_arg10 : FVec F S128 .f32) (main_arg11 : FVec F S128x128 .f32) (main_arg12 : FVec F S128 .f32) (main_arg13 : FVec F S128x128 .f32) (main_arg14 : FVec F S128 .f32) (main_arg15 : FVec F S256x128 .f32) (main_arg16 : FVec F S128 .f32) (main_arg17 : FVec F S128x2 .f32) (main_arg18 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x32 .f32 := Host.absf main_arg2
  let main_cst_0 : FVec F S_ .f32 := constant S_ .f32 0x7F800000#32
  let main_v5 : FVec F S600000x32 .f32 := broadcastInDim S600000x32 ![] bcast_S_S600000x32 main_cst_0
  let main_v6 : IVec S600000x32 1 := cmpf .olt main_v4 main_v5
  let main_c_1 : IVec S_ 1 := constantI S_ 1 1#1
  let main_v7 : IVec S_ 1 := (fun x v => Host.reduce IntOp.andi x v reducesTo_S600000x32_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x600000 : Shape := ⟨2, ![2, 600000]⟩
abbrev S600000x32 : Shape := ⟨2, ![600000, 32]⟩
abbrev S32x128 : Shape := ⟨2, ![32, 128]⟩
abbrev S128 : Shape := ⟨1, ![128]⟩
abbrev S128x128 : Shape := ⟨2, ![128, 128]⟩
abbrev S256x128 : Shape := ⟨2, ![256, 128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S6000x32 : Shape := ⟨2, ![6000, 32]⟩
abbrev S6000x128 : Shape := ⟨2, ![6000, 128]⟩
abbrev S100000 : Shape := ⟨1, ![100000]⟩
abbrev S100000x1 : Shape := ⟨2, ![100000, 1]⟩
abbrev S5000x128 : Shape := ⟨2, ![5000, 128]⟩
abbrev S1x2 : Shape := ⟨2, ![1, 2]⟩
abbrev S600000x2 : Shape := ⟨2, ![600000, 2]⟩
abbrev S6000x2 : Shape := ⟨2, ![6000, 2]⟩

abbrev nBuf : Space → Nat
  | .hbm => 115
  | .vmem => 47
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x32, .f32⟩
  | .hbm, ⟨3, _⟩ => ⟨S32x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S32x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S256x128, .f32⟩
  | .hbm, ⟨16, _⟩ => ⟨S128, .f32⟩
  | .hbm, ⟨17, _⟩ => ⟨S128x2, .f32⟩
  | .hbm, ⟨18, _⟩ => ⟨S2, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S32x128, .bf16⟩
  | .hbm, ⟨24, _⟩ => ⟨S1x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S600000x128, .f32⟩
  | .hbm, ⟨35, _⟩ => ⟨S_, .f32⟩
  | .hbm, ⟨36, _⟩ => ⟨S100000x128, .f32⟩
  | .hbm, ⟨37, _⟩ => ⟨S600000x1, .i32⟩
  | .hbm, ⟨38, _⟩ => ⟨S100000x128, .f32⟩
  | .hbm, ⟨39, _⟩ => ⟨S_, .f32⟩
  | .hbm, ⟨40, _⟩ => ⟨S600000, .f32⟩
  | .hbm, ⟨41, _⟩ => ⟨S_, .f32⟩
  | .hbm, ⟨42, _⟩ => ⟨S100000, .f32⟩
  | .hbm, ⟨43, _⟩ => ⟨S600000x1, .i32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S128x128, .bf16⟩
  | .hbm, ⟨52, _⟩ => ⟨S128x128, .bf16⟩
  | .hbm, ⟨53, _⟩ => ⟨S1x128, .f32⟩
  | .hbm, ⟨54, _⟩ => ⟨S1x128, .f32⟩
  | .hbm, ⟨55, _⟩ => ⟨S100000x128, .f32⟩
  | .hbm, ⟨56, _⟩ => ⟨S32x128, .bf16⟩
  | .hbm, ⟨57, _⟩ => ⟨S1x128, .f32⟩
  | .hbm, ⟨58, _⟩ => ⟨S_, .i32⟩
  | .hbm, ⟨59, _⟩ => ⟨S600000, .i32⟩
  | .hbm, ⟨60, _⟩ => ⟨S600000, .i1⟩
  | .hbm, ⟨61, _⟩ => ⟨S_, .i32⟩
  | .hbm, ⟨62, _⟩ => ⟨S600000, .i32⟩
  | .hbm, ⟨63, _⟩ => ⟨S600000, .i32⟩
  | .hbm, ⟨64, _⟩ => ⟨S600000, .i32⟩
  | .hbm, ⟨65, _⟩ => ⟨S600000x1, .i32⟩
  | .hbm, ⟨66, _⟩ => ⟨S600000x128, .f32⟩
  | .hbm, ⟨67, _⟩ => ⟨S600000x128, .f32⟩
  | .hbm, ⟨68, _⟩ => ⟨S_, .f32⟩
  | .hbm, ⟨69, _⟩ => ⟨S100000x128, .f32⟩
  | .hbm, ⟨70, _⟩ => ⟨S600000x1, .i32⟩
  | .hbm, ⟨71, _⟩ => ⟨S100000x128, .f32⟩
  | .hbm, ⟨72, _⟩ => ⟨S_, .f32⟩
  | .hbm, ⟨73, _⟩ => ⟨S600000, .f32⟩
  | .hbm, ⟨74, _⟩ => ⟨S_, .f32⟩
  | .hbm, ⟨75, _⟩ => ⟨S100000, .f32⟩
  | .hbm, ⟨76, _⟩ => ⟨S600000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x128, .f32⟩
  | .hbm, ⟨83, _⟩ => ⟨S100000x128, .f32⟩
  | .hbm, ⟨84, _⟩ => ⟨S128x128, .bf16⟩
  | .hbm, ⟨85, _⟩ => ⟨S128x128, .bf16⟩
  | .hbm, ⟨86, _⟩ => ⟨S1x128, .f32⟩
  | .hbm, ⟨87, _⟩ => ⟨S1x128, .f32⟩
  | .hbm, ⟨88, _⟩ => ⟨S100000x128, .f32⟩
  | .hbm, ⟨89, _⟩ => ⟨S_, .i32⟩
  | .hbm, ⟨90, _⟩ => ⟨S600000, .i32⟩
  | .hbm, ⟨91, _⟩ => ⟨S600000, .i1⟩
  | .hbm, ⟨92, _⟩ => ⟨S_, .i32⟩
  | .hbm, ⟨93, _⟩ => ⟨S600000, .i32⟩
  | .hbm, ⟨94, _⟩ => ⟨S600000, .i32⟩
  | .hbm, ⟨95, _⟩ => ⟨S600000, .i32⟩
  | .hbm, ⟨96, _⟩ => ⟨S600000x1, .i32⟩
  | .hbm, ⟨97, _⟩ => ⟨S600000x128, .f32⟩
  | .hbm, ⟨98, _⟩ => ⟨S_, .i32⟩
  | .hbm, ⟨99, _⟩ => ⟨S600000, .i32⟩
  | .hbm, ⟨100, _⟩ => ⟨S600000, .i1⟩
  | .hbm, ⟨101, _⟩ => ⟨S_, .i32⟩
  | .hbm, ⟨102, _⟩ => ⟨S600000, .i32⟩
  | .hbm, ⟨103, _⟩ => ⟨S600000, .i32⟩
  | .hbm, ⟨104, _⟩ => ⟨S600000, .i32⟩
  | .hbm, ⟨105, _⟩ => ⟨S600000x1, .i32⟩
  | .hbm, ⟨106, _⟩ => ⟨S600000x128, .f32⟩
  | .hbm, ⟨107, _⟩ => ⟨S128x128, .f32⟩
  | .hbm, ⟨108, _⟩ => ⟨S128x128, .bf16⟩
  | .hbm, ⟨109, _⟩ => ⟨S128x128, .f32⟩
  | .hbm, ⟨110, _⟩ => ⟨S128x128, .bf16⟩
  | .hbm, ⟨111, _⟩ => ⟨S1x128, .f32⟩
  | .hbm, ⟨112, _⟩ => ⟨S128x2, .bf16⟩
  | .hbm, ⟨113, _⟩ => ⟨S1x2, .f32⟩
  | .hbm, ⟨114, _⟩ => ⟨S600000x2, .f32⟩
  | .local _ .vmem, ⟨0, _⟩ => ⟨S6000x32, .f32⟩
  | .local _ .vmem, ⟨1, _⟩ => ⟨S6000x32, .f32⟩
  | .local _ .vmem, ⟨2, _⟩ => ⟨S32x128, .bf16⟩
  | .local _ .vmem, ⟨3, _⟩ => ⟨S1x128, .f32⟩
  | .local _ .vmem, ⟨4, _⟩ => ⟨S6000x128, .f32⟩
  | .local _ .vmem, ⟨5, _⟩ => ⟨S6000x128, .f32⟩
  | .local _ .vmem, ⟨6, _⟩ => ⟨S6000x128, .f32⟩
  | .local _ .vmem, ⟨7, _⟩ => ⟨S6000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .bf16⟩
  | .local _ .vmem, ⟨13, _⟩ => ⟨S128x128, .bf16⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S6000x32, .f32⟩
  | .local _ .vmem, ⟨19, _⟩ => ⟨S6000x32, .f32⟩
  | .local _ .vmem, ⟨20, _⟩ => ⟨S32x128, .bf16⟩
  | .local _ .vmem, ⟨21, _⟩ => ⟨S1x128, .f32⟩
  | .local _ .vmem, ⟨22, _⟩ => ⟨S6000x128, .f32⟩
  | .local _ .vmem, ⟨23, _⟩ => ⟨S6000x128, .f32⟩
  | .local _ .vmem, ⟨24, _⟩ => ⟨S6000x128, .f32⟩
  | .local _ .vmem, ⟨25, _⟩ => ⟨S6000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .bf16⟩
  | .local _ .vmem, ⟨31, _⟩ => ⟨S128x128, .bf16⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S6000x128, .f32⟩
  | .local _ .vmem, ⟨37, _⟩ => ⟨S6000x128, .f32⟩
  | .local _ .vmem, ⟨38, _⟩ => ⟨S6000x128, .f32⟩
  | .local _ .vmem, ⟨39, _⟩ => ⟨S6000x128, .f32⟩
  | .local _ .vmem, ⟨40, _⟩ => ⟨S128x128, .bf16⟩
  | .local _ .vmem, ⟨41, _⟩ => ⟨S128x128, .bf16⟩
  | .local _ .vmem, ⟨42, _⟩ => ⟨S1x128, .f32⟩
  | .local _ .vmem, ⟨43, _⟩ => ⟨S128x2, .bf16⟩
  | .local _ .vmem, ⟨44, _⟩ => ⟨S1x2, .f32⟩
  | .local _ .vmem, ⟨45, _⟩ => ⟨S6000x2, .f32⟩
  | .local _ .vmem, ⟨46, _⟩ => ⟨S6000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_4 : Ref sig .tc := ⟨.hbm, 58, rfl⟩
abbrev main_v33 : Ref sig .tc := ⟨.hbm, 59, rfl⟩
abbrev main_v34 : Ref sig .tc := ⟨.hbm, 60, rfl⟩
abbrev main_c_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_9 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_10 : Ref sig .tc := ⟨.hbm, 89, rfl⟩
abbrev main_v58 : Ref sig .tc := ⟨.hbm, 90, rfl⟩
abbrev main_v59 : Ref sig .tc := ⟨.hbm, 91, rfl⟩
abbrev main_c_11 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_12 : Ref sig .tc := ⟨.hbm, 98, rfl⟩
abbrev main_v65 : Ref sig .tc := ⟨.hbm, 99, rfl⟩
abbrev main_v66 : Ref sig .tc := ⟨.hbm, 100, rfl⟩
abbrev main_c_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg7_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem7_1 : DmaSem sig := 46

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S6000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S6000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x2 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x2 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S6000x2 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  shapeCasts_S128_S1x128 : S128.ShapeCasts S1x128
  bcast_S_S600000 : S_.BroadcastsInDim S600000 (![] : Fin 0 → Fin S600000.rank)
  bcast_S600000_S600000x1_0 : S600000.BroadcastsInDim S600000x1 (![0] : Fin 1 → Fin S600000x1.rank)
  inb_S6000x32_S6000x32_0_0 : ∀ a, (![0, 0] : Fin 2 → Nat) a + S6000x32.size a ≤ S6000x32.size a
  h_S6000x32 : 0 < S6000x32.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  slices_S256x128_S128x128_0_0 : S256x128.Slices ![0, 0] S128x128
  slices_S256x128_S128x128_128_0 : S256x128.Slices ![128, 0] S128x128
  shapeCasts_S2_S1x2 : S2.ShapeCasts S1x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S6000x2 : S1x2.Broadcasts S6000x2
  inb_S6000x2_S6000x2_0_0 : ∀ a, (![0, 0] : Fin 2 → Nat) a + S6000x2.size a ≤ S6000x2.size a
  h_S6000x2 : 0 < S6000x2.numel
  gather_S100000x128_S600000x1_S600000x128_1_0_n_n_0_1_1128_wf : GatherDims.WF S100000x128 S600000x1 S600000x128 [1] [0] [] [0] [] 1 ![1, 128]
  dot_S6000x32_S32x128_S6000x128_1_0_0_1_n_n_wf : DotDims.WF S6000x32 S32x128 S6000x128 [1] [0] [0] [1] [] []
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S5000x128_S128x128_S5000x128_1_0_0_1_n_n_wf : DotDims.WF S5000x128 S128x128 S5000x128 [1] [0] [0] [1] [] []
  dot_S6000x128_S128x128_S6000x128_1_0_0_1_n_n_wf : DotDims.WF S6000x128 S128x128 S6000x128 [1] [0] [0] [1] [] []
  dot_S6000x128_S128x2_S6000x2_1_0_0_1_n_n_wf : DotDims.WF S6000x128 S128x2 S6000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x32.size a ≤ S600000x32.size a
  hwx0_0 : ∀ i : grid0.Coords, EltTy.bits .f32 = 32 ∨ (Rect.block (s := S600000x32) S6000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .bf16 = 32 ∨ (Rect.block (s := S32x128) S32x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x128.size a ≤ S600000x128.size a
  hwx0_3 : ∀ i : grid0.Coords, EltTy.bits .f32 = 32 ∨ (Rect.block (s := S600000x128) S6000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6000x128.size a ≤ S600000x128.size a
  hwx0_4 : ∀ i : grid0.Coords, EltTy.bits .f32 = 32 ∨ (Rect.block (s := S600000x128) S6000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x32.size a ≤ S600000x32.size a
  hwx2_0 : ∀ i : grid2.Coords, EltTy.bits .f32 = 32 ∨ (Rect.block (s := S600000x32) S6000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x128.size a ≤ S32x128.size a
  hwx2_1 : ∀ i : grid2.Coords, EltTy.bits .bf16 = 32 ∨ (Rect.block (s := S32x128) S32x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6000x128.size a ≤ S600000x128.size a
  hwx2_3 : ∀ i : grid2.Coords, EltTy.bits .f32 = 32 ∨ (Rect.block (s := S600000x128) S6000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6000x128.size a ≤ S600000x128.size a
  hwx2_4 : ∀ i : grid2.Coords, EltTy.bits .f32 = 32 ∨ (Rect.block (s := S600000x128) S6000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x128.size a ≤ S600000x128.size a
  hwx4_0 : ∀ i : grid4.Coords, EltTy.bits .f32 = 32 ∨ (Rect.block (s := S600000x128) S6000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x128.size a ≤ S600000x128.size a
  hwx4_1 : ∀ i : grid4.Coords, EltTy.bits .f32 = 32 ∨ (Rect.block (s := S600000x128) S6000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x2.size a ≤ S128x2.size a
  hwx4_5 : ∀ i : grid4.Coords, EltTy.bits .bf16 = 32 ∨ (Rect.block (s := S128x2) S128x2.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x2.size a ≤ S1x2.size a
  hwx4_6 : ∀ i : grid4.Coords, EltTy.bits .f32 = 32 ∨ (Rect.block (s := S1x2) S1x2.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S6000x2.size a ≤ S600000x2.size a
  hwx4_7 : ∀ i : grid4.Coords, EltTy.bits .f32 = 32 ∨ (Rect.block (s := S600000x2) S6000x2.size (cc4_transform_7 i) (hinb4_7 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S6000x32_S32x128_S6000x128_1_0_0_1_n_n : DotDims S6000x32 S32x128 S6000x128 where
  lhsContracting := [1]
  rhsContracting := [0]
  lhsNonContracting := [0]
  rhsNonContracting := [1]
  lhsBatch := []
  rhsBatch := []
  wf := dot_S6000x32_S32x128_S6000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def dot_S6000x128_S128x2_S6000x2_1_0_0_1_n_n : DotDims S6000x128 S128x2 S6000x2 where
  lhsContracting := [1]
  rhsContracting := [0]
  lhsNonContracting := [0]
  rhsNonContracting := [1]
  lhsBatch := []
  rhsBatch := []
  wf := dot_S6000x128_S128x2_S6000x2_1_0_0_1_n_n_wf

abbrev win0_0 : Pipeline.Window sig grid0 :=
  Pipeline.Window.ofSpec (Memref.whole main_arg2) S6000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S6000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S6000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg2) S6000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S32x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S6000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40) S6000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v57) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v64) S6000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S6000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v77) S128x2.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v78) S1x2.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v79) S6000x2.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x32 : Shape := ⟨2, ![600000, 32]⟩
abbrev S32x128 : Shape := ⟨2, ![32, 128]⟩
abbrev S128 : Shape := ⟨1, ![128]⟩
abbrev S128x128 : Shape := ⟨2, ![128, 128]⟩
abbrev S256x128 : Shape := ⟨2, ![256, 128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S100000 : Shape := ⟨1, ![100000]⟩
abbrev S100000x1 : Shape := ⟨2, ![100000, 1]⟩
abbrev S600000x256 : Shape := ⟨2, ![600000, 256]⟩
abbrev S600000x2 : Shape := ⟨2, ![600000, 2]⟩
abbrev S1x2 : Shape := ⟨2, ![1, 2]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x600000, .i32⟩
  | 2 => ⟨S600000x32, .f32⟩
  | 3 => ⟨S32x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S32x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S256x128, .f32⟩
  | 16 => ⟨S128, .f32⟩
  | 17 => ⟨S128x2, .f32⟩
  | 18 => ⟨S2, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S600000x128, .f32⟩
  | 33 => ⟨S600000x128, .f32⟩
  | 34 => ⟨S1x128, .f32⟩
  | 35 => ⟨S600000x128, .f32⟩
  | 36 => ⟨S600000x128, .f32⟩
  | 37 => ⟨S_, .f32⟩
  | 38 => ⟨S100000x128, .f32⟩
  | 39 => ⟨S600000x1, .i32⟩
  | 40 => ⟨S100000x128, .f32⟩
  | 41 => ⟨S_, .f32⟩
  | 42 => ⟨S600000, .f32⟩
  | 43 => ⟨S_, .f32⟩
  | 44 => ⟨S100000, .f32⟩
  | 45 => ⟨S600000x1, .i32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S_, .i32⟩
  | 66 => ⟨S600000, .i32⟩
  | 67 => ⟨S600000, .i1⟩
  | 68 => ⟨S_, .i32⟩
  | 69 => ⟨S600000, .i32⟩
  | 70 => ⟨S600000, .i32⟩
  | 71 => ⟨S600000, .i32⟩
  | 72 => ⟨S600000x1, .i32⟩
  | 73 => ⟨S600000x128, .f32⟩
  | 74 => ⟨S600000x128, .f32⟩
  | 75 => ⟨S600000x128, .f32⟩
  | 76 => ⟨S1x128, .f32⟩
  | 77 => ⟨S600000x128, .f32⟩
  | 78 => ⟨S600000x128, .f32⟩
  | 79 => ⟨S_, .f32⟩
  | 80 => ⟨S100000x128, .f32⟩
  | 81 => ⟨S600000x1, .i32⟩
  | 82 => ⟨S100000x128, .f32⟩
  | 83 => ⟨S_, .f32⟩
  | 84 => ⟨S600000, .f32⟩
  | 85 => ⟨S_, .f32⟩
  | 86 => ⟨S100000, .f32⟩
  | 87 => ⟨S600000x1, .i32⟩
  | 88 => ⟨S100000, .f32⟩
  | 89 => ⟨S_, .f32⟩
  | 90 => ⟨S100000, .f32⟩
  | 91 => ⟨S100000, .f32⟩
  | 92 => ⟨S100000x1, .f32⟩
  | 93 => ⟨S100000x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x128, .f32⟩
  | 116 => ⟨S_, .i32⟩
  | 117 => ⟨S600000, .i32⟩
  | 118 => ⟨S600000, .i1⟩
  | 119 => ⟨S_, .i32⟩
  | 120 => ⟨S600000, .i32⟩
  | 121 => ⟨S600000, .i32⟩
  | 122 => ⟨S600000, .i32⟩
  | 123 => ⟨S600000x1, .i32⟩
  | 124 => ⟨S600000x128, .f32⟩
  | 125 => ⟨S600000x256, .f32⟩
  | 126 => ⟨S600000x128, .f32⟩
  | 127 => ⟨S1x128, .f32⟩
  | _ => ⟨S100000x128, .f32⟩

abbrev hbmTy0_1 (i : Nat) : BufTy := match i % 128 with
  | 0 => ⟨S600000x128, .f32⟩
  | 1 => ⟨S600000x128, .f32⟩
  | 2 => ⟨S_, .f32⟩
  | 3 => ⟨S600000x128, .f32⟩
  | 4 => ⟨S600000x128, .f32⟩
  | 5 => ⟨S600000x2, .f32⟩
  | 6 => ⟨S1x2, .f32⟩
  | 7 => ⟨S600000x2, .f32⟩
  | 8 => ⟨S600000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call0_cst : Ref sig .tc := ⟨.hbm, 62, rfl⟩
abbrev main_call0_v0 : Ref sig .tc := ⟨.hbm, 63, rfl⟩
abbrev main_v37 : Ref sig .tc := ⟨.hbm, 64, rfl⟩
abbrev main_c_4 : Ref sig .tc := ⟨.hbm, 65, rfl⟩
abbrev main_v38 : Ref sig .tc := ⟨.hbm, 66, rfl⟩
abbrev main_v39 : Ref sig .tc := ⟨.hbm, 67, rfl⟩
abbrev main_c_5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_7 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_9 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call1_cst : Ref sig .tc := ⟨.hbm, 104, rfl⟩
abbrev main_call1_v0 : Ref sig .tc := ⟨.hbm, 105, rfl⟩
abbrev main_v71 : Ref sig .tc := ⟨.hbm, 106, rfl⟩
abbrev main_c_10 : Ref sig .tc := ⟨.hbm, 107, rfl⟩
abbrev main_v72 : Ref sig .tc := ⟨.hbm, 108, rfl⟩
abbrev main_v73 : Ref sig .tc := ⟨.hbm, 109, rfl⟩
abbrev main_c_11 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_12 : Ref sig .tc := ⟨.hbm, 116, rfl⟩
abbrev main_v79 : Ref sig .tc := ⟨.hbm, 117, rfl⟩
abbrev main_v80 : Ref sig .tc := ⟨.hbm, 118, rfl⟩
abbrev main_c_13 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call2_cst : Ref sig .tc := ⟨.hbm, 130, rfl⟩
abbrev main_call2_v0 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  concatenates_S600000x128_S600000x128_S600000x256_d1 : Shape.Concatenates [S600000x128, S600000x128] S600000x256 1
  bcast_S_S600000x128 : S_.BroadcastsInDim S600000x128 (![] : Fin 0 → Fin S600000x128.rank)
  bcast_S2_S1x2_1 : S2.BroadcastsInDim S1x2 (![1] : Fin 1 → Fin S1x2.rank)
  bcast_S1x2_S600000x2_0_1 : S1x2.BroadcastsInDim S600000x2 (![0, 1] : Fin 2 → Fin S600000x2.rank)
  gather_S100000x128_S600000x1_S600000x128_1_0_n_n_0_1_1128_wf : GatherDims.WF S100000x128 S600000x1 S600000x128 [1] [0] [] [0] [] 1 ![1, 128]
  dot_S600000x32_S32x128_S600000x128_1_0_0_1_n_n_wf : DotDims.WF S600000x32 S32x128 S600000x128 [1] [0] [0] [1] [] []
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  dot_S600000x256_S256x128_S600000x128_1_0_0_1_n_n_wf : DotDims.WF S600000x256 S256x128 S600000x128 [1] [0] [0] [1] [] []
  dot_S600000x128_S128x2_S600000x2_1_0_0_1_n_n_wf : DotDims.WF S600000x128 S128x2 S600000x2 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x32_S32x128_S600000x128_1_0_0_1_n_n : DotDims S600000x32 S32x128 S600000x128 where
  lhsContracting := [1]
  rhsContracting := [0]
  lhsNonContracting := [0]
  rhsNonContracting := [1]
  lhsBatch := []
  rhsBatch := []
  wf := dot_S600000x32_S32x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def dot_S600000x128_S128x2_S600000x2_1_0_0_1_n_n : DotDims S600000x128 S128x2 S600000x2 where
  lhsContracting := [1]
  rhsContracting := [0]
  lhsNonContracting := [0]
  rhsNonContracting := [1]
  lhsBatch := []
  rhsBatch := []
  wf := dot_S600000x128_S128x2_S600000x2_1_0_0_1_n_n_wf

class Facts : Prop extends Facts₀ where

variable [Facts]
-- ==== Proof.KernelRun.lean ====
/- The idealized kernel's run with its result read back. The program is five pipelined regions among stretches of
   host operations; the buffer contents at each boundary are a fold from the launch memory (a stretch applies its
   operations, a region replaces its arrays by what its write-backs leave). Every weakly fair execution terminates
   with each unscoped buffer at the last boundary's contents, so the result buffer ends at those contents and each
   argument at its launch contents. -/
import proofs.«128431_j42597485641878_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v79) = W10 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v79 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c)⟩)

end Cert.KernelIdeal.ValueRun

end
-- ==== Proof.Carried.lean ====
/- Buffers carried across the segments of the idealized kernel's program. The contents at the boundaries are a fold from
   the launch memory: a stretch of host operations rewrites only the buffers its operations write, and a region only
   its output arrays (an input window's array comes back as it was found). So an argument read at a later boundary is
   its launch contents, and the two index vectors cut out of the edge list, and the first layer's output, are read
   at later boundaries as they were where they were made. One step per boundary, then the steps composed. -/
import proofs.«128431_j42597485641878_1_alg».proof.Proof.Gen.KernelIdeal.Frame
import Idealize.ShloMosaic.Lib.StableHlo.Run

set_option maxRecDepth 16384

noncomputable section

namespace Cert.KernelIdeal.Carried

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ### `main_arg2` -/

theorem step1_main_arg2 (c : Dev nD) : W1 m ρ c (Proc.devRef .tc main_arg2) = W0 m ρ c (Proc.devRef .tc main_arg2) := by
  show StableHlo.after hostOps0 (W0 m ρ c) (Proc.devRef .tc main_arg2) = _
  dsimp only [hostOps0]
  after_results
theorem step2_main_arg2 (c : Dev nD) : W2 m ρ c (Proc.devRef .tc main_arg2) = W1 m ρ c (Proc.devRef .tc main_arg2) :=
  (W2_arr m ρ c 0).trans (((dat0 (V1 m ρ) c).arrAt_in 0 rfl _).trans (A_eq0 (V1 m ρ) c 0))
theorem step3_main_arg2 (c : Dev nD) : W3 m ρ c (Proc.devRef .tc main_arg2) = W2 m ρ c (Proc.devRef .tc main_arg2) := by
  show StableHlo.after hostOps1 (W2 m ρ c) (Proc.devRef .tc main_arg2) = _
  dsimp only [hostOps1]
  after_results
theorem step4_main_arg2 (c : Dev nD) : W4 m ρ c (Proc.devRef .tc main_arg2) = W3 m ρ c (Proc.devRef .tc main_arg2) :=
  W4_of_ne m ρ c main_arg2 (by decide)
theorem step5_main_arg2 (c : Dev nD) : W5 m ρ c (Proc.devRef .tc main_arg2) = W4 m ρ c (Proc.devRef .tc main_arg2) := by
  show StableHlo.after hostOps2 (W4 m ρ c) (Proc.devRef .tc main_arg2) = _
  dsimp only [hostOps2]
  after_results
theorem at1_main_arg2 (c : Dev nD) : W1 m ρ c (Proc.devRef .tc main_arg2) = m ((c : Thread nD τ).loc main_arg2) := step1_main_arg2 m ρ c
theorem at2_main_arg2 (c : Dev nD) : W2 m ρ c (Proc.devRef .tc main_arg2) = m ((c : Thread nD τ).loc main_arg2) := (step2_main_arg2 m ρ c).trans (at1_main_arg2 m ρ c)
theorem at3_main_arg2 (c : Dev nD) : W3 m ρ c (Proc.devRef .tc main_arg2) = m ((c : Thread nD τ).loc main_arg2) := (step3_main_arg2 m ρ c).trans (at2_main_arg2 m ρ c)
theorem at4_main_arg2 (c : Dev nD) : W4 m ρ c (Proc.devRef .tc main_arg2) = m ((c : Thread nD τ).loc main_arg2) := (step4_main_arg2 m ρ c).trans (at3_main_arg2 m ρ c)
theorem at5_main_arg2 (c : Dev nD) : W5 m ρ c (Proc.devRef .tc main_arg2) = m ((c : Thread nD τ).loc main_arg2) := (step5_main_arg2 m ρ c).trans (at4_main_arg2 m ρ c)

/-! ### `main_arg0` -/

theorem step1_main_arg0 (c : Dev nD) : W1 m ρ c (Proc.devRef .tc main_arg0) = W0 m ρ c (Proc.devRef .tc main_arg0) := by
  show StableHlo.after hostOps0 (W0 m ρ c) (Proc.devRef .tc main_arg0) = _
  dsimp only [hostOps0]
  after_results
theorem step2_main_arg0 (c : Dev nD) : W2 m ρ c (Proc.devRef .tc main_arg0) = W1 m ρ c (Proc.devRef .tc main_arg0) :=
  W2_of_ne m ρ c main_arg0 (by decide)
theorem step3_main_arg0 (c : Dev nD) : W3 m ρ c (Proc.devRef .tc main_arg0) = W2 m ρ c (Proc.devRef .tc main_arg0) := by
  show StableHlo.after hostOps1 (W2 m ρ c) (Proc.devRef .tc main_arg0) = _
  dsimp only [hostOps1]
  after_results
theorem at1_main_arg0 (c : Dev nD) : W1 m ρ c (Proc.devRef .tc main_arg0) = m ((c : Thread nD τ).loc main_arg0) := step1_main_arg0 m ρ c
theorem at2_main_arg0 (c : Dev nD) : W2 m ρ c (Proc.devRef .tc main_arg0) = m ((c : Thread nD τ).loc main_arg0) := (step2_main_arg0 m ρ c).trans (at1_main_arg0 m ρ c)
theorem at3_main_arg0 (c : Dev nD) : W3 m ρ c (Proc.devRef .tc main_arg0) = m ((c : Thread nD τ).loc main_arg0) := (step3_main_arg0 m ρ c).trans (at2_main_arg0 m ρ c)

/-! ### `main_arg5` -/

theorem step1_main_arg5 (c : Dev nD) : W1 m ρ c (Proc.devRef .tc main_arg5) = W0 m ρ c (Proc.devRef .tc main_arg5) := by
  show StableHlo.after hostOps0 (W0 m ρ c) (Proc.devRef .tc main_arg5) = _
  dsimp only [hostOps0]
  after_results
theorem step2_main_arg5 (c : Dev nD) : W2 m ρ c (Proc.devRef .tc main_arg5) = W1 m ρ c (Proc.devRef .tc main_arg5) :=
  W2_of_ne m ρ c main_arg5 (by decide)
theorem at1_main_arg5 (c : Dev nD) : W1 m ρ c (Proc.devRef .tc main_arg5) = m ((c : Thread nD τ).loc main_arg5) := step1_main_arg5 m ρ c
theorem at2_main_arg5 (c : Dev nD) : W2 m ρ c (Proc.devRef .tc main_arg5) = m ((c : Thread nD τ).loc main_arg5) := (step2_main_arg5 m ρ c).trans (at1_main_arg5 m ρ c)

/-! ### `main_arg6` -/

theorem step1_main_arg6 (c : Dev nD) : W1 m ρ c (Proc.devRef .tc main_arg6) = W0 m ρ c (Proc.devRef .tc main_arg6) := by
  show StableHlo.after hostOps0 (W0 m ρ c) (Proc.devRef .tc main_arg6) = _
  dsimp only [hostOps0]
  after_results
theorem step2_main_arg6 (c : Dev nD) : W2 m ρ c (Proc.devRef .tc main_arg6) = W1 m ρ c (Proc.devRef .tc main_arg6) :=
  W2_of_ne m ρ c main_arg6 (by decide)
theorem at1_main_arg6 (c : Dev nD) : W1 m ρ c (Proc.devRef .tc main_arg6) = m ((c : Thread nD τ).loc main_arg6) := step1_main_arg6 m ρ c
theorem at2_main_arg6 (c : Dev nD) : W2 m ρ c (Proc.devRef .tc main_arg6) = m ((c : Thread nD τ).loc main_arg6) := (step2_main_arg6 m ρ c).trans (at1_main_arg6 m ρ c)

/-! ### `main_arg7` -/

theorem step1_main_arg7 (c : Dev nD) : W1 m ρ c (Proc.devRef .tc main_arg7) = W0 m ρ c (Proc.devRef .tc main_arg7) := by
  show StableHlo.after hostOps0 (W0 m ρ c) (Proc.devRef .tc main_arg7) = _
  dsimp only [hostOps0]
  after_results
theorem step2_main_arg7 (c : Dev nD) : W2 m ρ c (Proc.devRef .tc main_arg7) = W1 m ρ c (Proc.devRef .tc main_arg7) :=
  W2_of_ne m ρ c main_arg7 (by decide)
theorem at1_main_arg7 (c : Dev nD) : W1 m ρ c (Proc.devRef .tc main_arg7) = m ((c : Thread nD τ).loc main_arg7) := step1_main_arg7 m ρ c
theorem at2_main_arg7 (c : Dev nD) : W2 m ρ c (Proc.devRef .tc main_arg7) = m ((c : Thread nD τ).loc main_arg7) := (step2_main_arg7 m ρ c).trans (at1_main_arg7 m ρ c)

/-! ### `main_arg8` -/

theorem step1_main_arg8 (c : Dev nD) : W1 m ρ c (Proc.devRef .tc main_arg8) = W0 m ρ c (Proc.devRef .tc main_arg8) := by
  show StableHlo.after hostOps0 (W0 m ρ c) (Proc.devRef .tc main_arg8) = _
  dsimp only [hostOps0]
  after_results
theorem step2_main_arg8 (c : Dev nD) : W2 m ρ c (Proc.devRef .tc main_arg8) = W1 m ρ c (Proc.devRef .tc main_arg8) :=
  W2_of_ne m ρ c main_arg8 (by decide)
theorem at1_main_arg8 (c : Dev nD) : W1 m ρ c (Proc.devRef .tc main_arg8) = m ((c : Thread nD τ).loc main_arg8) := step1_main_arg8 m ρ c
theorem at2_main_arg8 (c : Dev nD) : W2 m ρ c (Proc.devRef .tc main_arg8) = m ((c : Thread nD τ).loc main_arg8) := (step2_main_arg8 m ρ c).trans (at1_main_arg8 m ρ c)

/-! ### `main_arg9` -/

theorem step1_main_arg9 (c : Dev nD) : W1 m ρ c (Proc.devRef .tc main_arg9) = W0 m ρ c (Proc.devRef .tc main_arg9) := by
  show StableHlo.after hostOps0 (W0 m ρ c) (Proc.devRef .tc main_arg9) = _
  dsimp only [hostOps0]
  after_results
theorem step2_main_arg9 (c : Dev nD) : W2 m ρ c (Proc.devRef .tc main_arg9) = W1 m ρ c (Proc.devRef .tc main_arg9) :=
  W2_of_ne m ρ c main_arg9 (by decide)
theorem step3_main_arg9 (c : Dev nD) : W3 m ρ c (Proc.devRef .tc main_arg9) = W2 m ρ c (Proc.devRef .tc main_arg9) := by
  show StableHlo.after hostOps1 (W2 m ρ c) (Proc.devRef .tc main_arg9) = _
  dsimp only [hostOps1]
  after_results
theorem step4_main_arg9 (c : Dev nD) : W4 m ρ c (Proc.devRef .tc main_arg9) = W3 m ρ c (Proc.devRef .tc main_arg9) :=
  W4_of_ne m ρ c main_arg9 (by decide)
theorem at1_main_arg9 (c : Dev nD) : W1 m ρ c (Proc.devRef .tc main_arg9) = m ((c : Thread nD τ).loc main_arg9) := step1_main_arg9 m ρ c
theorem at2_main_arg9 (c : Dev nD) : W2 m ρ c (Proc.devRef .tc main_arg9) = m ((c : Thread nD τ).loc main_arg9) := (step2_main_arg9 m ρ c).trans (at1_main_arg9 m ρ c)
theorem at3_main_arg9 (c : Dev nD) : W3 m ρ c (Proc.devRef .tc main_arg9) = m ((c : Thread nD τ).loc main_arg9) := (step3_main_arg9 m ρ c).trans (at2_main_arg9 m ρ c)
theorem at4_main_arg9 (c : Dev nD) : W4 m ρ c (Proc.devRef .tc main_arg9) = m ((c : Thread nD τ).loc main_arg9) := (step4_main_arg9 m ρ c).trans (at3_main_arg9 m ρ c)

/-! ### `main_arg10` -/

theorem step1_main_arg10 (c : Dev nD) : W1 m ρ c (Proc.devRef .tc main_arg10) = W0 m ρ c (Proc.devRef .tc main_arg10) := by
  show StableHlo.after hostOps0 (W0 m ρ c) (Proc.devRef .tc main_arg10) = _
  dsimp only [hostOps0]
  after_results
theorem step2_main_arg10 (c : Dev nD) : W2 m ρ c (Proc.devRef .tc main_arg10) = W1 m ρ c (Proc.devRef .tc main_arg10) :=
  W2_of_ne m ρ c main_arg10 (by decide)
theorem step3_main_arg10 (c : Dev nD) : W3 m ρ c (Proc.devRef .tc main_arg10) = W2 m ρ c (Proc.devRef .tc main_arg10) := by
  show StableHlo.after hostOps1 (W2 m ρ c) (Proc.devRef .tc main_arg10) = _
  dsimp only [hostOps1]
  after_results
theorem step4_main_arg10 (c : Dev nD) : W4 m ρ c (Proc.devRef .tc main_arg10) = W3 m ρ c (Proc.devRef .tc main_arg10) :=
  W4_of_ne m ρ c main_arg10 (by decide)
theorem at1_main_arg10 (c : Dev nD) : W1 m ρ c (Proc.devRef .tc main_arg10) = m ((c : Thread nD τ).loc main_arg10) := step1_main_arg10 m ρ c
theorem at2_main_arg10 (c : Dev nD) : W2 m ρ c (Proc.devRef .tc main_arg10) = m ((c : Thread nD τ).loc main_arg10) := (step2_main_arg10 m ρ c).trans (at1_main_arg10 m ρ c)
theorem at3_main_arg10 (c : Dev nD) : W3 m ρ c (Proc.devRef .tc main_arg10) = m ((c : Thread nD τ).loc main_arg10) := (step3_main_arg10 m ρ c).trans (at2_main_arg10 m ρ c)
theorem at4_main_arg10 (c : Dev nD) : W4 m ρ c (Proc.devRef .tc main_arg10) = m ((c : Thread nD τ).loc main_arg10) := (step4_main_arg10 m ρ c).trans (at3_main_arg10 m ρ c)

/-! ### `main_arg11` -/

theorem step1_main_arg11 (c : Dev nD) : W1 m ρ c (Proc.devRef .tc main_arg11) = W0 m ρ c (Proc.devRef .tc main_arg11) := by
  show StableHlo.after hostOps0 (W0 m ρ c) (Proc.devRef .tc main_arg11) = _
  dsimp only [hostOps0]
  after_results
theorem step2_main_arg11 (c : Dev nD) : W2 m ρ c (Proc.devRef .tc main_arg11) = W1 m ρ c (Proc.devRef .tc main_arg11) :=
  W2_of_ne m ρ c main_arg11 (by decide)
theorem step3_main_arg11 (c : Dev nD) : W3 m ρ c (Proc.devRef .tc main_arg11) = W2 m ρ c (Proc.devRef .tc main_arg11) := by
  show StableHlo.after hostOps1 (W2 m ρ c) (Proc.devRef .tc main_arg11) = _
  dsimp only [hostOps1]
  after_results
theorem step4_main_arg11 (c : Dev nD) : W4 m ρ c (Proc.devRef .tc main_arg11) = W3 m ρ c (Proc.devRef .tc main_arg11) :=
  W4_of_ne m ρ c main_arg11 (by decide)
theorem step5_main_arg11 (c : Dev nD) : W5 m ρ c (Proc.devRef .tc main_arg11) = W4 m ρ c (Proc.devRef .tc main_arg11) := by
  show StableHlo.after hostOps2 (W4 m ρ c) (Proc.devRef .tc main_arg11) = _
  dsimp only [hostOps2]
  after_results
theorem step6_main_arg11 (c : Dev nD) : W6 m ρ c (Proc.devRef .tc main_arg11) = W5 m ρ c (Proc.devRef .tc main_arg11) :=
  W6_of_ne m ρ c main_arg11 (by decide)
theorem at1_main_arg11 (c : Dev nD) : W1 m ρ c (Proc.devRef .tc main_arg11) = m ((c : Thread nD τ).loc main_arg11) := step1_main_arg11 m ρ c
theorem at2_main_arg11 (c : Dev nD) : W2 m ρ c (Proc.devRef .tc main_arg11) = m ((c : Thread nD τ).loc main_arg11) := (step2_main_arg11 m ρ c).trans (at1_main_arg11 m ρ c)
theorem at3_main_arg11 (c : Dev nD) : W3 m ρ c (Proc.devRef .tc main_arg11) = m ((c : Thread nD τ).loc main_arg11) := (step3_main_arg11 m ρ c).trans (at2_main_arg11 m ρ c)
theorem at4_main_arg11 (c : Dev nD) : W4 m ρ c (Proc.devRef .tc main_arg11) = m ((c : Thread nD τ).loc main_arg11) := (step4_main_arg11 m ρ c).trans (at3_main_arg11 m ρ c)
theorem at5_main_arg11 (c : Dev nD) : W5 m ρ c (Proc.devRef .tc main_arg11) = m ((c : Thread nD τ).loc main_arg11) := (step5_main_arg11 m ρ c).trans (at4_main_arg11 m ρ c)
theorem at6_main_arg11 (c : Dev nD) : W6 m ρ c (Proc.devRef .tc main_arg11) = m ((c : Thread nD τ).loc main_arg11) := (step6_main_arg11 m ρ c).trans (at5_main_arg11 m ρ c)

/-! ### `main_arg12` -/

theorem step1_main_arg12 (c : Dev nD) : W1 m ρ c (Proc.devRef .tc main_arg12) = W0 m ρ c (Proc.devRef .tc main_arg12) := by
  show StableHlo.after hostOps0 (W0 m ρ c) (Proc.devRef .tc main_arg12) = _
  dsimp only [hostOps0]
  after_results
theorem step2_main_arg12 (c : Dev nD) : W2 m ρ c (Proc.devRef .tc main_arg12) = W1 m ρ c (Proc.devRef .tc main_arg12) :=
  W2_of_ne m ρ c main_arg12 (by decide)
theorem step3_main_arg12 (c : Dev nD) : W3 m ρ c (Proc.devRef .tc main_arg12) = W2 m ρ c (Proc.devRef .tc main_arg12) := by
  show StableHlo.after hostOps1 (W2 m ρ c) (Proc.devRef .tc main_arg12) = _
  dsimp only [hostOps1]
  after_results
theorem step4_main_arg12 (c : Dev nD) : W4 m ρ c (Proc.devRef .tc main_arg12) = W3 m ρ c (Proc.devRef .tc main_arg12) :=
  W4_of_ne m ρ c main_arg12 (by decide)
theorem step5_main_arg12 (c : Dev nD) : W5 m ρ c (Proc.devRef .tc main_arg12) = W4 m ρ c (Proc.devRef .tc main_arg12) := by
  show StableHlo.after hostOps2 (W4 m ρ c) (Proc.devRef .tc main_arg12) = _
  dsimp only [hostOps2]
  after_results
theorem step6_main_arg12 (c : Dev nD) : W6 m ρ c (Proc.devRef .tc main_arg12) = W5 m ρ c (Proc.devRef .tc main_arg12) :=
  W6_of_ne m ρ c main_arg12 (by decide)
theorem at1_main_arg12 (c : Dev nD) : W1 m ρ c (Proc.devRef .tc main_arg12) = m ((c : Thread nD τ).loc main_arg12) := step1_main_arg12 m ρ c
theorem at2_main_arg12 (c : Dev nD) : W2 m ρ c (Proc.devRef .tc main_arg12) = m ((c : Thread nD τ).loc main_arg12) := (step2_main_arg12 m ρ c).trans (at1_main_arg12 m ρ c)
theorem at3_main_arg12 (c : Dev nD) : W3 m ρ c (Proc.devRef .tc main_arg12) = m ((c : Thread nD τ).loc main_arg12) := (step3_main_arg12 m ρ c).trans (at2_main_arg12 m ρ c)
theorem at4_main_arg12 (c : Dev nD) : W4 m ρ c (Proc.devRef .tc main_arg12) = m ((c : Thread nD τ).loc main_arg12) := (step4_main_arg12 m ρ c).trans (at3_main_arg12 m ρ c)
theorem at5_main_arg12 (c : Dev nD) : W5 m ρ c (Proc.devRef .tc main_arg12) = m ((c : Thread nD τ).loc main_arg12) := (step5_main_arg12 m ρ c).trans (at4_main_arg12 m ρ c)
theorem at6_main_arg12 (c : Dev nD) : W6 m ρ c (Proc.devRef .tc main_arg12) = m ((c : Thread nD τ).loc main_arg12) := (step6_main_arg12 m ρ c).trans (at5_main_arg12 m ρ c)

/-! ### `main_arg13` -/

theorem step1_main_arg13 (c : Dev nD) : W1 m ρ c (Proc.devRef .tc main_arg13) = W0 m ρ c (Proc.devRef .tc main_arg13) := by
  show StableHlo.after hostOps0 (W0 m ρ c) (Proc.devRef .tc main_arg13) = _
  dsimp only [hostOps0]
  after_results
theorem step2_main_arg13 (c : Dev nD) : W2 m ρ c (Proc.devRef .tc main_arg13) = W1 m ρ c (Proc.devRef .tc main_arg13) :=
  W2_of_ne m ρ c main_arg13 (by decide)
theorem step3_main_arg13 (c : Dev nD) : W3 m ρ c (Proc.devRef .tc main_arg13) = W2 m ρ c (Proc.devRef .tc main_arg13) := by
  show StableHlo.after hostOps1 (W2 m ρ c) (Proc.devRef .tc main_arg13) = _
  dsimp only [hostOps1]
  after_results
theorem step4_main_arg13 (c : Dev nD) : W4 m ρ c (Proc.devRef .tc main_arg13) = W3 m ρ c (Proc.devRef .tc main_arg13) :=
  W4_of_ne m ρ c main_arg13 (by decide)
theorem step5_main_arg13 (c : Dev nD) : W5 m ρ c (Proc.devRef .tc main_arg13) = W4 m ρ c (Proc.devRef .tc main_arg13) := by
  show StableHlo.after hostOps2 (W4 m ρ c) (Proc.devRef .tc main_arg13) = _
  dsimp only [hostOps2]
  after_results
theorem step6_main_arg13 (c : Dev nD) : W6 m ρ c (Proc.devRef .tc main_arg13) = W5 m ρ c (Proc.devRef .tc main_arg13) :=
  W6_of_ne m ρ c main_arg13 (by decide)
theorem at1_main_arg13 (c : Dev nD) : W1 m ρ c (Proc.devRef .tc main_arg13) = m ((c : Thread nD τ).loc main_arg13) := step1_main_arg13 m ρ c
theorem at2_main_arg13 (c : Dev nD) : W2 m ρ c (Proc.devRef .tc main_arg13) = m ((c : Thread nD τ).loc main_arg13) := (step2_main_arg13 m ρ c).trans (at1_main_arg13 m ρ c)
theorem at3_main_arg13 (c : Dev nD) : W3 m ρ c (Proc.devRef .tc main_arg13) = m ((c : Thread nD τ).loc main_arg13) := (step3_main_arg13 m ρ c).trans (at2_main_arg13 m ρ c)
theorem at4_main_arg13 (c : Dev nD) : W4 m ρ c (Proc.devRef .tc main_arg13) = m ((c : Thread nD τ).loc main_arg13) := (step4_main_arg13 m ρ c).trans (at3_main_arg13 m ρ c)
theorem at5_main_arg13 (c : Dev nD) : W5 m ρ c (Proc.devRef .tc main_arg13) = m ((c : Thread nD τ).loc main_arg13) := (step5_main_arg13 m ρ c).trans (at4_main_arg13 m ρ c)
theorem at6_main_arg13 (c : Dev nD) : W6 m ρ c (Proc.devRef .tc main_arg13) = m ((c : Thread nD τ).loc main_arg13) := (step6_main_arg13 m ρ c).trans (at5_main_arg13 m ρ c)

/-! ### `main_arg14` -/

theorem step1_main_arg14 (c : Dev nD) : W1 m ρ c (Proc.devRef .tc main_arg14) = W0 m ρ c (Proc.devRef .tc main_arg14) := by
  show StableHlo.after hostOps0 (W0 m ρ c) (Proc.devRef .tc main_arg14) = _
  dsimp only [hostOps0]
  after_results
theorem step2_main_arg14 (c : Dev nD) : W2 m ρ c (Proc.devRef .tc main_arg14) = W1 m ρ c (Proc.devRef .tc main_arg14) :=
  W2_of_ne m ρ c main_arg14 (by decide)
theorem step3_main_arg14 (c : Dev nD) : W3 m ρ c (Proc.devRef .tc main_arg14) = W2 m ρ c (Proc.devRef .tc main_arg14) := by
  show StableHlo.after hostOps1 (W2 m ρ c) (Proc.devRef .tc main_arg14) = _
  dsimp only [hostOps1]
  after_results
theorem step4_main_arg14 (c : Dev nD) : W4 m ρ c (Proc.devRef .tc main_arg14) = W3 m ρ c (Proc.devRef .tc main_arg14) :=
  W4_of_ne m ρ c main_arg14 (by decide)
theorem step5_main_arg14 (c : Dev nD) : W5 m ρ c (Proc.devRef .tc main_arg14) = W4 m ρ c (Proc.devRef .tc main_arg14) := by
  show StableHlo.after hostOps2 (W4 m ρ c) (Proc.devRef .tc main_arg14) = _
  dsimp only [hostOps2]
  after_results
theorem step6_main_arg14 (c : Dev nD) : W6 m ρ c (Proc.devRef .tc main_arg14) = W5 m ρ c (Proc.devRef .tc main_arg14) :=
  W6_of_ne m ρ c main_arg14 (by decide)
theorem at1_main_arg14 (c : Dev nD) : W1 m ρ c (Proc.devRef .tc main_arg14) = m ((c : Thread nD τ).loc main_arg14) := step1_main_arg14 m ρ c
theorem at2_main_arg14 (c : Dev nD) : W2 m ρ c (Proc.devRef .tc main_arg14) = m ((c : Thread nD τ).loc main_arg14) := (step2_main_arg14 m ρ c).trans (at1_main_arg14 m ρ c)
theorem at3_main_arg14 (c : Dev nD) : W3 m ρ c (Proc.devRef .tc main_arg14) = m ((c : Thread nD τ).loc main_arg14) := (step3_main_arg14 m ρ c).trans (at2_main_arg14 m ρ c)
theorem at4_main_arg14 (c : Dev nD) : W4 m ρ c (Proc.devRef .tc main_arg14) = m ((c : Thread nD τ).loc main_arg14) := (step4_main_arg14 m ρ c).trans (at3_main_arg14 m ρ c)
theorem at5_main_arg14 (c : Dev nD) : W5 m ρ c (Proc.devRef .tc main_arg14) = m ((c : Thread nD τ).loc main_arg14) := (step5_main_arg14 m ρ c).trans (at4_main_arg14 m ρ c)
theorem at6_main_arg14 (c : Dev nD) : W6 m ρ c (Proc.devRef .tc main_arg14) = m ((c : Thread nD τ).loc main_arg14) := (step6_main_arg14 m ρ c).trans (at5_main_arg14 m ρ c)

/-! ### `main_arg15` -/

theorem step1_main_arg15 (c : Dev nD) : W1 m ρ c (Proc.devRef .tc main_arg15) = W0 m ρ c (Proc.devRef .tc main_arg15) := by
  show StableHlo.after hostOps0 (W0 m ρ c) (Proc.devRef .tc main_arg15) = _
  dsimp only [hostOps0]
  after_results
theorem step2_main_arg15 (c : Dev nD) : W2 m ρ c (Proc.devRef .tc main_arg15) = W1 m ρ c (Proc.devRef .tc main_arg15) :=
  W2_of_ne m ρ c main_arg15 (by decide)
theorem step3_main_arg15 (c : Dev nD) : W3 m ρ c (Proc.devRef .tc main_arg15) = W2 m ρ c (Proc.devRef .tc main_arg15) := by
  show StableHlo.after hostOps1 (W2 m ρ c) (Proc.devRef .tc main_arg15) = _
  dsimp only [hostOps1]
  after_results
theorem step4_main_arg15 (c : Dev nD) : W4 m ρ c (Proc.devRef .tc main_arg15) = W3 m ρ c (Proc.devRef .tc main_arg15) :=
  W4_of_ne m ρ c main_arg15 (by decide)
theorem step5_main_arg15 (c : Dev nD) : W5 m ρ c (Proc.devRef .tc main_arg15) = W4 m ρ c (Proc.devRef .tc main_arg15) := by
  show StableHlo.after hostOps2 (W4 m ρ c) (Proc.devRef .tc main_arg15) = _
  dsimp only [hostOps2]
  after_results
theorem step6_main_arg15 (c : Dev nD) : W6 m ρ c (Proc.devRef .tc main_arg15) = W5 m ρ c (Proc.devRef .tc main_arg15) :=
  W6_of_ne m ρ c main_arg15 (by decide)
theorem step7_main_arg15 (c : Dev nD) : W7 m ρ c (Proc.devRef .tc main_arg15) = W6 m ρ c (Proc.devRef .tc main_arg15) := by
  show StableHlo.after hostOps3 (W6 m ρ c) (Proc.devRef .tc main_arg15) = _
  dsimp only [hostOps3]
  after_results
theorem step8_main_arg15 (c : Dev nD) : W8 m ρ c (Proc.devRef .tc main_arg15) = W7 m ρ c (Proc.devRef .tc main_arg15) :=
  W8_of_ne m ρ c main_arg15 (by decide)
theorem at1_main_arg15 (c : Dev nD) : W1 m ρ c (Proc.devRef .tc main_arg15) = m ((c : Thread nD τ).loc main_arg15) := step1_main_arg15 m ρ c
theorem at2_main_arg15 (c : Dev nD) : W2 m ρ c (Proc.devRef .tc main_arg15) = m ((c : Thread nD τ).loc main_arg15) := (step2_main_arg15 m ρ c).trans (at1_main_arg15 m ρ c)
theorem at3_main_arg15 (c : Dev nD) : W3 m ρ c (Proc.devRef .tc main_arg15) = m ((c : Thread nD τ).loc main_arg15) := (step3_main_arg15 m ρ c).trans (at2_main_arg15 m ρ c)
theorem at4_main_arg15 (c : Dev nD) : W4 m ρ c (Proc.devRef .tc main_arg15) = m ((c : Thread nD τ).loc main_arg15) := (step4_main_arg15 m ρ c).trans (at3_main_arg15 m ρ c)
theorem at5_main_arg15 (c : Dev nD) : W5 m ρ c (Proc.devRef .tc main_arg15) = m ((c : Thread nD τ).loc main_arg15) := (step5_main_arg15 m ρ c).trans (at4_main_arg15 m ρ c)
theorem at6_main_arg15 (c : Dev nD) : W6 m ρ c (Proc.devRef .tc main_arg15) = m ((c : Thread nD τ).loc main_arg15) := (step6_main_arg15 m ρ c).trans (at5_main_arg15 m ρ c)
theorem at7_main_arg15 (c : Dev nD) : W7 m ρ c (Proc.devRef .tc main_arg15) = m ((c : Thread nD τ).loc main_arg15) := (step7_main_arg15 m ρ c).trans (at6_main_arg15 m ρ c)
theorem at8_main_arg15 (c : Dev nD) : W8 m ρ c (Proc.devRef .tc main_arg15) = m ((c : Thread nD τ).loc main_arg15) := (step8_main_arg15 m ρ c).trans (at7_main_arg15 m ρ c)

/-! ### `main_arg16` -/

theorem step1_main_arg16 (c : Dev nD) : W1 m ρ c (Proc.devRef .tc main_arg16) = W0 m ρ c (Proc.devRef .tc main_arg16) := by
  show StableHlo.after hostOps0 (W0 m ρ c) (Proc.devRef .tc main_arg16) = _
  dsimp only [hostOps0]
  after_results
theorem step2_main_arg16 (c : Dev nD) : W2 m ρ c (Proc.devRef .tc main_arg16) = W1 m ρ c (Proc.devRef .tc main_arg16) :=
  W2_of_ne m ρ c main_arg16 (by decide)
theorem step3_main_arg16 (c : Dev nD) : W3 m ρ c (Proc.devRef .tc main_arg16) = W2 m ρ c (Proc.devRef .tc main_arg16) := by
  show StableHlo.after hostOps1 (W2 m ρ c) (Proc.devRef .tc main_arg16) = _
  dsimp only [hostOps1]
  after_results
theorem step4_main_arg16 (c : Dev nD) : W4 m ρ c (Proc.devRef .tc main_arg16) = W3 m ρ c (Proc.devRef .tc main_arg16) :=
  W4_of_ne m ρ c main_arg16 (by decide)
theorem step5_main_arg16 (c : Dev nD) : W5 m ρ c (Proc.devRef .tc main_arg16) = W4 m ρ c (Proc.devRef .tc main_arg16) := by
  show StableHlo.after hostOps2 (W4 m ρ c) (Proc.devRef .tc main_arg16) = _
  dsimp only [hostOps2]
  after_results
theorem step6_main_arg16 (c : Dev nD) : W6 m ρ c (Proc.devRef .tc main_arg16) = W5 m ρ c (Proc.devRef .tc main_arg16) :=
  W6_of_ne m ρ c main_arg16 (by decide)
theorem step7_main_arg16 (c : Dev nD) : W7 m ρ c (Proc.devRef .tc main_arg16) = W6 m ρ c (Proc.devRef .tc main_arg16) := by
  show StableHlo.after hostOps3 (W6 m ρ c) (Proc.devRef .tc main_arg16) = _
  dsimp only [hostOps3]
  after_results
theorem step8_main_arg16 (c : Dev nD) : W8 m ρ c (Proc.devRef .tc main_arg16) = W7 m ρ c (Proc.devRef .tc main_arg16) :=
  W8_of_ne m ρ c main_arg16 (by decide)
theorem at1_main_arg16 (c : Dev nD) : W1 m ρ c (Proc.devRef .tc main_arg16) = m ((c : Thread nD τ).loc main_arg16) := step1_main_arg16 m ρ c
theorem at2_main_arg16 (c : Dev nD) : W2 m ρ c (Proc.devRef .tc main_arg16) = m ((c : Thread nD τ).loc main_arg16) := (step2_main_arg16 m ρ c).trans (at1_main_arg16 m ρ c)
theorem at3_main_arg16 (c : Dev nD) : W3 m ρ c (Proc.devRef .tc main_arg16) = m ((c : Thread nD τ).loc main_arg16) := (step3_main_arg16 m ρ c).trans (at2_main_arg16 m ρ c)
theorem at4_main_arg16 (c : Dev nD) : W4 m ρ c (Proc.devRef .tc main_arg16) = m ((c : Thread nD τ).loc main_arg16) := (step4_main_arg16 m ρ c).trans (at3_main_arg16 m ρ c)
theorem at5_main_arg16 (c : Dev nD) : W5 m ρ c (Proc.devRef .tc main_arg16) = m ((c : Thread nD τ).loc main_arg16) := (step5_main_arg16 m ρ c).trans (at4_main_arg16 m ρ c)
theorem at6_main_arg16 (c : Dev nD) : W6 m ρ c (Proc.devRef .tc main_arg16) = m ((c : Thread nD τ).loc main_arg16) := (step6_main_arg16 m ρ c).trans (at5_main_arg16 m ρ c)
theorem at7_main_arg16 (c : Dev nD) : W7 m ρ c (Proc.devRef .tc main_arg16) = m ((c : Thread nD τ).loc main_arg16) := (step7_main_arg16 m ρ c).trans (at6_main_arg16 m ρ c)
theorem at8_main_arg16 (c : Dev nD) : W8 m ρ c (Proc.devRef .tc main_arg16) = m ((c : Thread nD τ).loc main_arg16) := (step8_main_arg16 m ρ c).trans (at7_main_arg16 m ρ c)

/-! ### `main_arg17` -/

theorem step1_main_arg17 (c : Dev nD) : W1 m ρ c (Proc.devRef .tc main_arg17) = W0 m ρ c (Proc.devRef .tc main_arg17) := by
  show StableHlo.after hostOps0 (W0 m ρ c) (Proc.devRef .tc main_arg17) = _
  dsimp only [hostOps0]
  after_results
theorem step2_main_arg17 (c : Dev nD) : W2 m ρ c (Proc.devRef .tc main_arg17) = W1 m ρ c (Proc.devRef .tc main_arg17) :=
  W2_of_ne m ρ c main_arg17 (by decide)
theorem step3_main_arg17 (c : Dev nD) : W3 m ρ c (Proc.devRef .tc main_arg17) = W2 m ρ c (Proc.devRef .tc main_arg17) := by
  show StableHlo.after hostOps1 (W2 m ρ c) (Proc.devRef .tc main_arg17) = _
  dsimp only [hostOps1]
  after_results
theorem step4_main_arg17 (c : Dev nD) : W4 m ρ c (Proc.devRef .tc main_arg17) = W3 m ρ c (Proc.devRef .tc main_arg17) :=
  W4_of_ne m ρ c main_arg17 (by decide)
theorem step5_main_arg17 (c : Dev nD) : W5 m ρ c (Proc.devRef .tc main_arg17) = W4 m ρ c (Proc.devRef .tc main_arg17) := by
  show StableHlo.after hostOps2 (W4 m ρ c) (Proc.devRef .tc main_arg17) = _
  dsimp only [hostOps2]
  after_results
theorem step6_main_arg17 (c : Dev nD) : W6 m ρ c (Proc.devRef .tc main_arg17) = W5 m ρ c (Proc.devRef .tc main_arg17) :=
  W6_of_ne m ρ c main_arg17 (by decide)
theorem step7_main_arg17 (c : Dev nD) : W7 m ρ c (Proc.devRef .tc main_arg17) = W6 m ρ c (Proc.devRef .tc main_arg17) := by
  show StableHlo.after hostOps3 (W6 m ρ c) (Proc.devRef .tc main_arg17) = _
  dsimp only [hostOps3]
  after_results
theorem step8_main_arg17 (c : Dev nD) : W8 m ρ c (Proc.devRef .tc main_arg17) = W7 m ρ c (Proc.devRef .tc main_arg17) :=
  W8_of_ne m ρ c main_arg17 (by decide)
theorem at1_main_arg17 (c : Dev nD) : W1 m ρ c (Proc.devRef .tc main_arg17) = m ((c : Thread nD τ).loc main_arg17) := step1_main_arg17 m ρ c
theorem at2_main_arg17 (c : Dev nD) : W2 m ρ c (Proc.devRef .tc main_arg17) = m ((c : Thread nD τ).loc main_arg17) := (step2_main_arg17 m ρ c).trans (at1_main_arg17 m ρ c)
theorem at3_main_arg17 (c : Dev nD) : W3 m ρ c (Proc.devRef .tc main_arg17) = m ((c : Thread nD τ).loc main_arg17) := (step3_main_arg17 m ρ c).trans (at2_main_arg17 m ρ c)
theorem at4_main_arg17 (c : Dev nD) : W4 m ρ c (Proc.devRef .tc main_arg17) = m ((c : Thread nD τ).loc main_arg17) := (step4_main_arg17 m ρ c).trans (at3_main_arg17 m ρ c)
theorem at5_main_arg17 (c : Dev nD) : W5 m ρ c (Proc.devRef .tc main_arg17) = m ((c : Thread nD τ).loc main_arg17) := (step5_main_arg17 m ρ c).trans (at4_main_arg17 m ρ c)
theorem at6_main_arg17 (c : Dev nD) : W6 m ρ c (Proc.devRef .tc main_arg17) = m ((c : Thread nD τ).loc main_arg17) := (step6_main_arg17 m ρ c).trans (at5_main_arg17 m ρ c)
theorem at7_main_arg17 (c : Dev nD) : W7 m ρ c (Proc.devRef .tc main_arg17) = m ((c : Thread nD τ).loc main_arg17) := (step7_main_arg17 m ρ c).trans (at6_main_arg17 m ρ c)
theorem at8_main_arg17 (c : Dev nD) : W8 m ρ c (Proc.devRef .tc main_arg17) = m ((c : Thread nD τ).loc main_arg17) := (step8_main_arg17 m ρ c).trans (at7_main_arg17 m ρ c)

/-! ### `main_arg18` -/

theorem step1_main_arg18 (c : Dev nD) : W1 m ρ c (Proc.devRef .tc main_arg18) = W0 m ρ c (Proc.devRef .tc main_arg18) := by
  show StableHlo.after hostOps0 (W0 m ρ c) (Proc.devRef .tc main_arg18) = _
  dsimp only [hostOps0]
  after_results
theorem step2_main_arg18 (c : Dev nD) : W2 m ρ c (Proc.devRef .tc main_arg18) = W1 m ρ c (Proc.devRef .tc main_arg18) :=
  W2_of_ne m ρ c main_arg18 (by decide)
theorem step3_main_arg18 (c : Dev nD) : W3 m ρ c (Proc.devRef .tc main_arg18) = W2 m ρ c (Proc.devRef .tc main_arg18) := by
  show StableHlo.after hostOps1 (W2 m ρ c) (Proc.devRef .tc main_arg18) = _
  dsimp only [hostOps1]
  after_results
theorem step4_main_arg18 (c : Dev nD) : W4 m ρ c (Proc.devRef .tc main_arg18) = W3 m ρ c (Proc.devRef .tc main_arg18) :=
  W4_of_ne m ρ c main_arg18 (by decide)
theorem step5_main_arg18 (c : Dev nD) : W5 m ρ c (Proc.devRef .tc main_arg18) = W4 m ρ c (Proc.devRef .tc main_arg18) := by
  show StableHlo.after hostOps2 (W4 m ρ c) (Proc.devRef .tc main_arg18) = _
  dsimp only [hostOps2]
  after_results
theorem step6_main_arg18 (c : Dev nD) : W6 m ρ c (Proc.devRef .tc main_arg18) = W5 m ρ c (Proc.devRef .tc main_arg18) :=
  W6_of_ne m ρ c main_arg18 (by decide)
theorem step7_main_arg18 (c : Dev nD) : W7 m ρ c (Proc.devRef .tc main_arg18) = W6 m ρ c (Proc.devRef .tc main_arg18) := by
  show StableHlo.after hostOps3 (W6 m ρ c) (Proc.devRef .tc main_arg18) = _
  dsimp only [hostOps3]
  after_results
theorem step8_main_arg18 (c : Dev nD) : W8 m ρ c (Proc.devRef .tc main_arg18) = W7 m ρ c (Proc.devRef .tc main_arg18) :=
  W8_of_ne m ρ c main_arg18 (by decide)
theorem at1_main_arg18 (c : Dev nD) : W1 m ρ c (Proc.devRef .tc main_arg18) = m ((c : Thread nD τ).loc main_arg18) := step1_main_arg18 m ρ c
theorem at2_main_arg18 (c : Dev nD) : W2 m ρ c (Proc.devRef .tc main_arg18) = m ((c : Thread nD τ).loc main_arg18) := (step2_main_arg18 m ρ c).trans (at1_main_arg18 m ρ c)
theorem at3_main_arg18 (c : Dev nD) : W3 m ρ c (Proc.devRef .tc main_arg18) = m ((c : Thread nD τ).loc main_arg18) := (step3_main_arg18 m ρ c).trans (at2_main_arg18 m ρ c)
theorem at4_main_arg18 (c : Dev nD) : W4 m ρ c (Proc.devRef .tc main_arg18) = m ((c : Thread nD τ).loc main_arg18) := (step4_main_arg18 m ρ c).trans (at3_main_arg18 m ρ c)
theorem at5_main_arg18 (c : Dev nD) : W5 m ρ c (Proc.devRef .tc main_arg18) = m ((c : Thread nD τ).loc main_arg18) := (step5_main_arg18 m ρ c).trans (at4_main_arg18 m ρ c)
theorem at6_main_arg18 (c : Dev nD) : W6 m ρ c (Proc.devRef .tc main_arg18) = m ((c : Thread nD τ).loc main_arg18) := (step6_main_arg18 m ρ c).trans (at5_main_arg18 m ρ c)
theorem at7_main_arg18 (c : Dev nD) : W7 m ρ c (Proc.devRef .tc main_arg18) = m ((c : Thread nD τ).loc main_arg18) := (step7_main_arg18 m ρ c).trans (at6_main_arg18 m ρ c)
theorem at8_main_arg18 (c : Dev nD) : W8 m ρ c (Proc.devRef .tc main_arg18) = m ((c : Thread nD τ).loc main_arg18) := (step8_main_arg18 m ρ c).trans (at7_main_arg18 m ρ c)

/-! ### `main_v1` -/

theorem step2_main_v1 (c : Dev nD) : W2 m ρ c (Proc.devRef .tc main_v1) = W1 m ρ c (Proc.devRef .tc main_v1) :=
  W2_of_ne m ρ c main_v1 (by decide)
theorem step3_main_v1 (c : Dev nD) : W3 m ρ c (Proc.devRef .tc main_v1) = W2 m ρ c (Proc.devRef .tc main_v1) := by
  show StableHlo.after hostOps1 (W2 m ρ c) (Proc.devRef .tc main_v1) = _
  dsimp only [hostOps1]
  after_results
theorem step4_main_v1 (c : Dev nD) : W4 m ρ c (Proc.devRef .tc main_v1) = W3 m ρ c (Proc.devRef .tc main_v1) :=
  W4_of_ne m ρ c main_v1 (by decide)
theorem step5_main_v1 (c : Dev nD) : W5 m ρ c (Proc.devRef .tc main_v1) = W4 m ρ c (Proc.devRef .tc main_v1) := by
  show StableHlo.after hostOps2 (W4 m ρ c) (Proc.devRef .tc main_v1) = _
  dsimp only [hostOps2]
  after_results
theorem step6_main_v1 (c : Dev nD) : W6 m ρ c (Proc.devRef .tc main_v1) = W5 m ρ c (Proc.devRef .tc main_v1) :=
  W6_of_ne m ρ c main_v1 (by decide)
theorem step7_main_v1 (c : Dev nD) : W7 m ρ c (Proc.devRef .tc main_v1) = W6 m ρ c (Proc.devRef .tc main_v1) := by
  show StableHlo.after hostOps3 (W6 m ρ c) (Proc.devRef .tc main_v1) = _
  dsimp only [hostOps3]
  after_results
theorem step8_main_v1 (c : Dev nD) : W8 m ρ c (Proc.devRef .tc main_v1) = W7 m ρ c (Proc.devRef .tc main_v1) :=
  W8_of_ne m ρ c main_v1 (by decide)
theorem at2_main_v1 (c : Dev nD) : W2 m ρ c (Proc.devRef .tc main_v1) = W1 m ρ c (Proc.devRef .tc main_v1) := step2_main_v1 m ρ c
theorem at3_main_v1 (c : Dev nD) : W3 m ρ c (Proc.devRef .tc main_v1) = W1 m ρ c (Proc.devRef .tc main_v1) := (step3_main_v1 m ρ c).trans (at2_main_v1 m ρ c)
theorem at4_main_v1 (c : Dev nD) : W4 m ρ c (Proc.devRef .tc main_v1) = W1 m ρ c (Proc.devRef .tc main_v1) := (step4_main_v1 m ρ c).trans (at3_main_v1 m ρ c)
theorem at5_main_v1 (c : Dev nD) : W5 m ρ c (Proc.devRef .tc main_v1) = W1 m ρ c (Proc.devRef .tc main_v1) := (step5_main_v1 m ρ c).trans (at4_main_v1 m ρ c)
theorem at6_main_v1 (c : Dev nD) : W6 m ρ c (Proc.devRef .tc main_v1) = W1 m ρ c (Proc.devRef .tc main_v1) := (step6_main_v1 m ρ c).trans (at5_main_v1 m ρ c)
theorem at7_main_v1 (c : Dev nD) : W7 m ρ c (Proc.devRef .tc main_v1) = W1 m ρ c (Proc.devRef .tc main_v1) := (step7_main_v1 m ρ c).trans (at6_main_v1 m ρ c)
theorem at8_main_v1 (c : Dev nD) : W8 m ρ c (Proc.devRef .tc main_v1) = W1 m ρ c (Proc.devRef .tc main_v1) := (step8_main_v1 m ρ c).trans (at7_main_v1 m ρ c)

/-! ### `main_v3` -/

theorem step2_main_v3 (c : Dev nD) : W2 m ρ c (Proc.devRef .tc main_v3) = W1 m ρ c (Proc.devRef .tc main_v3) :=
  W2_of_ne m ρ c main_v3 (by decide)
theorem step3_main_v3 (c : Dev nD) : W3 m ρ c (Proc.devRef .tc main_v3) = W2 m ρ c (Proc.devRef .tc main_v3) := by
  show StableHlo.after hostOps1 (W2 m ρ c) (Proc.devRef .tc main_v3) = _
  dsimp only [hostOps1]
  after_results
theorem step4_main_v3 (c : Dev nD) : W4 m ρ c (Proc.devRef .tc main_v3) = W3 m ρ c (Proc.devRef .tc main_v3) :=
  W4_of_ne m ρ c main_v3 (by decide)
theorem step5_main_v3 (c : Dev nD) : W5 m ρ c (Proc.devRef .tc main_v3) = W4 m ρ c (Proc.devRef .tc main_v3) := by
  show StableHlo.after hostOps2 (W4 m ρ c) (Proc.devRef .tc main_v3) = _
  dsimp only [hostOps2]
  after_results
theorem step6_main_v3 (c : Dev nD) : W6 m ρ c (Proc.devRef .tc main_v3) = W5 m ρ c (Proc.devRef .tc main_v3) :=
  W6_of_ne m ρ c main_v3 (by decide)
theorem step7_main_v3 (c : Dev nD) : W7 m ρ c (Proc.devRef .tc main_v3) = W6 m ρ c (Proc.devRef .tc main_v3) := by
  show StableHlo.after hostOps3 (W6 m ρ c) (Proc.devRef .tc main_v3) = _
  dsimp only [hostOps3]
  after_results
theorem step8_main_v3 (c : Dev nD) : W8 m ρ c (Proc.devRef .tc main_v3) = W7 m ρ c (Proc.devRef .tc main_v3) :=
  W8_of_ne m ρ c main_v3 (by decide)
theorem at2_main_v3 (c : Dev nD) : W2 m ρ c (Proc.devRef .tc main_v3) = W1 m ρ c (Proc.devRef .tc main_v3) := step2_main_v3 m ρ c
theorem at3_main_v3 (c : Dev nD) : W3 m ρ c (Proc.devRef .tc main_v3) = W1 m ρ c (Proc.devRef .tc main_v3) := (step3_main_v3 m ρ c).trans (at2_main_v3 m ρ c)
theorem at4_main_v3 (c : Dev nD) : W4 m ρ c (Proc.devRef .tc main_v3) = W1 m ρ c (Proc.devRef .tc main_v3) := (step4_main_v3 m ρ c).trans (at3_main_v3 m ρ c)
theorem at5_main_v3 (c : Dev nD) : W5 m ρ c (Proc.devRef .tc main_v3) = W1 m ρ c (Proc.devRef .tc main_v3) := (step5_main_v3 m ρ c).trans (at4_main_v3 m ρ c)
theorem at6_main_v3 (c : Dev nD) : W6 m ρ c (Proc.devRef .tc main_v3) = W1 m ρ c (Proc.devRef .tc main_v3) := (step6_main_v3 m ρ c).trans (at5_main_v3 m ρ c)
theorem at7_main_v3 (c : Dev nD) : W7 m ρ c (Proc.devRef .tc main_v3) = W1 m ρ c (Proc.devRef .tc main_v3) := (step7_main_v3 m ρ c).trans (at6_main_v3 m ρ c)
theorem at8_main_v3 (c : Dev nD) : W8 m ρ c (Proc.devRef .tc main_v3) = W1 m ρ c (Proc.devRef .tc main_v3) := (step8_main_v3 m ρ c).trans (at7_main_v3 m ρ c)

/-! ### `main_v30` -/

theorem step5_main_v30 (c : Dev nD) : W5 m ρ c (Proc.devRef .tc main_v30) = W4 m ρ c (Proc.devRef .tc main_v30) := by
  show StableHlo.after hostOps2 (W4 m ρ c) (Proc.devRef .tc main_v30) = _
  dsimp only [hostOps2]
  after_results
theorem step6_main_v30 (c : Dev nD) : W6 m ρ c (Proc.devRef .tc main_v30) = W5 m ρ c (Proc.devRef .tc main_v30) :=
  W6_of_ne m ρ c main_v30 (by decide)
theorem step7_main_v30 (c : Dev nD) : W7 m ρ c (Proc.devRef .tc main_v30) = W6 m ρ c (Proc.devRef .tc main_v30) := by
  show StableHlo.after hostOps3 (W6 m ρ c) (Proc.devRef .tc main_v30) = _
  dsimp only [hostOps3]
  after_results
theorem at5_main_v30 (c : Dev nD) : W5 m ρ c (Proc.devRef .tc main_v30) = W4 m ρ c (Proc.devRef .tc main_v30) := step5_main_v30 m ρ c
theorem at6_main_v30 (c : Dev nD) : W6 m ρ c (Proc.devRef .tc main_v30) = W4 m ρ c (Proc.devRef .tc main_v30) := (step6_main_v30 m ρ c).trans (at5_main_v30 m ρ c)
theorem at7_main_v30 (c : Dev nD) : W7 m ρ c (Proc.devRef .tc main_v30) = W4 m ρ c (Proc.devRef .tc main_v30) := (step7_main_v30 m ρ c).trans (at6_main_v30 m ρ c)

end Cert.KernelIdeal.Carried

end
-- ==== Proof.LibMatRead.lean ====
/- Vector operations of the ideal float instance read at an entry: reductions along the last axis of a
   matrix or the middle axis of a stack, a column broadcast over rows, slices, casts and concatenations
   of a stack of matrices, and the identity mask. Stated for any extents. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Lib.MatRead

open Idealize.ShloMosaic Idealize.ShloMosaic.ValueIdx
open scoped BigOperators

variable {φ : FTy}

/-! ### The index a reduction inserts -/

/-- Row i of a matrix with column k put back: (i, k). -/
theorem lift_row {a b : ℕ} (h : (⟨2, ![a, b]⟩ : Shape).Reduces [1] ⟨1, ![a]⟩) (i : Fin a) (k : Fin b) :
    h.lift (ix1 i) k = ix2 i k := by
  funext c; apply Fin.ext
  match c with
  | ⟨0, _⟩ => rfl
  | ⟨1, _⟩ => rfl

/-- Entry (g, j) of a stack's column sums with the row s put back: (g, s, j). -/
theorem lift_mid {m a b : ℕ} (h : (⟨3, ![m, a, b]⟩ : Shape).Reduces [1] ⟨2, ![m, b]⟩) (g : Fin m) (j : Fin b) (s : Fin a) :
    h.lift (ix2 g j) s = ix3 g s j := by
  funext c; apply Fin.ext
  match c with
  | ⟨0, _⟩ => rfl
  | ⟨1, _⟩ => rfl
  | ⟨2, _⟩ => rfl

/-! ### Reductions -/

/-- The sum along a matrix's rows. -/
theorem rowSum_read {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ t : Fin b, X (ix2 i t) := by
  rw [Ideal.multiReduction_add_single]
  exact Finset.sum_congr rfl fun t _ => congrArg X (lift_row h i t)

/-- The maximum along a matrix's rows, folded from the accumulator's word. -/
theorem rowMax_read {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun t => X (ix2 i t)) := by
  rw [Ideal.multiReduction_maximumf_single]
  congr 1
  funext t
  exact congrArg X (lift_row h i t)

/-- The sums down the columns of each matrix of a stack. -/
theorem colSum_read {m a b : ℕ} (X : FVec Ideal ⟨3, ![m, a, b]⟩ φ) (acc : BitVec φ.bits)
    (h : (⟨3, ![m, a, b]⟩ : Shape).Reduces [1] ⟨2, ![m, b]⟩) (hφ : FKind.Formats φ) (hacc : acc = FKind.add.neutral φ hφ)
    (g : Fin m) (j : Fin b) :
    multiReduction .add [1] ⟨2, ![m, b]⟩ X acc h hφ hacc (ix2 g j) = ∑ s : Fin a, X (ix3 g s j) := by
  rw [Ideal.multiReduction_add_single]
  exact Finset.sum_congr rfl fun s _ => congrArg X (lift_mid h g j s)

/-! ### A vector of row values spread over the columns -/

/-- A vector cast to a one-column matrix and broadcast over b columns reads, at (i, j), the vector at i. -/
theorem colBcast_read {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩) (i : Fin a) (j : Fin b) :
    broadcastTo ⟨2, ![a, b]⟩ (shapeCast ⟨2, ![a, 1]⟩ v hc) hb (ix2 i j) = v (ix1 i) := by
  rw [broadcastTo_apply _ hb (ix2 i j) (ix2 i (0 : Fin 1)) (fun ax => by
    match ax with
    | ⟨0, _⟩ =>
      show i.val = if a = 1 then 0 else i.val
      split
      · have := i.isLt; omega
      · rfl
    | ⟨1, _⟩ => rfl)]
  exact shapeCast_apply v hc _ _ (by
    rw [Shape.rowMajor_val_one, Shape.rowMajor_val_two]
    show i.val = i.val * 1 + 0
    omega)

/-! ### Casts and broadcasts of a stack of matrices -/

section Layout
variable {α : Type}

/-- A vector of m values cast to m × 1 and then to m × 1 × 1 reads, at (g, ·, ·), the vector at g. -/
theorem cast_m_m11_read {m : ℕ} (v : (⟨1, ![m]⟩ : Shape).Idx → α)
    (h1 : (⟨1, ![m]⟩ : Shape).ShapeCasts ⟨2, ![m, 1]⟩) (h2 : (⟨2, ![m, 1]⟩ : Shape).ShapeCasts ⟨3, ![m, 1, 1]⟩)
    (g : Fin m) (u u' : Fin 1) :
    shapeCast ⟨3, ![m, 1, 1]⟩ (shapeCast ⟨2, ![m, 1]⟩ v h1) h2 (ix3 g u u') = v (ix1 g) := by
  have hu : u.val = 0 := by omega
  have hu' : u'.val = 0 := by omega
  rw [shapeCast_apply _ h2 (ix3 g u u') (ix2 g (0 : Fin 1)) (by
    rw [Shape.rowMajor_val_two, Shape.rowMajor_val_three]
    show g.val * 1 + 0 = (g.val * 1 + u.val) * 1 + u'.val
    omega)]
  exact shapeCast_apply v h1 _ _ (by
    rw [Shape.rowMajor_val_one, Shape.rowMajor_val_two]
    show g.val = g.val * 1 + 0
    omega)

/-- An m × 1 × 1 stack of scalars broadcast to m × a × b reads, at (g, i, j), the scalar of g. -/
theorem bcast_m11_read {m a b : ℕ} (x : (⟨3, ![m, 1, 1]⟩ : Shape).Idx → α)
    (h : (⟨3, ![m, 1, 1]⟩ : Shape).Broadcasts ⟨3, ![m, a, b]⟩) (g : Fin m) (i : Fin a) (j : Fin b) :
    broadcastTo ⟨3, ![m, a, b]⟩ x h (ix3 g i j) = x (ix3 g (0 : Fin 1) (0 : Fin 1)) := by
  refine broadcastTo_apply x h (ix3 g i j) (ix3 g (0 : Fin 1) (0 : Fin 1)) fun ax => ?_
  match ax with
  | ⟨0, _⟩ =>
    show g.val = if m = 1 then 0 else g.val
    split
    · have := g.isLt; omega
    · rfl
  | ⟨1, _⟩ => rfl
  | ⟨2, _⟩ => rfl

/-- One matrix broadcast to a stack of m reads, at (g, i, j), the matrix at (i, j). -/
theorem bcast_1ab_read {m a b : ℕ} (x : (⟨3, ![1, a, b]⟩ : Shape).Idx → α)
    (h : (⟨3, ![1, a, b]⟩ : Shape).Broadcasts ⟨3, ![m, a, b]⟩) (g : Fin m) (i : Fin a) (j : Fin b) :
    broadcastTo ⟨3, ![m, a, b]⟩ x h (ix3 g i j) = x (ix3 (0 : Fin 1) i j) := by
  refine broadcastTo_apply x h (ix3 g i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Matrix g of a stack, sliced out as a stack of one and cast to a matrix, reads the stack at (g, i, j). -/
theorem sliceMat_read {m a b : ℕ} (o : ℕ) (x : (⟨3, ![m, a, b]⟩ : Shape).Idx → α)
    (hs : (⟨3, ![m, a, b]⟩ : Shape).Slices ![o, 0, 0] ⟨3, ![1, a, b]⟩)
    (hc : (⟨3, ![1, a, b]⟩ : Shape).ShapeCasts ⟨2, ![a, b]⟩) (g : Fin m) (hg : g.val = o) (i : Fin a) (j : Fin b) :
    shapeCast ⟨2, ![a, b]⟩ (extractStridedSlice ⟨3, ![1, a, b]⟩ ![o, 0, 0] x hs) hc (ix2 i j) = x (ix3 g i j) := by
  rw [shapeCast_1ab_ab_apply]
  refine extractStridedSlice_apply _ x hs _ (ix3 g i j) fun ax => ?_
  match ax with
  | ⟨0, _⟩ => show g.val = o + 0; omega
  | ⟨1, _⟩ => show i.val = 0 + i.val; omega
  | ⟨2, _⟩ => show j.val = 0 + j.val; omega

/-- Columns o … o + w' − 1 of a matrix, sliced out, read the matrix at (i, o + d). -/
theorem sliceCols_read {n w w' : ℕ} (o : ℕ) (x : (⟨2, ![n, w]⟩ : Shape).Idx → α)
    (h : (⟨2, ![n, w]⟩ : Shape).Slices ![0, o] ⟨2, ![n, w']⟩) (i : Fin n) (d : Fin w') (c : Fin w) (hc : c.val = o + d.val) :
    extractStridedSlice ⟨2, ![n, w']⟩ ![0, o] x h (ix2 i d) = x (ix2 i c) := by
  refine extractStridedSlice_apply _ x h _ (ix2 i c) fun ax => ?_
  match ax with
  | ⟨0, _⟩ => show i.val = 0 + i.val; omega
  | ⟨1, _⟩ => exact hc

/-- Two matrices set side by side: a column of the first. -/
theorem concatCols_left {n w1 w2 w : ℕ} (x1 : (⟨2, ![n, w1]⟩ : Shape).Idx → α) (x2 : (⟨2, ![n, w2]⟩ : Shape).Idx → α)
    (h : Shape.Concatenates [⟨2, ![n, w1]⟩, ⟨2, ![n, w2]⟩] ⟨2, ![n, w]⟩ 1) (i : Fin n) (d : Fin w1) (c : Fin w) (hc : c.val = d.val) :
    concatenate ⟨2, ![n, w]⟩ 1 [⟨⟨2, ![n, w1]⟩, x1⟩, ⟨⟨2, ![n, w2]⟩, x2⟩] h (ix2 i c) = x1 (ix2 i d) := by
  refine concatenate_pair_apply_left 1 x1 x2 h (ix2 i c) rfl (ix2 i d) fun ax => ?_
  match ax with
  | ⟨0, _⟩ => rfl
  | ⟨1, _⟩ => exact hc.symm

/-- Two matrices set side by side: a column of the second. -/
theorem concatCols_right {n w1 w2 w : ℕ} (x1 : (⟨2, ![n, w1]⟩ : Shape).Idx → α) (x2 : (⟨2, ![n, w2]⟩ : Shape).Idx → α)
    (h : Shape.Concatenates [⟨2, ![n, w1]⟩, ⟨2, ![n, w2]⟩] ⟨2, ![n, w]⟩ 1) (i : Fin n) (d : Fin w2) (c : Fin w) (hc : c.val = d.val + w1) :
    concatenate ⟨2, ![n, w]⟩ 1 [⟨⟨2, ![n, w1]⟩, x1⟩, ⟨⟨2, ![n, w2]⟩, x2⟩] h (ix2 i c) = x2 (ix2 i d) := by
  refine concatenate_pair_apply_right 1 x1 x2 h (ix2 i c) rfl rfl (ix2 i d) (fun ax hne => ?_) hc.symm
  match ax with
  | ⟨0, _⟩ => rfl
  | ⟨1, _⟩ => exact absurd rfl hne

/-- Two matrices stacked: the first. -/
theorem stack2_fst {a b : ℕ} (x1 x2 : (⟨3, ![1, a, b]⟩ : Shape).Idx → α)
    (h : Shape.Concatenates [⟨3, ![1, a, b]⟩, ⟨3, ![1, a, b]⟩] ⟨3, ![2, a, b]⟩ 0) (i : Fin a) (j : Fin b) :
    concatenate ⟨3, ![2, a, b]⟩ 0 [⟨⟨3, ![1, a, b]⟩, x1⟩, ⟨⟨3, ![1, a, b]⟩, x2⟩] h (ix3 (0 : Fin 2) i j) = x1 (ix3 (0 : Fin 1) i j) := by
  refine concatenate_pair_apply_left 0 x1 x2 h (ix3 (0 : Fin 2) i j) rfl (ix3 (0 : Fin 1) i j) fun ax => ?_
  match ax with
  | ⟨0, _⟩ => rfl
  | ⟨1, _⟩ => rfl
  | ⟨2, _⟩ => rfl

/-- Two matrices stacked: the second. -/
theorem stack2_snd {a b : ℕ} (x1 x2 : (⟨3, ![1, a, b]⟩ : Shape).Idx → α)
    (h : Shape.Concatenates [⟨3, ![1, a, b]⟩, ⟨3, ![1, a, b]⟩] ⟨3, ![2, a, b]⟩ 0) (i : Fin a) (j : Fin b) :
    concatenate ⟨3, ![2, a, b]⟩ 0 [⟨⟨3, ![1, a, b]⟩, x1⟩, ⟨⟨3, ![1, a, b]⟩, x2⟩] h (ix3 (1 : Fin 2) i j) = x2 (ix3 (0 : Fin 1) i j) := by
  refine concatenate_pair_apply_right 0 x1 x2 h (ix3 (1 : Fin 2) i j) rfl rfl (ix3 (0 : Fin 1) i j) (fun ax hne => ?_) rfl
  match ax with
  | ⟨0, _⟩ => exact absurd rfl hne
  | ⟨1, _⟩ => rfl
  | ⟨2, _⟩ => rfl

end Layout

/-! ### The identity mask -/

/-- Comparing the row and column counters of an n × n array for equality gives the bit 1 on the diagonal and 0 off it
    (the counters are below 2³²). -/
theorem iotaEq_read {n : ℕ} (hn : n ≤ 4294967296) (κ : Kind) (h0 : (⟨2, ![n, n]⟩ : Shape).Iotas κ 32 [0])
    (h1 : (⟨2, ![n, n]⟩ : Shape).Iotas κ 32 [1]) (i j : Fin n) :
    cmpi .eq (iota κ ⟨2, ![n, n]⟩ 32 [0] h0) (iota κ ⟨2, ![n, n]⟩ 32 [1] h1) (ix2 i j) = if i = j then 1#1 else 0#1 := by
  show IntOp.cmpi .eq (iota κ ⟨2, ![n, n]⟩ 32 [0] h0 (ix2 i j)) (iota κ ⟨2, ![n, n]⟩ 32 [1] h1 (ix2 i j)) = _
  rw [iota_single_apply, iota_single_apply]
  show BitVec.ofBool (BitVec.ofNat 32 i.val == BitVec.ofNat 32 j.val) = _
  have hi := i.isLt; have hj := j.isLt
  by_cases hij : i = j
  · subst hij; simp
  · rw [if_neg hij]
    have hne : (BitVec.ofNat 32 i.val == BitVec.ofNat 32 j.val) = false := by
      rw [beq_eq_false_iff_ne]
      intro he
      have := congrArg BitVec.toNat he
      simp only [BitVec.toNat_ofNat] at this
      rw [Nat.mod_eq_of_lt (by omega), Nat.mod_eq_of_lt (by omega)] at this
      exact hij (Fin.ext this)
    rw [hne]; rfl

end Cert.Lib.MatRead

end
-- ==== Proof.LibMatProd.lean ====
/- Matrix products of the ideal float instance read at an entry, for any extents: a rows-by-columns product
   (contracting the left operand's columns with the right operand's rows) accumulated into the zero matrix, and
   the host's product of the same pattern, are both, at (p, q), the sum over t of left (p, t) · right (t, q). -/
import Idealize.ShloMosaic.PureOps.Ideal
import Idealize.ShloMosaic.PureOps.Ideal.Laws
import Idealize.ShloMosaic.Lib.ValueIdx

noncomputable section

namespace Cert.Lib.MatProd

open Idealize.ShloMosaic Idealize.ShloMosaic.ValueIdx
open scoped BigOperators

variable {M K N : ℕ} {φ₁ φ₂ : FTy}

/-- The left operand's index at result entry j and contraction coordinate t: row j₀, column t. -/
theorem plain_lhs (j : (⟨2, ![M, N]⟩ : Shape).Idx) (t : Fin K) :
    (DotDims.plain M K N).lhsIdx j ((contrEquiv1 (DotDims.plain M K N) K rfl rfl).symm t) = ix2 (j 0) t := by
  funext a; apply Fin.ext
  match a with
  | ⟨0, _⟩ => rfl
  | ⟨1, _⟩ =>
    exact ((DotDims.plain M K N).lhsIdx_val_of_single rfl j _).trans
      (contrEquiv1_symm_val (DotDims.plain M K N) K rfl rfl t)

/-- The right operand's index at result entry j and contraction coordinate t: row t, column j₁. -/
theorem plain_rhs (j : (⟨2, ![M, N]⟩ : Shape).Idx) (t : Fin K) :
    (DotDims.plain M K N).rhsIdx j ((contrEquiv1 (DotDims.plain M K N) K rfl rfl).symm t) = ix2 t (j 1) := by
  funext a; apply Fin.ext
  match a with
  | ⟨0, _⟩ =>
    exact ((DotDims.plain M K N).rhsIdx_val_of_single rfl j _).trans
      (contrEquiv1_symm_val (DotDims.plain M K N) K rfl rfl t)
  | ⟨1, _⟩ => rfl

/-- A product accumulated into the zero matrix, read at (p, q). -/
theorem matmul_zero_read (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant (F := Ideal) ⟨2, ![M, N]⟩ .f32 0x00000000#32) (ix2 p q)
      = ∑ t : Fin K, l (ix2 p t) * r (ix2 t q) := by
  refine (Ideal.matmul_constant_zero_apply (DotDims.plain M K N) prec l r (ix2 p q)).trans ?_
  rw [← Equiv.sum_comp (contrEquiv1 (DotDims.plain M K N) K rfl rfl).symm]
  exact Finset.sum_congr rfl fun t _ => by rw [plain_lhs, plain_rhs]; rfl

/-- The host's product, read at (p, q). -/
theorem dotGeneral_read (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ t : Fin K, l (ix2 p t) * r (ix2 t q) := by
  refine (Ideal.dotGeneral_apply (DotDims.plain M K N) prec sched l r (ix2 p q)).trans ?_
  rw [← Equiv.sum_comp (contrEquiv1 (DotDims.plain M K N) K rfl rfl).symm]
  exact Finset.sum_congr rfl fun t _ => by rw [plain_lhs, plain_rhs]; rfl

end Cert.Lib.MatProd

end
-- ==== Proof.LibHostMatRead.lean ====
/- Host operations of the ideal float instance read at an entry of a matrix, for any extents: a scalar
   splat, a vector spread over the rows or over the columns through a one-row or one-column matrix by two
   broadcasts, and the one-axis reductions along the rows — the maximum (any commutative, associative
   operation) as a fold from the initial value, the sum as the initial value plus the row's sum. -/
import Idealize.ShloMosaic.PureOps.Ideal
import Idealize.ShloMosaic.PureOps.Ideal.Laws
import Idealize.ShloMosaic.Lib.ValueIdx
import Idealize.ShloMosaic.Lib.Pipeline.Value
import proofs.«128431_j42597485641878_1_alg».proof.Proof.LibMatRead

noncomputable section

namespace Cert.Lib.HostMatRead

open Idealize.ShloMosaic Idealize.ShloMosaic.ValueIdx
open scoped BigOperators

variable {α : Type}

/-- A scalar splat reads the scalar everywhere. -/
theorem splat_read {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun ax => ax.elim0)

/-- A vector made a one-row matrix and repeated down a rows reads, at (i, j), the vector at j. -/
theorem rowBcast_read {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (j : Fin b) :
    broadcastInDim ⟨2, ![a, b]⟩ ![0, 1] h2 (broadcastInDim ⟨2, ![1, b]⟩ ![1] h1 v) (ix2 i j) = v (ix1 j) := by
  refine (broadcastInDim_apply ![0, 1] h2 _ (ix2 i j) (ix2 (0 : Fin 1) j) (fun ax => ?_)).trans
    (broadcastInDim_apply ![1] h1 v (ix2 (0 : Fin 1) j) (ix1 j) (fun ax => ?_))
  · match ax with
    | ⟨0, _⟩ => rfl
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A vector made a one-column matrix and repeated over b columns reads, at (i, j), the vector at i. -/
theorem colBcast_read {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (j : Fin b) :
    broadcastInDim ⟨2, ![a, b]⟩ ![0, 1] h2 (broadcastInDim ⟨2, ![a, 1]⟩ ![0] h1 v) (ix2 i j) = v (ix1 i) := by
  refine (broadcastInDim_apply ![0, 1] h2 _ (ix2 i j) (ix2 i (0 : Fin 1)) (fun ax => ?_)).trans
    (broadcastInDim_apply ![0] h1 v (ix2 i (0 : Fin 1)) (ix1 i) (fun ax => ?_))
  · match ax with
    | ⟨0, _⟩ =>
      show i.val = if a = 1 then 0 else i.val
      split
      · have := i.isLt; omega
      · rfl
    | ⟨1, _⟩ => rfl
  · match ax with
    | ⟨0, _⟩ =>
      show i.val = if a = 1 then 0 else i.val
      split
      · have := i.isLt; omega
      · rfl

/-- A vector made a one-column matrix reads, at (i, 0), the vector at i. -/
theorem col_read {a : ℕ} (v : (⟨1, ![a]⟩ : Shape).Idx → α)
    (h1 : (⟨1, ![a]⟩ : Shape).BroadcastsInDim ⟨2, ![a, 1]⟩ (![0] : Fin 1 → Fin 2)) (i : Fin a) (u : Fin 1) :
    broadcastInDim ⟨2, ![a, 1]⟩ ![0] h1 v (ix2 i u) = v (ix1 i) := by
  refine broadcastInDim_apply ![0] h1 v (ix2 i u) (ix1 i) (fun ax => ?_)
  match ax with
  | ⟨0, _⟩ =>
    show i.val = if a = 1 then 0 else i.val
    split
    · have := i.isLt; omega
    · rfl

/-- A one-column matrix repeated over b columns reads, at (i, j), the column at (i, 0). -/
theorem colRepeat_read {a b : ℕ} (x : (⟨2, ![a, 1]⟩ : Shape).Idx → α)
    (h2 : (⟨2, ![a, 1]⟩ : Shape).BroadcastsInDim ⟨2, ![a, b]⟩ (![0, 1] : Fin 2 → Fin 2)) (i : Fin a) (j : Fin b) :
    broadcastInDim ⟨2, ![a, b]⟩ ![0, 1] h2 x (ix2 i j) = x (ix2 i (0 : Fin 1)) := by
  refine broadcastInDim_apply ![0, 1] h2 x (ix2 i j) (ix2 i (0 : Fin 1)) (fun ax => ?_)
  match ax with
  | ⟨0, _⟩ =>
    show i.val = if a = 1 then 0 else i.val
    split
    · have := i.isLt; omega
    · rfl
  | ⟨1, _⟩ => rfl

/-- The host's reduction of each row by a commutative, associative operation: the fold over the row from the
    initial value. -/
theorem rowFold_read {a b : ℕ} (f : α → α → α) [Std.Commutative f] [Std.Associative f]
    (X : (⟨2, ![a, b]⟩ : Shape).Idx → α) (init : (⟨0, ![]⟩ : Shape).Idx → α)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduce f X init h' hu (ix1 i) = (Finset.univ : Finset (Fin b)).fold f (init ix0) (fun t => X (ix2 i t)) := by
  rw [Host.reduce_eq_fold_single f X init h' h hu (ix1 i)]
  congr 1
  · exact congrArg init (eq_ix0 _)
  · funext t
    exact congrArg X (Cert.Lib.MatRead.lift_row h i t)

/-- The host's sum of each row: the initial value plus the row's sum. -/
theorem rowSum_read {a b : ℕ} {φ : FTy} (X : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduceAdd (F := Ideal) X init h' hu (ix1 i) = init ix0 + ∑ t : Fin b, X (ix2 i t) := by
  show Ideal.hostReduceAdd h' X (init (Shape.Idx.first hu)) (ix1 i) = _
  rw [Ideal.hostReduceAdd_single h' h, show Shape.Idx.first hu = ix0 from eq_ix0 _]
  exact congrArg (init ix0 + ·) (Finset.sum_congr rfl fun t _ => congrArg X (Cert.Lib.MatRead.lift_row h i t))

end Cert.Lib.HostMatRead

end
-- ==== Proof.LibEdgeLayers.lean ====
/- Three layers of an edge-aware graph network at the ideal float instance, each as one function of its operand
   matrices, entry by entry, and read at an entry from two spellings, for any extents:
   * the edge message  x_src + e · W + b  (a matrix, plus a rows-by-columns product, plus a bias row on every row);
   * the node update  max(((m · Wl + bl) + x · Wr) + br, 0)  (two products and two bias rows, then the lower bound 0);
   * the edge predictor  max((a · Wa + c · Wb) + b1, 0) · W2 + b2, which the host writes with ONE product of the two
     inputs set side by side against the stacked weight matrix: a sum over the joined axis is the sum over its first
     part plus the sum over its second part, in any commutative monoid, so no finiteness is needed.
   The kernel spellings are products accumulated into the zero matrix with a one-row bias broadcast over the rows;
   the host spellings are dot_general with a bias vector spread through a one-row matrix. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«128431_j42597485641878_1_alg».proof.Proof.LibMatRead
import proofs.«128431_j42597485641878_1_alg».proof.Proof.LibMatProd
import proofs.«128431_j42597485641878_1_alg».proof.Proof.LibHostMatRead

noncomputable section

namespace Cert.Lib.EdgeLayers

open Idealize.ShloMosaic Idealize.ShloMosaic.ValueIdx
open scoped BigOperators

/-! ### The edge message -/

section Message
variable {n k d : ℕ} {φ : FTy}

/-- Entry (i₀, i₁) of the message matrix: the gathered row's entry, plus the edge features' row i₀ against column i₁
    of the weights, plus the bias at i₁. -/
def msgAt (xs : FVec Ideal ⟨2, ![n, d]⟩ .f32) (ea : FVec Ideal ⟨2, ![n, k]⟩ .f32) (We : FVec Ideal ⟨2, ![k, d]⟩ φ)
    (be : (⟨1, ![d]⟩ : Shape).Idx → EReal) : FVec Ideal ⟨2, ![n, d]⟩ .f32 :=
  fun i => (xs i + ∑ t : Fin k, ea (ix2 (i 0) t) * We (ix2 t (i 1))) + be (ix1 (i 1))

/-- A kernel body's message block read at (p, q). -/
theorem msg_body_read (v0 : FVec Ideal ⟨2, ![n, k]⟩ .f32) (v2 : FVec Ideal ⟨2, ![k, d]⟩ φ) (v5 : FVec Ideal ⟨2, ![n, d]⟩ .f32)
    (v8 : FVec Ideal ⟨2, ![1, d]⟩ .f32) (hb : FTy.bf16.bits < FTy.f32.bits)
    (hbr : (⟨2, ![1, d]⟩ : Shape).Broadcasts ⟨2, ![n, d]⟩) (prec : Option ContractPrecision) (p : Fin n) (q : Fin d) :
    addf (addf v5 (matmul (DotDims.plain n k d) prec (truncf .bf16 v0 hb) v2 (constant ⟨2, ![n, d]⟩ .f32 0x00000000#32)))
        (broadcastTo ⟨2, ![n, d]⟩ v8 hbr) (ix2 p q)
      = (v5 (ix2 p q) + ∑ t : Fin k, v0 (ix2 p t) * v2 (ix2 t q)) + v8 (ix2 (0 : Fin 1) q) := by
  rw [addf_apply, addf_apply, broadcastTo_1b_ab_apply]
  exact congrArg (fun s => (v5 (ix2 p q) + s) + v8 (ix2 (0 : Fin 1) q))
    (Cert.Lib.MatProd.matmul_zero_read prec (truncf .bf16 v0 hb) v2 p q)

/-- The host's message matrix read at (p, q). -/
theorem msg_host_read (xs : FVec Ideal ⟨2, ![n, d]⟩ .f32) (ea : FVec Ideal ⟨2, ![n, k]⟩ .f32) (We : FVec Ideal ⟨2, ![k, d]⟩ φ)
    (be : FVec Ideal ⟨1, ![d]⟩ .f32)
    (h1 : (⟨1, ![d]⟩ : Shape).BroadcastsInDim ⟨2, ![1, d]⟩ (![1] : Fin 1 → Fin 2))
    (h2 : (⟨2, ![1, d]⟩ : Shape).BroadcastsInDim ⟨2, ![n, d]⟩ (![0, 1] : Fin 2 → Fin 2))
    (prec : Option ContractPrecision) (p : Fin n) (q : Fin d) :
    addf (addf xs (Host.dotGeneral (DotDims.plain n k d) prec ea We))
        (broadcastInDim ⟨2, ![n, d]⟩ ![0, 1] h2 (broadcastInDim ⟨2, ![1, d]⟩ ![1] h1 be)) (ix2 p q)
      = msgAt xs ea We be (ix2 p q) := by
  rw [addf_apply, addf_apply, Cert.Lib.HostMatRead.rowBcast_read]
  exact congrArg (fun s => (xs (ix2 p q) + s) + be (ix1 q)) (Cert.Lib.MatProd.dotGeneral_read prec .single ea We p q)

end Message

/-! ### The node update -/

section Dense
variable {n k d : ℕ} {φ₁ φ₂ : FTy}

/-- Entry (i₀, i₁) of the updated node matrix. -/
def denseAt (mean x : FVec Ideal ⟨2, ![n, k]⟩ .f32) (Wl : FVec Ideal ⟨2, ![k, d]⟩ φ₁) (Wr : FVec Ideal ⟨2, ![k, d]⟩ φ₂)
    (bl br : (⟨1, ![d]⟩ : Shape).Idx → EReal) : FVec Ideal ⟨2, ![n, d]⟩ .f32 :=
  fun i => max ((((∑ t : Fin k, mean (ix2 (i 0) t) * Wl (ix2 t (i 1))) + bl (ix1 (i 1)))
      + ∑ t : Fin k, x (ix2 (i 0) t) * Wr (ix2 t (i 1))) + br (ix1 (i 1))) (Ideal.ofBits .f32 0x00000000#32)

/-- A kernel body's node-update block read at (p, q). -/
theorem dense_body_read (v0 v3 : FVec Ideal ⟨2, ![n, k]⟩ .f32) (v5 : FVec Ideal ⟨2, ![k, d]⟩ φ₁) (v8 : FVec Ideal ⟨2, ![k, d]⟩ φ₂)
    (v11 v16 : FVec Ideal ⟨2, ![1, d]⟩ .f32) (hb : FTy.bf16.bits < FTy.f32.bits)
    (hbr : (⟨2, ![1, d]⟩ : Shape).Broadcasts ⟨2, ![n, d]⟩) (prec : Option ContractPrecision) (p : Fin n) (q : Fin d) :
    maximumf (addf (addf (addf
          (matmul (DotDims.plain n k d) prec (truncf .bf16 v0 hb) v5 (constant ⟨2, ![n, d]⟩ .f32 0x00000000#32))
          (broadcastTo ⟨2, ![n, d]⟩ v11 hbr))
          (matmul (DotDims.plain n k d) prec (truncf .bf16 v3 hb) v8 (constant ⟨2, ![n, d]⟩ .f32 0x00000000#32)))
          (broadcastTo ⟨2, ![n, d]⟩ v16 hbr))
        (broadcast ⟨2, ![n, d]⟩ (Scalar.ofBits (F := Ideal) .f32 0x00000000#32)) (ix2 p q)
      = max ((((∑ t : Fin k, v0 (ix2 p t) * v5 (ix2 t q)) + v11 (ix2 (0 : Fin 1) q))
          + ∑ t : Fin k, v3 (ix2 p t) * v8 (ix2 t q)) + v16 (ix2 (0 : Fin 1) q)) (Ideal.ofBits .f32 0x00000000#32) := by
  unfold matmul
  rw [maximumf_apply, addf_apply, addf_apply, addf_apply, broadcastTo_1b_ab_apply, broadcastTo_1b_ab_apply,
    Cert.Lib.MatProd.matmul_zero_read, Cert.Lib.MatProd.matmul_zero_read]
  rfl

/-- The host's updated node matrix read at (p, q). -/
theorem dense_host_read (mean x : FVec Ideal ⟨2, ![n, k]⟩ .f32) (Wl : FVec Ideal ⟨2, ![k, d]⟩ φ₁) (Wr : FVec Ideal ⟨2, ![k, d]⟩ φ₂)
    (bl br : FVec Ideal ⟨1, ![d]⟩ .f32)
    (h1 : (⟨1, ![d]⟩ : Shape).BroadcastsInDim ⟨2, ![1, d]⟩ (![1] : Fin 1 → Fin 2))
    (h2 : (⟨2, ![1, d]⟩ : Shape).BroadcastsInDim ⟨2, ![n, d]⟩ (![0, 1] : Fin 2 → Fin 2))
    (hz : (⟨0, ![]⟩ : Shape).BroadcastsInDim ⟨2, ![n, d]⟩ (![] : Fin 0 → Fin 2))
    (prec : Option ContractPrecision) (p : Fin n) (q : Fin d) :
    maximumf (addf (addf (addf (Host.dotGeneral (DotDims.plain n k d) prec mean Wl)
          (broadcastInDim ⟨2, ![n, d]⟩ ![0, 1] h2 (broadcastInDim ⟨2, ![1, d]⟩ ![1] h1 bl)))
          (Host.dotGeneral (DotDims.plain n k d) prec x Wr))
          (broadcastInDim ⟨2, ![n, d]⟩ ![0, 1] h2 (broadcastInDim ⟨2, ![1, d]⟩ ![1] h1 br)))
        (broadcastInDim ⟨2, ![n, d]⟩ ![] hz (constant (F := Ideal) ⟨0, ![]⟩ .f32 0x00000000#32)) (ix2 p q)
      = denseAt mean x Wl Wr bl br (ix2 p q) := by
  unfold Host.dotGeneral
  rw [maximumf_apply, addf_apply, addf_apply, addf_apply, Cert.Lib.HostMatRead.rowBcast_read,
    Cert.Lib.HostMatRead.rowBcast_read, Cert.Lib.HostMatRead.splat_read, Cert.Lib.MatProd.dotGeneral_read,
    Cert.Lib.MatProd.dotGeneral_read]
  rfl

end Dense

/-! ### The edge predictor -/

section Predictor
variable {n a h o : ℕ} {φ₁ φ₂ φ₃ : FTy}

/-- Entry (i₀, i₁) of the logits: the hidden row — the two endpoint rows against their own weight matrices, summed, plus
    the bias, bounded below by 0 — against column i₁ of the second weight matrix, plus its bias. -/
def predAt (hs hd : FVec Ideal ⟨2, ![n, a]⟩ .f32) (Wa : FVec Ideal ⟨2, ![a, h]⟩ φ₁) (Wb : FVec Ideal ⟨2, ![a, h]⟩ φ₂)
    (b1 : (⟨1, ![h]⟩ : Shape).Idx → EReal) (W2 : FVec Ideal ⟨2, ![h, o]⟩ φ₃) (b2 : (⟨1, ![o]⟩ : Shape).Idx → EReal) :
    FVec Ideal ⟨2, ![n, o]⟩ .f32 :=
  fun i => (∑ t : Fin h, max (((∑ s : Fin a, hs (ix2 (i 0) s) * Wa (ix2 s t)) + ∑ s : Fin a, hd (ix2 (i 0) s) * Wb (ix2 s t))
      + b1 (ix1 t)) (Ideal.ofBits .f32 0x00000000#32) * W2 (ix2 t (i 1))) + b2 (ix1 (i 1))

/-- A kernel body's logits block read at (p, q). -/
theorem pred_body_read (v0 v3 : FVec Ideal ⟨2, ![n, a]⟩ .f32) (v6 : FVec Ideal ⟨2, ![a, h]⟩ φ₁) (v9 : FVec Ideal ⟨2, ![a, h]⟩ φ₂)
    (v13 : FVec Ideal ⟨2, ![1, h]⟩ .f32) (v20 : FVec Ideal ⟨2, ![h, o]⟩ φ₃) (v23 : FVec Ideal ⟨2, ![1, o]⟩ .f32)
    (hb : FTy.bf16.bits < FTy.f32.bits) (hbr1 : (⟨2, ![1, h]⟩ : Shape).Broadcasts ⟨2, ![n, h]⟩)
    (hbr2 : (⟨2, ![1, o]⟩ : Shape).Broadcasts ⟨2, ![n, o]⟩) (prec : Option ContractPrecision) (p : Fin n) (q : Fin o) :
    addf (matmul (DotDims.plain n h o) prec
          (truncf .bf16 (maximumf (addf (addf
              (matmul (DotDims.plain n a h) prec (truncf .bf16 v0 hb) v6 (constant ⟨2, ![n, h]⟩ .f32 0x00000000#32))
              (matmul (DotDims.plain n a h) prec (truncf .bf16 v3 hb) v9 (constant ⟨2, ![n, h]⟩ .f32 0x00000000#32)))
              (broadcastTo ⟨2, ![n, h]⟩ v13 hbr1))
            (broadcast ⟨2, ![n, h]⟩ (Scalar.ofBits (F := Ideal) .f32 0x00000000#32))) hb)
          v20 (constant ⟨2, ![n, o]⟩ .f32 0x00000000#32))
        (broadcastTo ⟨2, ![n, o]⟩ v23 hbr2) (ix2 p q)
      = (∑ t : Fin h, max (((∑ s : Fin a, v0 (ix2 p s) * v6 (ix2 s t)) + ∑ s : Fin a, v3 (ix2 p s) * v9 (ix2 s t))
          + v13 (ix2 (0 : Fin 1) t)) (Ideal.ofBits .f32 0x00000000#32) * v20 (ix2 t q)) + v23 (ix2 (0 : Fin 1) q) := by
  unfold matmul
  rw [addf_apply, broadcastTo_1b_ab_apply, Cert.Lib.MatProd.matmul_zero_read]
  refine congrArg (· + v23 (ix2 (0 : Fin 1) q)) (Finset.sum_congr rfl fun t _ => ?_)
  refine congrArg (· * v20 (ix2 t q)) ?_
  rw [truncf_apply, maximumf_apply, addf_apply, addf_apply, broadcastTo_1b_ab_apply,
    Cert.Lib.MatProd.matmul_zero_read, Cert.Lib.MatProd.matmul_zero_read]
  rfl

/-- The host's logits read at (p, q): its one product over the joined axis of width w = a + a splits into the two
    products of the endpoint rows against the upper and the lower half of the stacked weight matrix. -/
theorem pred_host_read {w : ℕ} (hw : w = a + a) (hs hd : FVec Ideal ⟨2, ![n, a]⟩ .f32) (Wp1 : FVec Ideal ⟨2, ![w, h]⟩ .f32)
    (b1 : FVec Ideal ⟨1, ![h]⟩ .f32) (W2 : FVec Ideal ⟨2, ![h, o]⟩ φ₃) (b2 : FVec Ideal ⟨1, ![o]⟩ .f32)
    (hcat : Shape.Concatenates [⟨2, ![n, a]⟩, ⟨2, ![n, a]⟩] ⟨2, ![n, w]⟩ 1)
    (hs0 : (⟨2, ![w, h]⟩ : Shape).Slices ![0, 0] ⟨2, ![a, h]⟩) (hs1 : (⟨2, ![w, h]⟩ : Shape).Slices ![a, 0] ⟨2, ![a, h]⟩)
    (h1 : (⟨1, ![h]⟩ : Shape).BroadcastsInDim ⟨2, ![1, h]⟩ (![1] : Fin 1 → Fin 2))
    (h2 : (⟨2, ![1, h]⟩ : Shape).BroadcastsInDim ⟨2, ![n, h]⟩ (![0, 1] : Fin 2 → Fin 2))
    (hz : (⟨0, ![]⟩ : Shape).BroadcastsInDim ⟨2, ![n, h]⟩ (![] : Fin 0 → Fin 2))
    (g1 : (⟨1, ![o]⟩ : Shape).BroadcastsInDim ⟨2, ![1, o]⟩ (![1] : Fin 1 → Fin 2))
    (g2 : (⟨2, ![1, o]⟩ : Shape).BroadcastsInDim ⟨2, ![n, o]⟩ (![0, 1] : Fin 2 → Fin 2))
    (prec : Option ContractPrecision) (p : Fin n) (q : Fin o) :
    addf (Host.dotGeneral (DotDims.plain n h o) prec
          (maximumf (addf (Host.dotGeneral (DotDims.plain n w h) prec
                (concatenate ⟨2, ![n, w]⟩ 1 [⟨⟨2, ![n, a]⟩, hs⟩, ⟨⟨2, ![n, a]⟩, hd⟩] hcat) Wp1)
              (broadcastInDim ⟨2, ![n, h]⟩ ![0, 1] h2 (broadcastInDim ⟨2, ![1, h]⟩ ![1] h1 b1)))
            (broadcastInDim ⟨2, ![n, h]⟩ ![] hz (constant (F := Ideal) ⟨0, ![]⟩ .f32 0x00000000#32))) W2)
        (broadcastInDim ⟨2, ![n, o]⟩ ![0, 1] g2 (broadcastInDim ⟨2, ![1, o]⟩ ![1] g1 b2)) (ix2 p q)
      = predAt hs hd (extractStridedSlice ⟨2, ![a, h]⟩ ![0, 0] Wp1 hs0) (extractStridedSlice ⟨2, ![a, h]⟩ ![a, 0] Wp1 hs1)
          b1 W2 b2 (ix2 p q) := by
  subst hw
  unfold Host.dotGeneral
  rw [addf_apply, Cert.Lib.HostMatRead.rowBcast_read, Cert.Lib.MatProd.dotGeneral_read]
  refine congrArg (· + b2 (ix1 q)) (Finset.sum_congr rfl fun t _ => ?_)
  refine congrArg (· * W2 (ix2 t q)) ?_
  rw [maximumf_apply, addf_apply, Cert.Lib.HostMatRead.rowBcast_read, Cert.Lib.HostMatRead.splat_read,
    Cert.Lib.MatProd.dotGeneral_read, Fin.sum_univ_add]
  refine congrArg₂ max (congrArg (· + b1 (ix1 t)) (congrArg₂ (· + ·) ?_ ?_)) rfl
  · refine Finset.sum_congr rfl fun s _ => ?_
    rw [Cert.Lib.MatRead.concatCols_left hs hd hcat p s (Fin.castAdd a s) rfl,
      slice2_axis0_apply 0 Wp1 hs0 s t (Fin.castAdd a s) (by simp)]
    rfl
  · refine Finset.sum_congr rfl fun s _ => ?_
    rw [Cert.Lib.MatRead.concatCols_right hs hd hcat p s (Fin.natAdd a s) (by show a + s.val = s.val + a; omega),
      slice2_axis0_apply a Wp1 hs1 s t (Fin.natAdd a s) rfl]
    rfl

end Predictor

end Cert.Lib.EdgeLayers

end
-- ==== Proof.Message1.lean ====
/- The first edge-message region read as one array. Its grid has 100 points; point t stages rows 6000·t … 6000·t + 5999 of the
   edge features and of the gathered node rows, the whole weight matrix and the one-row bias, and writes the same rows
   of the output. The body's block is, entry by entry, the gathered entry plus the edge-feature row against a weight
   column plus the bias entry, so the 100 blocks, which tile the 600000 rows, are the restrictions of one function of
   the arrays the region finds. -/
import proofs.«128431_j42597485641878_1_alg».proof.Proof.Gen.KernelIdeal.Frame
import proofs.«128431_j42597485641878_1_alg».proof.Proof.LibEdgeLayers
import Idealize.ShloMosaic.Lib.Pipeline.Value
import Idealize.ShloMosaic.Lib.ValueIdx

set_option maxRecDepth 16384

noncomputable section

namespace Cert.KernelIdeal.Message1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.EdgeLayers
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored block at entry (p, q), over any loaded blocks. -/
theorem pay_read (v0 : Vec Ideal S6000x32 .f32) (v2 : Vec Ideal S32x128 .bf16) (v5 : Vec Ideal S6000x128 .f32) (v8 : Vec Ideal S1x128 .f32)
    (p : Fin 6000) (q : Fin 128) :
    k0_pay1 (F := Ideal) v0 v2 v5 v8 (ix2 p q)
      = ((v5 (ix2 p q) : EReal) + ∑ t : Fin 32, (v0 (ix2 p t) : EReal) * (v2 (ix2 t q) : EReal)) + (v8 (ix2 (0 : Fin 1) q) : EReal) := by
  unfold k0_pay1
  simp only [shapeCast_self]
  exact msg_body_read v0 v2 v5 v8 _ _ none p q

/-- The message array as one function of the arrays the region finds. -/
def layer (c : Dev nD) : S600000x128.Idx → EReal :=
  msgAt (n := 600000) (k := 32) (d := 128) (φ := .bf16) (V c main_v12 : S600000x128.Idx → EReal) (V c main_arg2 : S600000x32.Idx → EReal)
    (V c main_v4 : S32x128.Idx → EReal) (fun j => (V c main_v5 : S1x128.Idx → EReal) (ix2 (0 : Fin 1) (j 0)))

/-- The index maps over the grid: a row-tiled window is at block t on the rows, every window at block 0 on the columns,
    and an untiled window stays at block 0. -/
theorem idx_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0 :=
  (by decide +kernel : ∀ t : Fin grid0.N, _)

/-- Window 0's block at point t is rows t·6000 … of its array. -/
theorem blk0 (c : Dev nD) (t : Fin cfg0.N) (p : Fin 6000) (row : Fin 600000) (hrow : row.val = t.val * 6000 + p.val) (q : Fin 32) :
    iblk0 V c 0 t (ix2 p q) = (V c main_arg2 : S600000x32.Idx → EReal) (ix2 row q) := by
  obtain ⟨e00, e01, e10, e11, e20, e21, e30, e31, e40, e41⟩ := idx_facts t
  show (V c main_arg2 : S600000x32.Idx → EReal) (((cfg0.win 0).blk t).view.emb (ix2 p q)) = _
  refine congrArg (V c main_arg2 : S600000x32.Idx → EReal) (funext fun a => Fin.ext ?_)
  match a with
  | ⟨0, _⟩ => show win0_0.index t (0 : Fin 2) * 6000 + 1 * p.val = row.val; omega
  | ⟨1, _⟩ => show win0_0.index t (1 : Fin 2) * 32 + 1 * q.val = q.val; omega

/-- Window 1's block is its whole array at every point. -/
theorem blk1 (c : Dev nD) (t : Fin cfg0.N) (p : Fin 32) (q : Fin 128) :
    iblk0 V c 1 t (ix2 p q) = (V c main_v4 : S32x128.Idx → EReal) (ix2 p q) := by
  obtain ⟨e00, e01, e10, e11, e20, e21, e30, e31, e40, e41⟩ := idx_facts t
  show (V c main_v4 : S32x128.Idx → EReal) (((cfg0.win 1).blk t).view.emb (ix2 p q)) = _
  refine congrArg (V c main_v4 : S32x128.Idx → EReal) (funext fun a => Fin.ext ?_)
  match a with
  | ⟨0, _⟩ => show win0_1.index t (0 : Fin 2) * 32 + 1 * p.val = p.val; omega
  | ⟨1, _⟩ => show win0_1.index t (1 : Fin 2) * 128 + 1 * q.val = q.val; omega

/-- Window 2's block is its whole array at every point. -/
theorem blk2 (c : Dev nD) (t : Fin cfg0.N) (p : Fin 1) (q : Fin 128) :
    iblk0 V c 2 t (ix2 p q) = (V c main_v5 : S1x128.Idx → EReal) (ix2 p q) := by
  obtain ⟨e00, e01, e10, e11, e20, e21, e30, e31, e40, e41⟩ := idx_facts t
  show (V c main_v5 : S1x128.Idx → EReal) (((cfg0.win 2).blk t).view.emb (ix2 p q)) = _
  refine congrArg (V c main_v5 : S1x128.Idx → EReal) (funext fun a => Fin.ext ?_)
  match a with
  | ⟨0, _⟩ => show win0_2.index t (0 : Fin 2) * 1 + 1 * p.val = p.val; omega
  | ⟨1, _⟩ => show win0_2.index t (1 : Fin 2) * 128 + 1 * q.val = q.val; omega

/-- Window 3's block at point t is rows t·6000 … of its array. -/
theorem blk3 (c : Dev nD) (t : Fin cfg0.N) (p : Fin 6000) (row : Fin 600000) (hrow : row.val = t.val * 6000 + p.val) (q : Fin 128) :
    iblk0 V c 3 t (ix2 p q) = (V c main_v12 : S600000x128.Idx → EReal) (ix2 row q) := by
  obtain ⟨e00, e01, e10, e11, e20, e21, e30, e31, e40, e41⟩ := idx_facts t
  show (V c main_v12 : S600000x128.Idx → EReal) (((cfg0.win 3).blk t).view.emb (ix2 p q)) = _
  refine congrArg (V c main_v12 : S600000x128.Idx → EReal) (funext fun a => Fin.ext ?_)
  match a with
  | ⟨0, _⟩ => show win0_3.index t (0 : Fin 2) * 6000 + 1 * p.val = row.val; omega
  | ⟨1, _⟩ => show win0_3.index t (1 : Fin 2) * 128 + 1 * q.val = q.val; omega

/-- The output block's entry (p, q) at point t is row t·6000 + p of the output array. -/
theorem out_emb (t : Fin cfg0.N) (p : Fin 6000) (row : Fin 600000) (hrow : row.val = t.val * 6000 + p.val) (q : Fin 128) :
    ((cfg0.win 4).blk t).view.emb (ix2 p q) = (ix2 row q : S600000x128.Idx) := by
  obtain ⟨e00, e01, e10, e11, e20, e21, e30, e31, e40, e41⟩ := idx_facts t
  refine funext fun a => Fin.ext ?_
  match a with
  | ⟨0, _⟩ => show win0_4.index t (0 : Fin 2) * 6000 + 1 * p.val = row.val; omega
  | ⟨1, _⟩ => show win0_4.index t (1 : Fin 2) * 128 + 1 * q.val = q.val; omega

/-- What point t writes back is block t of the layer's function of the arrays the region finds. -/
theorem flushed_eq (c : Dev nD) (t : Fin cfg0.N) :
    (dat0 V c).flushed 4 t = ((cfg0.win 4).blk t).view.read (Elt Ideal) (layer V c) := by
  show (cfg0.win 4).cut (grid0.coords t) ((dat0 V c).after 4 t) = _
  rw [after0_4]
  unfold out0_4
  rw [View.canon_unit_zero zero_offsets]
  simp only [View.ld_unit_zero (S := S6000x32) zero_offsets, View.ld_unit_zero (S := S32x128) zero_offsets, View.ld_unit_zero (S := S1x128) zero_offsets, View.ld_unit_zero (S := S6000x128) zero_offsets]
  funext j
  obtain ⟨p, q, rfl⟩ : ∃ (p : Fin 6000) (q : Fin 128), j = ix2 p q := ⟨j 0, j 1, eq_ix2 j⟩
  have ht : t.val < 100 := lt_of_lt_of_eq t.isLt N_0
  obtain ⟨row, hrow⟩ : ∃ row : Fin 600000, row.val = t.val * 6000 + p.val :=
    ⟨⟨t.val * 6000 + p.val, by have := p.isLt; omega⟩, rfl⟩
  refine (pay_read (iblk0 V c 0 t) (iblk0 V c 1 t) (iblk0 V c 3 t) (iblk0 V c 2 t) p q).trans ?_
  simp only [blk0 V c t p row hrow, blk1 V c t, blk2 V c t, blk3 V c t p row hrow]
  show _ = layer V c (((cfg0.win 4).blk t).view.emb (ix2 p q))
  rw [out_emb t p row hrow q]
  rfl

/-- An index is in point t's output block iff each coordinate is in the block's range on its axis. -/
theorem mem_blk (t : Fin cfg0.N) (i : S600000x128.Idx) :
    i ∈ ((cfg0.win 4).blk t).view.set ↔ ∀ a : Fin 2, win0_4.index t a * S6000x128.size a ≤ (i a).val ∧ (i a).val < win0_4.index t a * S6000x128.size a + S6000x128.size a := by
  show i ∈ ((View.whole main_v13).slice (win0_4.rect t)).set ↔ _
  rw [View.set_slice_whole, Rect.mem_set_unit]
  exact Iff.rfl

/-- Every index of the output array is in the block of the point its row falls in: the blocks tile the array. -/
theorem cover (i : S600000x128.Idx) : ∃ t : Fin cfg0.N, (cfg0.win 4).flush t = true ∧ i ∈ ((cfg0.win 4).blk t).view.set := by
  have hi0 : (i 0).val < 600000 := (i 0).isLt
  have hi1 : (i 1).val < 128 := (i 1).isLt
  obtain ⟨t, ht⟩ : ∃ t : Fin cfg0.N, t.val = (i 0).val / 6000 :=
    ⟨⟨(i 0).val / 6000, by show _ < grid0.N; rw [N_0]; omega⟩, rfl⟩
  obtain ⟨e00, e01, e10, e11, e20, e21, e30, e31, e40, e41⟩ := idx_facts t
  refine ⟨t, flush0_4 t, ?_⟩
  rw [mem_blk]
  intro a
  match a with
  | ⟨0, _⟩ => show win0_4.index t (0 : Fin 2) * 6000 ≤ (i 0).val ∧ (i 0).val < win0_4.index t (0 : Fin 2) * 6000 + 6000; omega
  | ⟨1, _⟩ => show win0_4.index t (1 : Fin 2) * 128 ≤ (i 1).val ∧ (i 1).val < win0_4.index t (1 : Fin 2) * 128 + 128; omega

/-- The output array after the region: the layer's function of the arrays the region finds. -/
theorem final (c : Dev nD) : (dat0 V c).arrAt 4 cfg0.N = layer V c :=
  (dat0 V c).arrAt_eq_of_cover 4 (layer V c) (fun t _ => flushed_eq V c t) cover

/-- The same with the operand arrays named: the bias given as a vector that the one-row array spreads. -/
theorem final_of (c : Dev nD) (xs : S600000x128.Idx → EReal) (ea : S600000x32.Idx → EReal) (We : S32x128.Idx → EReal) (be : S128.Idx → EReal)
    (hxs : (V c main_v12 : S600000x128.Idx → EReal) = xs) (hea : (V c main_arg2 : S600000x32.Idx → EReal) = ea)
    (hWe : (V c main_v4 : S32x128.Idx → EReal) = We)
    (hbe : ∀ q : Fin 128, (V c main_v5 : S1x128.Idx → EReal) (ix2 (0 : Fin 1) q) = be (ix1 q)) :
    (dat0 V c).arrAt 4 cfg0.N = msgAt (n := 600000) (k := 32) (d := 128) (φ := .f32) xs ea We be := by
  rw [final V c]
  unfold layer
  rw [hxs, hea, hWe]
  have hb : (fun j : S128.Idx => (V c main_v5 : S1x128.Idx → EReal) (ix2 (0 : Fin 1) (j 0))) = be :=
    funext fun j => (hbe (j 0)).trans (congrArg be (eq_ix1 j).symm)
  exact congrArg (msgAt (n := 600000) (k := 32) (d := 128) (φ := .f32) xs ea We) hb

end Cert.KernelIdeal.Message1

end
-- ==== Proof.Message2.lean ====
/- The second edge-message region read as one array. Its grid has 100 points; point t stages rows 6000·t … 6000·t + 5999 of the
   edge features and of the gathered node rows, the whole weight matrix and the one-row bias, and writes the same rows
   of the output. The body's block is, entry by entry, the gathered entry plus the edge-feature row against a weight
   column plus the bias entry, so the 100 blocks, which tile the 600000 rows, are the restrictions of one function of
   the arrays the region finds. -/
import proofs.«128431_j42597485641878_1_alg».proof.Proof.Gen.KernelIdeal.Frame
import proofs.«128431_j42597485641878_1_alg».proof.Proof.LibEdgeLayers
import Idealize.ShloMosaic.Lib.Pipeline.Value
import Idealize.ShloMosaic.Lib.ValueIdx

set_option maxRecDepth 16384

noncomputable section

namespace Cert.KernelIdeal.Message2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.EdgeLayers
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored block at entry (p, q), over any loaded blocks. -/
theorem pay_read (v0 : Vec Ideal S6000x32 .f32) (v2 : Vec Ideal S32x128 .bf16) (v5 : Vec Ideal S6000x128 .f32) (v8 : Vec Ideal S1x128 .f32)
    (p : Fin 6000) (q : Fin 128) :
    k2_pay1 (F := Ideal) v0 v2 v5 v8 (ix2 p q)
      = ((v5 (ix2 p q) : EReal) + ∑ t : Fin 32, (v0 (ix2 p t) : EReal) * (v2 (ix2 t q) : EReal)) + (v8 (ix2 (0 : Fin 1) q) : EReal) := by
  unfold k2_pay1
  simp only [shapeCast_self]
  exact msg_body_read v0 v2 v5 v8 _ _ none p q

/-- The message array as one function of the arrays the region finds. -/
def layer (c : Dev nD) : S600000x128.Idx → EReal :=
  msgAt (n := 600000) (k := 32) (d := 128) (φ := .bf16) (V c main_v39 : S600000x128.Idx → EReal) (V c main_arg2 : S600000x32.Idx → EReal)
    (V c main_v31 : S32x128.Idx → EReal) (fun j => (V c main_v32 : S1x128.Idx → EReal) (ix2 (0 : Fin 1) (j 0)))

/-- The index maps over the grid: a row-tiled window is at block t on the rows, every window at block 0 on the columns,
    and an untiled window stays at block 0. -/
theorem idx_facts : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0
    ∧ win2_4.index t (0 : Fin 2) = t.val
    ∧ win2_4.index t (1 : Fin 2) = 0 :=
  (by decide +kernel : ∀ t : Fin grid2.N, _)

/-- Window 0's block at point t is rows t·6000 … of its array. -/
theorem blk0 (c : Dev nD) (t : Fin cfg2.N) (p : Fin 6000) (row : Fin 600000) (hrow : row.val = t.val * 6000 + p.val) (q : Fin 32) :
    iblk2 V c 0 t (ix2 p q) = (V c main_arg2 : S600000x32.Idx → EReal) (ix2 row q) := by
  obtain ⟨e00, e01, e10, e11, e20, e21, e30, e31, e40, e41⟩ := idx_facts t
  show (V c main_arg2 : S600000x32.Idx → EReal) (((cfg2.win 0).blk t).view.emb (ix2 p q)) = _
  refine congrArg (V c main_arg2 : S600000x32.Idx → EReal) (funext fun a => Fin.ext ?_)
  match a with
  | ⟨0, _⟩ => show win2_0.index t (0 : Fin 2) * 6000 + 1 * p.val = row.val; omega
  | ⟨1, _⟩ => show win2_0.index t (1 : Fin 2) * 32 + 1 * q.val = q.val; omega

/-- Window 1's block is its whole array at every point. -/
theorem blk1 (c : Dev nD) (t : Fin cfg2.N) (p : Fin 32) (q : Fin 128) :
    iblk2 V c 1 t (ix2 p q) = (V c main_v31 : S32x128.Idx → EReal) (ix2 p q) := by
  obtain ⟨e00, e01, e10, e11, e20, e21, e30, e31, e40, e41⟩ := idx_facts t
  show (V c main_v31 : S32x128.Idx → EReal) (((cfg2.win 1).blk t).view.emb (ix2 p q)) = _
  refine congrArg (V c main_v31 : S32x128.Idx → EReal) (funext fun a => Fin.ext ?_)
  match a with
  | ⟨0, _⟩ => show win2_1.index t (0 : Fin 2) * 32 + 1 * p.val = p.val; omega
  | ⟨1, _⟩ => show win2_1.index t (1 : Fin 2) * 128 + 1 * q.val = q.val; omega

/-- Window 2's block is its whole array at every point. -/
theorem blk2 (c : Dev nD) (t : Fin cfg2.N) (p : Fin 1) (q : Fin 128) :
    iblk2 V c 2 t (ix2 p q) = (V c main_v32 : S1x128.Idx → EReal) (ix2 p q) := by
  obtain ⟨e00, e01, e10, e11, e20, e21, e30, e31, e40, e41⟩ := idx_facts t
  show (V c main_v32 : S1x128.Idx → EReal) (((cfg2.win 2).blk t).view.emb (ix2 p q)) = _
  refine congrArg (V c main_v32 : S1x128.Idx → EReal) (funext fun a => Fin.ext ?_)
  match a with
  | ⟨0, _⟩ => show win2_2.index t (0 : Fin 2) * 1 + 1 * p.val = p.val; omega
  | ⟨1, _⟩ => show win2_2.index t (1 : Fin 2) * 128 + 1 * q.val = q.val; omega

/-- Window 3's block at point t is rows t·6000 … of its array. -/
theorem blk3 (c : Dev nD) (t : Fin cfg2.N) (p : Fin 6000) (row : Fin 600000) (hrow : row.val = t.val * 6000 + p.val) (q : Fin 128) :
    iblk2 V c 3 t (ix2 p q) = (V c main_v39 : S600000x128.Idx → EReal) (ix2 row q) := by
  obtain ⟨e00, e01, e10, e11, e20, e21, e30, e31, e40, e41⟩ := idx_facts t
  show (V c main_v39 : S600000x128.Idx → EReal) (((cfg2.win 3).blk t).view.emb (ix2 p q)) = _
  refine congrArg (V c main_v39 : S600000x128.Idx → EReal) (funext fun a => Fin.ext ?_)
  match a with
  | ⟨0, _⟩ => show win2_3.index t (0 : Fin 2) * 6000 + 1 * p.val = row.val; omega
  | ⟨1, _⟩ => show win2_3.index t (1 : Fin 2) * 128 + 1 * q.val = q.val; omega

/-- The output block's entry (p, q) at point t is row t·6000 + p of the output array. -/
theorem out_emb (t : Fin cfg2.N) (p : Fin 6000) (row : Fin 600000) (hrow : row.val = t.val * 6000 + p.val) (q : Fin 128) :
    ((cfg2.win 4).blk t).view.emb (ix2 p q) = (ix2 row q : S600000x128.Idx) := by
  obtain ⟨e00, e01, e10, e11, e20, e21, e30, e31, e40, e41⟩ := idx_facts t
  refine funext fun a => Fin.ext ?_
  match a with
  | ⟨0, _⟩ => show win2_4.index t (0 : Fin 2) * 6000 + 1 * p.val = row.val; omega
  | ⟨1, _⟩ => show win2_4.index t (1 : Fin 2) * 128 + 1 * q.val = q.val; omega

/-- What point t writes back is block t of the layer's function of the arrays the region finds. -/
theorem flushed_eq (c : Dev nD) (t : Fin cfg2.N) :
    (dat2 V c).flushed 4 t = ((cfg2.win 4).blk t).view.read (Elt Ideal) (layer V c) := by
  show (cfg2.win 4).cut (grid2.coords t) ((dat2 V c).after 4 t) = _
  rw [after2_4]
  unfold out2_4
  rw [View.canon_unit_zero zero_offsets]
  simp only [View.ld_unit_zero (S := S6000x32) zero_offsets, View.ld_unit_zero (S := S32x128) zero_offsets, View.ld_unit_zero (S := S1x128) zero_offsets, View.ld_unit_zero (S := S6000x128) zero_offsets]
  funext j
  obtain ⟨p, q, rfl⟩ : ∃ (p : Fin 6000) (q : Fin 128), j = ix2 p q := ⟨j 0, j 1, eq_ix2 j⟩
  have ht : t.val < 100 := lt_of_lt_of_eq t.isLt N_2
  obtain ⟨row, hrow⟩ : ∃ row : Fin 600000, row.val = t.val * 6000 + p.val :=
    ⟨⟨t.val * 6000 + p.val, by have := p.isLt; omega⟩, rfl⟩
  refine (pay_read (iblk2 V c 0 t) (iblk2 V c 1 t) (iblk2 V c 3 t) (iblk2 V c 2 t) p q).trans ?_
  simp only [blk0 V c t p row hrow, blk1 V c t, blk2 V c t, blk3 V c t p row hrow]
  show _ = layer V c (((cfg2.win 4).blk t).view.emb (ix2 p q))
  rw [out_emb t p row hrow q]
  rfl

/-- An index is in point t's output block iff each coordinate is in the block's range on its axis. -/
theorem mem_blk (t : Fin cfg2.N) (i : S600000x128.Idx) :
    i ∈ ((cfg2.win 4).blk t).view.set ↔ ∀ a : Fin 2, win2_4.index t a * S6000x128.size a ≤ (i a).val ∧ (i a).val < win2_4.index t a * S6000x128.size a + S6000x128.size a := by
  show i ∈ ((View.whole main_v40).slice (win2_4.rect t)).set ↔ _
  rw [View.set_slice_whole, Rect.mem_set_unit]
  exact Iff.rfl

/-- Every index of the output array is in the block of the point its row falls in: the blocks tile the array. -/
theorem cover (i : S600000x128.Idx) : ∃ t : Fin cfg2.N, (cfg2.win 4).flush t = true ∧ i ∈ ((cfg2.win 4).blk t).view.set := by
  have hi0 : (i 0).val < 600000 := (i 0).isLt
  have hi1 : (i 1).val < 128 := (i 1).isLt
  obtain ⟨t, ht⟩ : ∃ t : Fin cfg2.N, t.val = (i 0).val / 6000 :=
    ⟨⟨(i 0).val / 6000, by show _ < grid2.N; rw [N_2]; omega⟩, rfl⟩
  obtain ⟨e00, e01, e10, e11, e20, e21, e30, e31, e40, e41⟩ := idx_facts t
  refine ⟨t, flush2_4 t, ?_⟩
  rw [mem_blk]
  intro a
  match a with
  | ⟨0, _⟩ => show win2_4.index t (0 : Fin 2) * 6000 ≤ (i 0).val ∧ (i 0).val < win2_4.index t (0 : Fin 2) * 6000 + 6000; omega
  | ⟨1, _⟩ => show win2_4.index t (1 : Fin 2) * 128 ≤ (i 1).val ∧ (i 1).val < win2_4.index t (1 : Fin 2) * 128 + 128; omega

/-- The output array after the region: the layer's function of the arrays the region finds. -/
theorem final (c : Dev nD) : (dat2 V c).arrAt 4 cfg2.N = layer V c :=
  (dat2 V c).arrAt_eq_of_cover 4 (layer V c) (fun t _ => flushed_eq V c t) cover

/-- The same with the operand arrays named: the bias given as a vector that the one-row array spreads. -/
theorem final_of (c : Dev nD) (xs : S600000x128.Idx → EReal) (ea : S600000x32.Idx → EReal) (We : S32x128.Idx → EReal) (be : S128.Idx → EReal)
    (hxs : (V c main_v39 : S600000x128.Idx → EReal) = xs) (hea : (V c main_arg2 : S600000x32.Idx → EReal) = ea)
    (hWe : (V c main_v31 : S32x128.Idx → EReal) = We)
    (hbe : ∀ q : Fin 128, (V c main_v32 : S1x128.Idx → EReal) (ix2 (0 : Fin 1) q) = be (ix1 q)) :
    (dat2 V c).arrAt 4 cfg2.N = msgAt (n := 600000) (k := 32) (d := 128) (φ := .f32) xs ea We be := by
  rw [final V c]
  unfold layer
  rw [hxs, hea, hWe]
  have hb : (fun j : S128.Idx => (V c main_v32 : S1x128.Idx → EReal) (ix2 (0 : Fin 1) (j 0))) = be :=
    funext fun j => (hbe (j 0)).trans (congrArg be (eq_ix1 j).symm)
  exact congrArg (msgAt (n := 600000) (k := 32) (d := 128) (φ := .f32) xs ea We) hb

end Cert.KernelIdeal.Message2

end
-- ==== Proof.Update1.lean ====
/- The first node-update region read as one array. Its grid has 20 points; point t stages rows 5000·t … 5000·t + 4999 of the
   mean-aggregated messages and of the node features, both whole weight matrices and both one-row biases, and writes the
   same rows of the output. The body's block is, entry by entry, the lower bound 0 of: the mean row against a column of the
   neighbour weights, plus its bias entry, plus the node row against a column of the self weights, plus its bias entry. The
   20 blocks tile the 100000 rows, so they are the restrictions of one function of the arrays the region finds. -/
import proofs.«128431_j42597485641878_1_alg».proof.Proof.Gen.KernelIdeal.Frame
import proofs.«128431_j42597485641878_1_alg».proof.Proof.LibEdgeLayers
import Idealize.ShloMosaic.Lib.Pipeline.Value
import Idealize.ShloMosaic.Lib.ValueIdx

set_option maxRecDepth 16384

noncomputable section

namespace Cert.KernelIdeal.Update1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.EdgeLayers
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored block at entry (p, q), over any loaded blocks. -/
theorem pay_read (v0 v3 : Vec Ideal S5000x128 .f32) (v5 v8 : Vec Ideal S128x128 .bf16) (v11 v16 : Vec Ideal S1x128 .f32)
    (p : Fin 5000) (q : Fin 128) :
    k1_pay1 (F := Ideal) v0 v3 v5 v8 v11 v16 (ix2 p q)
      = max ((((∑ t : Fin 128, (v0 (ix2 p t) : EReal) * (v5 (ix2 t q) : EReal)) + (v11 (ix2 (0 : Fin 1) q) : EReal))
          + ∑ t : Fin 128, (v3 (ix2 p t) : EReal) * (v8 (ix2 t q) : EReal)) + (v16 (ix2 (0 : Fin 1) q) : EReal))
          (Ideal.ofBits .f32 0x00000000#32) := by
  unfold k1_pay1
  simp only [shapeCast_self]
  exact dense_body_read v0 v3 v5 v8 v11 v16 _ _ none p q

/-- The updated node array as one function of the arrays the region finds. -/
def layer (c : Dev nD) : S100000x128.Idx → EReal :=
  denseAt (n := 100000) (k := 128) (d := 128) (φ₁ := .bf16) (φ₂ := .bf16) (V c main_v25 : S100000x128.Idx → EReal) (V c main_arg0 : S100000x128.Idx → EReal)
    (V c main_v26 : S128x128.Idx → EReal) (V c main_v27 : S128x128.Idx → EReal)
    (fun j => (V c main_v28 : S1x128.Idx → EReal) (ix2 (0 : Fin 1) (j 0))) (fun j => (V c main_v29 : S1x128.Idx → EReal) (ix2 (0 : Fin 1) (j 0)))

/-- The index maps over the grid: a row-tiled window is at block t on the rows, every window at block 0 on the columns,
    and an untiled window stays at block 0. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- Window 0's block at point t is rows t·5000 … of its array. -/
theorem blk0 (c : Dev nD) (t : Fin cfg1.N) (p : Fin 5000) (row : Fin 100000) (hrow : row.val = t.val * 5000 + p.val) (q : Fin 128) :
    iblk1 V c 0 t (ix2 p q) = (V c main_v25 : S100000x128.Idx → EReal) (ix2 row q) := by
  obtain ⟨e00, e01, e10, e11, e20, e21, e30, e31, e40, e41, e50, e51, e60, e61⟩ := idx_facts t
  show (V c main_v25 : S100000x128.Idx → EReal) (((cfg1.win 0).blk t).view.emb (ix2 p q)) = _
  refine congrArg (V c main_v25 : S100000x128.Idx → EReal) (funext fun a => Fin.ext ?_)
  match a with
  | ⟨0, _⟩ => show win1_0.index t (0 : Fin 2) * 5000 + 1 * p.val = row.val; omega
  | ⟨1, _⟩ => show win1_0.index t (1 : Fin 2) * 128 + 1 * q.val = q.val; omega

/-- Window 1's block at point t is rows t·5000 … of its array. -/
theorem blk1 (c : Dev nD) (t : Fin cfg1.N) (p : Fin 5000) (row : Fin 100000) (hrow : row.val = t.val * 5000 + p.val) (q : Fin 128) :
    iblk1 V c 1 t (ix2 p q) = (V c main_arg0 : S100000x128.Idx → EReal) (ix2 row q) := by
  obtain ⟨e00, e01, e10, e11, e20, e21, e30, e31, e40, e41, e50, e51, e60, e61⟩ := idx_facts t
  show (V c main_arg0 : S100000x128.Idx → EReal) (((cfg1.win 1).blk t).view.emb (ix2 p q)) = _
  refine congrArg (V c main_arg0 : S100000x128.Idx → EReal) (funext fun a => Fin.ext ?_)
  match a with
  | ⟨0, _⟩ => show win1_1.index t (0 : Fin 2) * 5000 + 1 * p.val = row.val; omega
  | ⟨1, _⟩ => show win1_1.index t (1 : Fin 2) * 128 + 1 * q.val = q.val; omega

/-- Window 2's block is its whole array at every point. -/
theorem blk2 (c : Dev nD) (t : Fin cfg1.N) (p : Fin 128) (q : Fin 128) :
    iblk1 V c 2 t (ix2 p q) = (V c main_v26 : S128x128.Idx → EReal) (ix2 p q) := by
  obtain ⟨e00, e01, e10, e11, e20, e21, e30, e31, e40, e41, e50, e51, e60, e61⟩ := idx_facts t
  show (V c main_v26 : S128x128.Idx → EReal) (((cfg1.win 2).blk t).view.emb (ix2 p q)) = _
  refine congrArg (V c main_v26 : S128x128.Idx → EReal) (funext fun a => Fin.ext ?_)
  match a with
  | ⟨0, _⟩ => show win1_2.index t (0 : Fin 2) * 128 + 1 * p.val = p.val; omega
  | ⟨1, _⟩ => show win1_2.index t (1 : Fin 2) * 128 + 1 * q.val = q.val; omega

/-- Window 3's block is its whole array at every point. -/
theorem blk3 (c : Dev nD) (t : Fin cfg1.N) (p : Fin 128) (q : Fin 128) :
    iblk1 V c 3 t (ix2 p q) = (V c main_v27 : S128x128.Idx → EReal) (ix2 p q) := by
  obtain ⟨e00, e01, e10, e11, e20, e21, e30, e31, e40, e41, e50, e51, e60, e61⟩ := idx_facts t
  show (V c main_v27 : S128x128.Idx → EReal) (((cfg1.win 3).blk t).view.emb (ix2 p q)) = _
  refine congrArg (V c main_v27 : S128x128.Idx → EReal) (funext fun a => Fin.ext ?_)
  match a with
  | ⟨0, _⟩ => show win1_3.index t (0 : Fin 2) * 128 + 1 * p.val = p.val; omega
  | ⟨1, _⟩ => show win1_3.index t (1 : Fin 2) * 128 + 1 * q.val = q.val; omega

/-- Window 4's block is its whole array at every point. -/
theorem blk4 (c : Dev nD) (t : Fin cfg1.N) (p : Fin 1) (q : Fin 128) :
    iblk1 V c 4 t (ix2 p q) = (V c main_v28 : S1x128.Idx → EReal) (ix2 p q) := by
  obtain ⟨e00, e01, e10, e11, e20, e21, e30, e31, e40, e41, e50, e51, e60, e61⟩ := idx_facts t
  show (V c main_v28 : S1x128.Idx → EReal) (((cfg1.win 4).blk t).view.emb (ix2 p q)) = _
  refine congrArg (V c main_v28 : S1x128.Idx → EReal) (funext fun a => Fin.ext ?_)
  match a with
  | ⟨0, _⟩ => show win1_4.index t (0 : Fin 2) * 1 + 1 * p.val = p.val; omega
  | ⟨1, _⟩ => show win1_4.index t (1 : Fin 2) * 128 + 1 * q.val = q.val; omega

/-- Window 5's block is its whole array at every point. -/
theorem blk5 (c : Dev nD) (t : Fin cfg1.N) (p : Fin 1) (q : Fin 128) :
    iblk1 V c 5 t (ix2 p q) = (V c main_v29 : S1x128.Idx → EReal) (ix2 p q) := by
  obtain ⟨e00, e01, e10, e11, e20, e21, e30, e31, e40, e41, e50, e51, e60, e61⟩ := idx_facts t
  show (V c main_v29 : S1x128.Idx → EReal) (((cfg1.win 5).blk t).view.emb (ix2 p q)) = _
  refine congrArg (V c main_v29 : S1x128.Idx → EReal) (funext fun a => Fin.ext ?_)
  match a with
  | ⟨0, _⟩ => show win1_5.index t (0 : Fin 2) * 1 + 1 * p.val = p.val; omega
  | ⟨1, _⟩ => show win1_5.index t (1 : Fin 2) * 128 + 1 * q.val = q.val; omega

/-- The output block's entry (p, q) at point t is row t·5000 + p of the output array. -/
theorem out_emb (t : Fin cfg1.N) (p : Fin 5000) (row : Fin 100000) (hrow : row.val = t.val * 5000 + p.val) (q : Fin 128) :
    ((cfg1.win 6).blk t).view.emb (ix2 p q) = (ix2 row q : S100000x128.Idx) := by
  obtain ⟨e00, e01, e10, e11, e20, e21, e30, e31, e40, e41, e50, e51, e60, e61⟩ := idx_facts t
  refine funext fun a => Fin.ext ?_
  match a with
  | ⟨0, _⟩ => show win1_6.index t (0 : Fin 2) * 5000 + 1 * p.val = row.val; omega
  | ⟨1, _⟩ => show win1_6.index t (1 : Fin 2) * 128 + 1 * q.val = q.val; omega

/-- What point t writes back is block t of the layer's function of the arrays the region finds. -/
theorem flushed_eq (c : Dev nD) (t : Fin cfg1.N) :
    (dat1 V c).flushed 6 t = ((cfg1.win 6).blk t).view.read (Elt Ideal) (layer V c) := by
  show (cfg1.win 6).cut (grid1.coords t) ((dat1 V c).after 6 t) = _
  rw [after1_6]
  unfold out1_6
  rw [View.canon_unit_zero zero_offsets]
  simp only [View.ld_unit_zero (S := S5000x128) zero_offsets, View.ld_unit_zero (S := S128x128) zero_offsets, View.ld_unit_zero (S := S1x128) zero_offsets]
  funext j
  obtain ⟨p, q, rfl⟩ : ∃ (p : Fin 5000) (q : Fin 128), j = ix2 p q := ⟨j 0, j 1, eq_ix2 j⟩
  have ht : t.val < 20 := lt_of_lt_of_eq t.isLt N_1
  obtain ⟨row, hrow⟩ : ∃ row : Fin 100000, row.val = t.val * 5000 + p.val :=
    ⟨⟨t.val * 5000 + p.val, by have := p.isLt; omega⟩, rfl⟩
  refine (pay_read (iblk1 V c 0 t) (iblk1 V c 1 t) (iblk1 V c 2 t) (iblk1 V c 3 t) (iblk1 V c 4 t) (iblk1 V c 5 t) p q).trans ?_
  simp only [blk0 V c t p row hrow, blk1 V c t p row hrow, blk2 V c t, blk3 V c t, blk4 V c t, blk5 V c t]
  show _ = layer V c (((cfg1.win 6).blk t).view.emb (ix2 p q))
  rw [out_emb t p row hrow q]
  rfl

/-- An index is in point t's output block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v30).slice (win1_6.rect t)).set ↔ _
  rw [View.set_slice_whole, Rect.mem_set_unit]
  exact Iff.rfl

/-- Every index of the output array is in the block of the point its row falls in: the blocks tile the array. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by show _ < grid1.N; rw [N_1]; omega⟩, rfl⟩
  obtain ⟨e00, e01, e10, e11, e20, e21, e30, e31, e40, e41, e50, e51, e60, e61⟩ := idx_facts t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The output array after the region: the layer's function of the arrays the region finds. -/
theorem final (c : Dev nD) : (dat1 V c).arrAt 6 cfg1.N = layer V c :=
  (dat1 V c).arrAt_eq_of_cover 6 (layer V c) (fun t _ => flushed_eq V c t) cover

/-- The same with the operand arrays named: each bias given as a vector that its one-row array spreads. -/
theorem final_of (c : Dev nD) (mean x : S100000x128.Idx → EReal) (Wl Wr : S128x128.Idx → EReal) (bl br : S128.Idx → EReal)
    (h0 : (V c main_v25 : S100000x128.Idx → EReal) = mean) (h1 : (V c main_arg0 : S100000x128.Idx → EReal) = x)
    (h2 : (V c main_v26 : S128x128.Idx → EReal) = Wl) (h3 : (V c main_v27 : S128x128.Idx → EReal) = Wr)
    (h4 : ∀ q : Fin 128, (V c main_v28 : S1x128.Idx → EReal) (ix2 (0 : Fin 1) q) = bl (ix1 q))
    (h5 : ∀ q : Fin 128, (V c main_v29 : S1x128.Idx → EReal) (ix2 (0 : Fin 1) q) = br (ix1 q)) :
    (dat1 V c).arrAt 6 cfg1.N = denseAt (n := 100000) (k := 128) (d := 128) (φ₁ := .f32) (φ₂ := .f32) mean x Wl Wr bl br := by
  rw [final V c]
  unfold layer
  rw [h0, h1, h2, h3]
  have hl : (fun j : S128.Idx => (V c main_v28 : S1x128.Idx → EReal) (ix2 (0 : Fin 1) (j 0))) = bl :=
    funext fun j => (h4 (j 0)).trans (congrArg bl (eq_ix1 j).symm)
  have hr : (fun j : S128.Idx => (V c main_v29 : S1x128.Idx → EReal) (ix2 (0 : Fin 1) (j 0))) = br :=
    funext fun j => (h5 (j 0)).trans (congrArg br (eq_ix1 j).symm)
  exact congrArg₂ (denseAt (n := 100000) (k := 128) (d := 128) (φ₁ := .f32) (φ₂ := .f32) mean x Wl Wr) hl hr

end Cert.KernelIdeal.Update1

end
-- ==== Proof.Update2.lean ====
/- The second node-update region read as one array. Its grid has 20 points; point t stages rows 5000·t … 5000·t + 4999 of the
   mean-aggregated messages and of the node features, both whole weight matrices and both one-row biases, and writes the
   same rows of the output. The body's block is, entry by entry, the lower bound 0 of: the mean row against a column of the
   neighbour weights, plus its bias entry, plus the node row against a column of the self weights, plus its bias entry. The
   20 blocks tile the 100000 rows, so they are the restrictions of one function of the arrays the region finds. -/
import proofs.«128431_j42597485641878_1_alg».proof.Proof.Gen.KernelIdeal.Frame
import proofs.«128431_j42597485641878_1_alg».proof.Proof.LibEdgeLayers
import Idealize.ShloMosaic.Lib.Pipeline.Value
import Idealize.ShloMosaic.Lib.ValueIdx

set_option maxRecDepth 16384

noncomputable section

namespace Cert.KernelIdeal.Update2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.EdgeLayers
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored block at entry (p, q), over any loaded blocks. -/
theorem pay_read (v0 v3 : Vec Ideal S5000x128 .f32) (v5 v8 : Vec Ideal S128x128 .bf16) (v11 v16 : Vec Ideal S1x128 .f32)
    (p : Fin 5000) (q : Fin 128) :
    k3_pay1 (F := Ideal) v0 v3 v5 v8 v11 v16 (ix2 p q)
      = max ((((∑ t : Fin 128, (v0 (ix2 p t) : EReal) * (v5 (ix2 t q) : EReal)) + (v11 (ix2 (0 : Fin 1) q) : EReal))
          + ∑ t : Fin 128, (v3 (ix2 p t) : EReal) * (v8 (ix2 t q) : EReal)) + (v16 (ix2 (0 : Fin 1) q) : EReal))
          (Ideal.ofBits .f32 0x00000000#32) := by
  unfold k3_pay1
  simp only [shapeCast_self]
  exact dense_body_read v0 v3 v5 v8 v11 v16 _ _ none p q

/-- The updated node array as one function of the arrays the region finds. -/
def layer (c : Dev nD) : S100000x128.Idx → EReal :=
  denseAt (n := 100000) (k := 128) (d := 128) (φ₁ := .bf16) (φ₂ := .bf16) (V c main_v52 : S100000x128.Idx → EReal) (V c main_v30 : S100000x128.Idx → EReal)
    (V c main_v53 : S128x128.Idx → EReal) (V c main_v54 : S128x128.Idx → EReal)
    (fun j => (V c main_v55 : S1x128.Idx → EReal) (ix2 (0 : Fin 1) (j 0))) (fun j => (V c main_v56 : S1x128.Idx → EReal) (ix2 (0 : Fin 1) (j 0)))

/-- The index maps over the grid: a row-tiled window is at block t on the rows, every window at block 0 on the columns,
    and an untiled window stays at block 0. -/
theorem idx_facts : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0 :=
  (by decide +kernel : ∀ t : Fin grid3.N, _)

/-- Window 0's block at point t is rows t·5000 … of its array. -/
theorem blk0 (c : Dev nD) (t : Fin cfg3.N) (p : Fin 5000) (row : Fin 100000) (hrow : row.val = t.val * 5000 + p.val) (q : Fin 128) :
    iblk3 V c 0 t (ix2 p q) = (V c main_v52 : S100000x128.Idx → EReal) (ix2 row q) := by
  obtain ⟨e00, e01, e10, e11, e20, e21, e30, e31, e40, e41, e50, e51, e60, e61⟩ := idx_facts t
  show (V c main_v52 : S100000x128.Idx → EReal) (((cfg3.win 0).blk t).view.emb (ix2 p q)) = _
  refine congrArg (V c main_v52 : S100000x128.Idx → EReal) (funext fun a => Fin.ext ?_)
  match a with
  | ⟨0, _⟩ => show win3_0.index t (0 : Fin 2) * 5000 + 1 * p.val = row.val; omega
  | ⟨1, _⟩ => show win3_0.index t (1 : Fin 2) * 128 + 1 * q.val = q.val; omega

/-- Window 1's block at point t is rows t·5000 … of its array. -/
theorem blk1 (c : Dev nD) (t : Fin cfg3.N) (p : Fin 5000) (row : Fin 100000) (hrow : row.val = t.val * 5000 + p.val) (q : Fin 128) :
    iblk3 V c 1 t (ix2 p q) = (V c main_v30 : S100000x128.Idx → EReal) (ix2 row q) := by
  obtain ⟨e00, e01, e10, e11, e20, e21, e30, e31, e40, e41, e50, e51, e60, e61⟩ := idx_facts t
  show (V c main_v30 : S100000x128.Idx → EReal) (((cfg3.win 1).blk t).view.emb (ix2 p q)) = _
  refine congrArg (V c main_v30 : S100000x128.Idx → EReal) (funext fun a => Fin.ext ?_)
  match a with
  | ⟨0, _⟩ => show win3_1.index t (0 : Fin 2) * 5000 + 1 * p.val = row.val; omega
  | ⟨1, _⟩ => show win3_1.index t (1 : Fin 2) * 128 + 1 * q.val = q.val; omega

/-- Window 2's block is its whole array at every point. -/
theorem blk2 (c : Dev nD) (t : Fin cfg3.N) (p : Fin 128) (q : Fin 128) :
    iblk3 V c 2 t (ix2 p q) = (V c main_v53 : S128x128.Idx → EReal) (ix2 p q) := by
  obtain ⟨e00, e01, e10, e11, e20, e21, e30, e31, e40, e41, e50, e51, e60, e61⟩ := idx_facts t
  show (V c main_v53 : S128x128.Idx → EReal) (((cfg3.win 2).blk t).view.emb (ix2 p q)) = _
  refine congrArg (V c main_v53 : S128x128.Idx → EReal) (funext fun a => Fin.ext ?_)
  match a with
  | ⟨0, _⟩ => show win3_2.index t (0 : Fin 2) * 128 + 1 * p.val = p.val; omega
  | ⟨1, _⟩ => show win3_2.index t (1 : Fin 2) * 128 + 1 * q.val = q.val; omega

/-- Window 3's block is its whole array at every point. -/
theorem blk3 (c : Dev nD) (t : Fin cfg3.N) (p : Fin 128) (q : Fin 128) :
    iblk3 V c 3 t (ix2 p q) = (V c main_v54 : S128x128.Idx → EReal) (ix2 p q) := by
  obtain ⟨e00, e01, e10, e11, e20, e21, e30, e31, e40, e41, e50, e51, e60, e61⟩ := idx_facts t
  show (V c main_v54 : S128x128.Idx → EReal) (((cfg3.win 3).blk t).view.emb (ix2 p q)) = _
  refine congrArg (V c main_v54 : S128x128.Idx → EReal) (funext fun a => Fin.ext ?_)
  match a with
  | ⟨0, _⟩ => show win3_3.index t (0 : Fin 2) * 128 + 1 * p.val = p.val; omega
  | ⟨1, _⟩ => show win3_3.index t (1 : Fin 2) * 128 + 1 * q.val = q.val; omega

/-- Window 4's block is its whole array at every point. -/
theorem blk4 (c : Dev nD) (t : Fin cfg3.N) (p : Fin 1) (q : Fin 128) :
    iblk3 V c 4 t (ix2 p q) = (V c main_v55 : S1x128.Idx → EReal) (ix2 p q) := by
  obtain ⟨e00, e01, e10, e11, e20, e21, e30, e31, e40, e41, e50, e51, e60, e61⟩ := idx_facts t
  show (V c main_v55 : S1x128.Idx → EReal) (((cfg3.win 4).blk t).view.emb (ix2 p q)) = _
  refine congrArg (V c main_v55 : S1x128.Idx → EReal) (funext fun a => Fin.ext ?_)
  match a with
  | ⟨0, _⟩ => show win3_4.index t (0 : Fin 2) * 1 + 1 * p.val = p.val; omega
  | ⟨1, _⟩ => show win3_4.index t (1 : Fin 2) * 128 + 1 * q.val = q.val; omega

/-- Window 5's block is its whole array at every point. -/
theorem blk5 (c : Dev nD) (t : Fin cfg3.N) (p : Fin 1) (q : Fin 128) :
    iblk3 V c 5 t (ix2 p q) = (V c main_v56 : S1x128.Idx → EReal) (ix2 p q) := by
  obtain ⟨e00, e01, e10, e11, e20, e21, e30, e31, e40, e41, e50, e51, e60, e61⟩ := idx_facts t
  show (V c main_v56 : S1x128.Idx → EReal) (((cfg3.win 5).blk t).view.emb (ix2 p q)) = _
  refine congrArg (V c main_v56 : S1x128.Idx → EReal) (funext fun a => Fin.ext ?_)
  match a with
  | ⟨0, _⟩ => show win3_5.index t (0 : Fin 2) * 1 + 1 * p.val = p.val; omega
  | ⟨1, _⟩ => show win3_5.index t (1 : Fin 2) * 128 + 1 * q.val = q.val; omega

/-- The output block's entry (p, q) at point t is row t·5000 + p of the output array. -/
theorem out_emb (t : Fin cfg3.N) (p : Fin 5000) (row : Fin 100000) (hrow : row.val = t.val * 5000 + p.val) (q : Fin 128) :
    ((cfg3.win 6).blk t).view.emb (ix2 p q) = (ix2 row q : S100000x128.Idx) := by
  obtain ⟨e00, e01, e10, e11, e20, e21, e30, e31, e40, e41, e50, e51, e60, e61⟩ := idx_facts t
  refine funext fun a => Fin.ext ?_
  match a with
  | ⟨0, _⟩ => show win3_6.index t (0 : Fin 2) * 5000 + 1 * p.val = row.val; omega
  | ⟨1, _⟩ => show win3_6.index t (1 : Fin 2) * 128 + 1 * q.val = q.val; omega

/-- What point t writes back is block t of the layer's function of the arrays the region finds. -/
theorem flushed_eq (c : Dev nD) (t : Fin cfg3.N) :
    (dat3 V c).flushed 6 t = ((cfg3.win 6).blk t).view.read (Elt Ideal) (layer V c) := by
  show (cfg3.win 6).cut (grid3.coords t) ((dat3 V c).after 6 t) = _
  rw [after3_6]
  unfold out3_6
  rw [View.canon_unit_zero zero_offsets]
  simp only [View.ld_unit_zero (S := S5000x128) zero_offsets, View.ld_unit_zero (S := S128x128) zero_offsets, View.ld_unit_zero (S := S1x128) zero_offsets]
  funext j
  obtain ⟨p, q, rfl⟩ : ∃ (p : Fin 5000) (q : Fin 128), j = ix2 p q := ⟨j 0, j 1, eq_ix2 j⟩
  have ht : t.val < 20 := lt_of_lt_of_eq t.isLt N_3
  obtain ⟨row, hrow⟩ : ∃ row : Fin 100000, row.val = t.val * 5000 + p.val :=
    ⟨⟨t.val * 5000 + p.val, by have := p.isLt; omega⟩, rfl⟩
  refine (pay_read (iblk3 V c 0 t) (iblk3 V c 1 t) (iblk3 V c 2 t) (iblk3 V c 3 t) (iblk3 V c 4 t) (iblk3 V c 5 t) p q).trans ?_
  simp only [blk0 V c t p row hrow, blk1 V c t p row hrow, blk2 V c t, blk3 V c t, blk4 V c t, blk5 V c t]
  show _ = layer V c (((cfg3.win 6).blk t).view.emb (ix2 p q))
  rw [out_emb t p row hrow q]
  rfl

/-- An index is in point t's output block iff each coordinate is in the block's range on its axis. -/
theorem mem_blk (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v57).slice (win3_6.rect t)).set ↔ _
  rw [View.set_slice_whole, Rect.mem_set_unit]
  exact Iff.rfl

/-- Every index of the output array is in the block of the point its row falls in: the blocks tile the array. -/
theorem cover (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, by show _ < grid3.N; rw [N_3]; omega⟩, rfl⟩
  obtain ⟨e00, e01, e10, e11, e20, e21, e30, e31, e40, e41, e50, e51, e60, e61⟩ := idx_facts t
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- The output array after the region: the layer's function of the arrays the region finds. -/
theorem final (c : Dev nD) : (dat3 V c).arrAt 6 cfg3.N = layer V c :=
  (dat3 V c).arrAt_eq_of_cover 6 (layer V c) (fun t _ => flushed_eq V c t) cover

/-- The same with the operand arrays named: each bias given as a vector that its one-row array spreads. -/
theorem final_of (c : Dev nD) (mean x : S100000x128.Idx → EReal) (Wl Wr : S128x128.Idx → EReal) (bl br : S128.Idx → EReal)
    (h0 : (V c main_v52 : S100000x128.Idx → EReal) = mean) (h1 : (V c main_v30 : S100000x128.Idx → EReal) = x)
    (h2 : (V c main_v53 : S128x128.Idx → EReal) = Wl) (h3 : (V c main_v54 : S128x128.Idx → EReal) = Wr)
    (h4 : ∀ q : Fin 128, (V c main_v55 : S1x128.Idx → EReal) (ix2 (0 : Fin 1) q) = bl (ix1 q))
    (h5 : ∀ q : Fin 128, (V c main_v56 : S1x128.Idx → EReal) (ix2 (0 : Fin 1) q) = br (ix1 q)) :
    (dat3 V c).arrAt 6 cfg3.N = denseAt (n := 100000) (k := 128) (d := 128) (φ₁ := .f32) (φ₂ := .f32) mean x Wl Wr bl br := by
  rw [final V c]
  unfold layer
  rw [h0, h1, h2, h3]
  have hl : (fun j : S128.Idx => (V c main_v55 : S1x128.Idx → EReal) (ix2 (0 : Fin 1) (j 0))) = bl :=
    funext fun j => (h4 (j 0)).trans (congrArg bl (eq_ix1 j).symm)
  have hr : (fun j : S128.Idx => (V c main_v56 : S1x128.Idx → EReal) (ix2 (0 : Fin 1) (j 0))) = br :=
    funext fun j => (h5 (j 0)).trans (congrArg br (eq_ix1 j).symm)
  exact congrArg₂ (denseAt (n := 100000) (k := 128) (d := 128) (φ₁ := .f32) (φ₂ := .f32) mean x Wl Wr) hl hr

end Cert.KernelIdeal.Update2

end
-- ==== Proof.Predictor.lean ====
/- The edge-predictor region read as one array. Its grid has 100 points; point t stages rows 6000·t … 6000·t + 5999 of the
   two gathered endpoint arrays, the two halves of the first weight matrix, the second weight matrix and the two one-row
   biases, and writes the same rows of the two-column output. The body's block is, entry by entry: the hidden row — each
   endpoint row against its half of the first weights, summed, plus the bias, bounded below by 0 — against a column of the
   second weights, plus its bias entry. The 100 blocks tile the 600000 rows, so they are the restrictions of one function
   of the arrays the region finds. -/
import proofs.«128431_j42597485641878_1_alg».proof.Proof.Gen.KernelIdeal.Frame
import proofs.«128431_j42597485641878_1_alg».proof.Proof.LibEdgeLayers
import Idealize.ShloMosaic.Lib.Pipeline.Value
import Idealize.ShloMosaic.Lib.ValueIdx

set_option maxRecDepth 16384

noncomputable section

namespace Cert.KernelIdeal.Predictor

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.EdgeLayers
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored block at entry (p, q), over any loaded blocks. -/
theorem pay_read (v0 v3 : Vec Ideal S6000x128 .f32) (v6 v9 : Vec Ideal S128x128 .bf16) (v13 : Vec Ideal S1x128 .f32)
    (v20 : Vec Ideal S128x2 .bf16) (v23 : Vec Ideal S1x2 .f32) (p : Fin 6000) (q : Fin 2) :
    k4_pay1 (F := Ideal) v0 v3 v6 v9 v13 v20 v23 (ix2 p q)
      = (∑ t : Fin 128, max (((∑ s : Fin 128, (v0 (ix2 p s) : EReal) * (v6 (ix2 s t) : EReal))
            + ∑ s : Fin 128, (v3 (ix2 p s) : EReal) * (v9 (ix2 s t) : EReal)) + (v13 (ix2 (0 : Fin 1) t) : EReal))
            (Ideal.ofBits .f32 0x00000000#32) * (v20 (ix2 t q) : EReal)) + (v23 (ix2 (0 : Fin 1) q) : EReal) := by
  unfold k4_pay1
  simp only [shapeCast_self]
  exact pred_body_read v0 v3 v6 v9 v13 v20 v23 _ _ _ none p q

/-- The logits array as one function of the arrays the region finds. -/
def layer (c : Dev nD) : S600000x2.Idx → EReal :=
  predAt (n := 600000) (a := 128) (h := 128) (o := 2) (φ₁ := .bf16) (φ₂ := .bf16) (φ₃ := .bf16)
    (V c main_v64 : S600000x128.Idx → EReal) (V c main_v71 : S600000x128.Idx → EReal)
    (V c main_v73 : S128x128.Idx → EReal) (V c main_v75 : S128x128.Idx → EReal)
    (fun j => (V c main_v76 : S1x128.Idx → EReal) (ix2 (0 : Fin 1) (j 0))) (V c main_v77 : S128x2.Idx → EReal)
    (fun j => (V c main_v78 : S1x2.Idx → EReal) (ix2 (0 : Fin 1) (j 0)))

/-- The index maps over the grid: a row-tiled window is at block t on the rows, every window at block 0 on the columns,
    and an untiled window stays at block 0. -/
theorem idx_facts : ∀ t : Fin cfg4.N,
    win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = t.val
    ∧ win4_7.index t (1 : Fin 2) = 0 :=
  (by decide +kernel : ∀ t : Fin grid4.N, _)

/-- Window 0's block at point t is rows t·6000 … of its array. -/
theorem blk0 (c : Dev nD) (t : Fin cfg4.N) (p : Fin 6000) (row : Fin 600000) (hrow : row.val = t.val * 6000 + p.val) (q : Fin 128) :
    iblk4 V c 0 t (ix2 p q) = (V c main_v64 : S600000x128.Idx → EReal) (ix2 row q) := by
  obtain ⟨e00, e01, e10, e11, e20, e21, e30, e31, e40, e41, e50, e51, e60, e61, e70, e71⟩ := idx_facts t
  show (V c main_v64 : S600000x128.Idx → EReal) (((cfg4.win 0).blk t).view.emb (ix2 p q)) = _
  refine congrArg (V c main_v64 : S600000x128.Idx → EReal) (funext fun a => Fin.ext ?_)
  match a with
  | ⟨0, _⟩ => show win4_0.index t (0 : Fin 2) * 6000 + 1 * p.val = row.val; omega
  | ⟨1, _⟩ => show win4_0.index t (1 : Fin 2) * 128 + 1 * q.val = q.val; omega

/-- Window 1's block at point t is rows t·6000 … of its array. -/
theorem blk1 (c : Dev nD) (t : Fin cfg4.N) (p : Fin 6000) (row : Fin 600000) (hrow : row.val = t.val * 6000 + p.val) (q : Fin 128) :
    iblk4 V c 1 t (ix2 p q) = (V c main_v71 : S600000x128.Idx → EReal) (ix2 row q) := by
  obtain ⟨e00, e01, e10, e11, e20, e21, e30, e31, e40, e41, e50, e51, e60, e61, e70, e71⟩ := idx_facts t
  show (V c main_v71 : S600000x128.Idx → EReal) (((cfg4.win 1).blk t).view.emb (ix2 p q)) = _
  refine congrArg (V c main_v71 : S600000x128.Idx → EReal) (funext fun a => Fin.ext ?_)
  match a with
  | ⟨0, _⟩ => show win4_1.index t (0 : Fin 2) * 6000 + 1 * p.val = row.val; omega
  | ⟨1, _⟩ => show win4_1.index t (1 : Fin 2) * 128 + 1 * q.val = q.val; omega

/-- Window 2's block is its whole array at every point. -/
theorem blk2 (c : Dev nD) (t : Fin cfg4.N) (p : Fin 128) (q : Fin 128) :
    iblk4 V c 2 t (ix2 p q) = (V c main_v73 : S128x128.Idx → EReal) (ix2 p q) := by
  obtain ⟨e00, e01, e10, e11, e20, e21, e30, e31, e40, e41, e50, e51, e60, e61, e70, e71⟩ := idx_facts t
  show (V c main_v73 : S128x128.Idx → EReal) (((cfg4.win 2).blk t).view.emb (ix2 p q)) = _
  refine congrArg (V c main_v73 : S128x128.Idx → EReal) (funext fun a => Fin.ext ?_)
  match a with
  | ⟨0, _⟩ => show win4_2.index t (0 : Fin 2) * 128 + 1 * p.val = p.val; omega
  | ⟨1, _⟩ => show win4_2.index t (1 : Fin 2) * 128 + 1 * q.val = q.val; omega

/-- Window 3's block is its whole array at every point. -/
theorem blk3 (c : Dev nD) (t : Fin cfg4.N) (p : Fin 128) (q : Fin 128) :
    iblk4 V c 3 t (ix2 p q) = (V c main_v75 : S128x128.Idx → EReal) (ix2 p q) := by
  obtain ⟨e00, e01, e10, e11, e20, e21, e30, e31, e40, e41, e50, e51, e60, e61, e70, e71⟩ := idx_facts t
  show (V c main_v75 : S128x128.Idx → EReal) (((cfg4.win 3).blk t).view.emb (ix2 p q)) = _
  refine congrArg (V c main_v75 : S128x128.Idx → EReal) (funext fun a => Fin.ext ?_)
  match a with
  | ⟨0, _⟩ => show win4_3.index t (0 : Fin 2) * 128 + 1 * p.val = p.val; omega
  | ⟨1, _⟩ => show win4_3.index t (1 : Fin 2) * 128 + 1 * q.val = q.val; omega

/-- Window 4's block is its whole array at every point. -/
theorem blk4 (c : Dev nD) (t : Fin cfg4.N) (p : Fin 1) (q : Fin 128) :
    iblk4 V c 4 t (ix2 p q) = (V c main_v76 : S1x128.Idx → EReal) (ix2 p q) := by
  obtain ⟨e00, e01, e10, e11, e20, e21, e30, e31, e40, e41, e50, e51, e60, e61, e70, e71⟩ := idx_facts t
  show (V c main_v76 : S1x128.Idx → EReal) (((cfg4.win 4).blk t).view.emb (ix2 p q)) = _
  refine congrArg (V c main_v76 : S1x128.Idx → EReal) (funext fun a => Fin.ext ?_)
  match a with
  | ⟨0, _⟩ => show win4_4.index t (0 : Fin 2) * 1 + 1 * p.val = p.val; omega
  | ⟨1, _⟩ => show win4_4.index t (1 : Fin 2) * 128 + 1 * q.val = q.val; omega

/-- Window 5's block is its whole array at every point. -/
theorem blk5 (c : Dev nD) (t : Fin cfg4.N) (p : Fin 128) (q : Fin 2) :
    iblk4 V c 5 t (ix2 p q) = (V c main_v77 : S128x2.Idx → EReal) (ix2 p q) := by
  obtain ⟨e00, e01, e10, e11, e20, e21, e30, e31, e40, e41, e50, e51, e60, e61, e70, e71⟩ := idx_facts t
  show (V c main_v77 : S128x2.Idx → EReal) (((cfg4.win 5).blk t).view.emb (ix2 p q)) = _
  refine congrArg (V c main_v77 : S128x2.Idx → EReal) (funext fun a => Fin.ext ?_)
  match a with
  | ⟨0, _⟩ => show win4_5.index t (0 : Fin 2) * 128 + 1 * p.val = p.val; omega
  | ⟨1, _⟩ => show win4_5.index t (1 : Fin 2) * 2 + 1 * q.val = q.val; omega

/-- Window 6's block is its whole array at every point. -/
theorem blk6 (c : Dev nD) (t : Fin cfg4.N) (p : Fin 1) (q : Fin 2) :
    iblk4 V c 6 t (ix2 p q) = (V c main_v78 : S1x2.Idx → EReal) (ix2 p q) := by
  obtain ⟨e00, e01, e10, e11, e20, e21, e30, e31, e40, e41, e50, e51, e60, e61, e70, e71⟩ := idx_facts t
  show (V c main_v78 : S1x2.Idx → EReal) (((cfg4.win 6).blk t).view.emb (ix2 p q)) = _
  refine congrArg (V c main_v78 : S1x2.Idx → EReal) (funext fun a => Fin.ext ?_)
  match a with
  | ⟨0, _⟩ => show win4_6.index t (0 : Fin 2) * 1 + 1 * p.val = p.val; omega
  | ⟨1, _⟩ => show win4_6.index t (1 : Fin 2) * 2 + 1 * q.val = q.val; omega

/-- The output block's entry (p, q) at point t is row t·6000 + p of the output array. -/
theorem out_emb (t : Fin cfg4.N) (p : Fin 6000) (row : Fin 600000) (hrow : row.val = t.val * 6000 + p.val) (q : Fin 2) :
    ((cfg4.win 7).blk t).view.emb (ix2 p q) = (ix2 row q : S600000x2.Idx) := by
  obtain ⟨e00, e01, e10, e11, e20, e21, e30, e31, e40, e41, e50, e51, e60, e61, e70, e71⟩ := idx_facts t
  refine funext fun a => Fin.ext ?_
  match a with
  | ⟨0, _⟩ => show win4_7.index t (0 : Fin 2) * 6000 + 1 * p.val = row.val; omega
  | ⟨1, _⟩ => show win4_7.index t (1 : Fin 2) * 2 + 1 * q.val = q.val; omega

/-- What point t writes back is block t of the layer's function of the arrays the region finds. -/
theorem flushed_eq (c : Dev nD) (t : Fin cfg4.N) :
    (dat4 V c).flushed 7 t = ((cfg4.win 7).blk t).view.read (Elt Ideal) (layer V c) := by
  show (cfg4.win 7).cut (grid4.coords t) ((dat4 V c).after 7 t) = _
  rw [after4_7]
  unfold out4_7
  rw [View.canon_unit_zero zero_offsets]
  simp only [View.ld_unit_zero (S := S6000x128) zero_offsets, View.ld_unit_zero (S := S128x128) zero_offsets, View.ld_unit_zero (S := S1x128) zero_offsets, View.ld_unit_zero (S := S128x2) zero_offsets, View.ld_unit_zero (S := S1x2) zero_offsets, View.ld_unit_zero (S := S6000x2) zero_offsets]
  funext j
  obtain ⟨p, q, rfl⟩ : ∃ (p : Fin 6000) (q : Fin 2), j = ix2 p q := ⟨j 0, j 1, eq_ix2 j⟩
  have ht : t.val < 100 := lt_of_lt_of_eq t.isLt N_4
  obtain ⟨row, hrow⟩ : ∃ row : Fin 600000, row.val = t.val * 6000 + p.val :=
    ⟨⟨t.val * 6000 + p.val, by have := p.isLt; omega⟩, rfl⟩
  refine (pay_read (iblk4 V c 0 t) (iblk4 V c 1 t) (iblk4 V c 2 t) (iblk4 V c 3 t) (iblk4 V c 4 t) (iblk4 V c 5 t) (iblk4 V c 6 t) p q).trans ?_
  simp only [blk0 V c t p row hrow, blk1 V c t p row hrow, blk2 V c t, blk3 V c t, blk4 V c t, blk5 V c t, blk6 V c t]
  show _ = layer V c (((cfg4.win 7).blk t).view.emb (ix2 p q))
  rw [out_emb t p row hrow q]
  rfl

/-- An index is in point t's output block iff each coordinate is in the block's range on its axis. -/
theorem mem_blk (t : Fin cfg4.N) (i : S600000x2.Idx) :
    i ∈ ((cfg4.win 7).blk t).view.set ↔ ∀ a : Fin 2, win4_7.index t a * S6000x2.size a ≤ (i a).val ∧ (i a).val < win4_7.index t a * S6000x2.size a + S6000x2.size a := by
  show i ∈ ((View.whole main_v79).slice (win4_7.rect t)).set ↔ _
  rw [View.set_slice_whole, Rect.mem_set_unit]
  exact Iff.rfl

/-- Every index of the output array is in the block of the point its row falls in: the blocks tile the array. -/
theorem cover (i : S600000x2.Idx) : ∃ t : Fin cfg4.N, (cfg4.win 7).flush t = true ∧ i ∈ ((cfg4.win 7).blk t).view.set := by
  have hi0 : (i 0).val < 600000 := (i 0).isLt
  have hi1 : (i 1).val < 2 := (i 1).isLt
  obtain ⟨t, ht⟩ : ∃ t : Fin cfg4.N, t.val = (i 0).val / 6000 :=
    ⟨⟨(i 0).val / 6000, by show _ < grid4.N; rw [N_4]; omega⟩, rfl⟩
  obtain ⟨e00, e01, e10, e11, e20, e21, e30, e31, e40, e41, e50, e51, e60, e61, e70, e71⟩ := idx_facts t
  refine ⟨t, flush4_7 t, ?_⟩
  rw [mem_blk]
  intro a
  match a with
  | ⟨0, _⟩ => show win4_7.index t (0 : Fin 2) * 6000 ≤ (i 0).val ∧ (i 0).val < win4_7.index t (0 : Fin 2) * 6000 + 6000; omega
  | ⟨1, _⟩ => show win4_7.index t (1 : Fin 2) * 2 ≤ (i 1).val ∧ (i 1).val < win4_7.index t (1 : Fin 2) * 2 + 2; omega

/-- The output array after the region: the layer's function of the arrays the region finds. -/
theorem final (c : Dev nD) : (dat4 V c).arrAt 7 cfg4.N = layer V c :=
  (dat4 V c).arrAt_eq_of_cover 7 (layer V c) (fun t _ => flushed_eq V c t) cover

/-- The same with the operand arrays named: each bias given as a vector that its one-row array spreads. -/
theorem final_of (c : Dev nD) (hs hd : S600000x128.Idx → EReal) (Wa Wb : S128x128.Idx → EReal) (b1 : S128.Idx → EReal)
    (W2 : S128x2.Idx → EReal) (b2 : S2.Idx → EReal)
    (h0 : (V c main_v64 : S600000x128.Idx → EReal) = hs) (h1 : (V c main_v71 : S600000x128.Idx → EReal) = hd)
    (h2 : (V c main_v73 : S128x128.Idx → EReal) = Wa) (h3 : (V c main_v75 : S128x128.Idx → EReal) = Wb)
    (h4 : ∀ t : Fin 128, (V c main_v76 : S1x128.Idx → EReal) (ix2 (0 : Fin 1) t) = b1 (ix1 t))
    (h5 : (V c main_v77 : S128x2.Idx → EReal) = W2)
    (h6 : ∀ q : Fin 2, (V c main_v78 : S1x2.Idx → EReal) (ix2 (0 : Fin 1) q) = b2 (ix1 q)) :
    (dat4 V c).arrAt 7 cfg4.N
      = predAt (n := 600000) (a := 128) (h := 128) (o := 2) (φ₁ := .f32) (φ₂ := .f32) (φ₃ := .f32) hs hd Wa Wb b1 W2 b2 := by
  rw [final V c]
  unfold layer
  rw [h0, h1, h2, h3, h5]
  have hb1 : (fun j : S128.Idx => (V c main_v76 : S1x128.Idx → EReal) (ix2 (0 : Fin 1) (j 0))) = b1 :=
    funext fun j => (h4 (j 0)).trans (congrArg b1 (eq_ix1 j).symm)
  have hb2 : (fun j : S2.Idx => (V c main_v78 : S1x2.Idx → EReal) (ix2 (0 : Fin 1) (j 0))) = b2 :=
    funext fun j => (h6 (j 0)).trans (congrArg b2 (eq_ix1 j).symm)
  exact (congrArg (fun b => predAt (n := 600000) (a := 128) (h := 128) (o := 2) (φ₁ := .f32) (φ₂ := .f32) (φ₃ := .f32) hs hd Wa Wb b W2
      (fun j : S2.Idx => (V c main_v78 : S1x2.Idx → EReal) (ix2 (0 : Fin 1) (j 0)))) hb1).trans
    (congrArg (predAt (n := 600000) (a := 128) (h := 128) (o := 2) (φ₁ := .f32) (φ₂ := .f32) (φ₃ := .f32) hs hd Wa Wb b1 W2) hb2)

end Cert.KernelIdeal.Predictor

end
-- ==== Proof.Chain.lean ====
/- The idealized kernel's boundary contents read back to the arguments, one layer at a time. At each region's exit its
   output array is the layer's function of the arrays the region found; those arrays are what the preceding host
   operations made — a row gather through the source indices, the mean of the scattered messages, a weight matrix
   converted to a narrower format (the same array at the ideal instance), a bias vector reshaped to one row — of
   arguments and of the previous layer's output. Entry by entry the layer's function is what the reference's host
   operations compute from the same operands, so each region's output is the reference's stage of the arguments:
   the first messages, the first updated nodes, the second messages, the second updated nodes, the logits. The
   host operations between the layers (gathers, scatters, the division by the clamped degree) are the same on
   both sides and are never opened. -/
import proofs.«128431_j42597485641878_1_alg».proof.Proof.Carried
import proofs.«128431_j42597485641878_1_alg».proof.Proof.Message1
import proofs.«128431_j42597485641878_1_alg».proof.Proof.Message2
import proofs.«128431_j42597485641878_1_alg».proof.Proof.Update1
import proofs.«128431_j42597485641878_1_alg».proof.Proof.Update2
import proofs.«128431_j42597485641878_1_alg».proof.Proof.Predictor
import proofs.«128431_j42597485641878_1_alg».proof.Proof.Gen.ReferenceIdeal.Read
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.Lib.EdgeLayers
open scoped BigOperators

variable (m : (ℓ : Loc nD τ sig) → Buf (Elt Ideal) ℓ) (ρ : Dev nD → PrngReg) (c : Dev nD)

/-! ### The arguments as launched -/

abbrev x0 : (⟨S100000x128, .f32⟩ : BufTy).Contents (Elt Ideal) := m ((c : Thread nD τ).loc main_arg0)
abbrev x1 : (⟨S2x600000, .i32⟩ : BufTy).Contents (Elt Ideal) := m ((c : Thread nD τ).loc main_arg1)
abbrev x2 : (⟨S600000x32, .f32⟩ : BufTy).Contents (Elt Ideal) := m ((c : Thread nD τ).loc main_arg2)
abbrev x3 : (⟨S32x128, .f32⟩ : BufTy).Contents (Elt Ideal) := m ((c : Thread nD τ).loc main_arg3)
abbrev x4 : (⟨S128, .f32⟩ : BufTy).Contents (Elt Ideal) := m ((c : Thread nD τ).loc main_arg4)
abbrev x5 : (⟨S128x128, .f32⟩ : BufTy).Contents (Elt Ideal) := m ((c : Thread nD τ).loc main_arg5)
abbrev x6 : (⟨S128, .f32⟩ : BufTy).Contents (Elt Ideal) := m ((c : Thread nD τ).loc main_arg6)
abbrev x7 : (⟨S128x128, .f32⟩ : BufTy).Contents (Elt Ideal) := m ((c : Thread nD τ).loc main_arg7)
abbrev x8 : (⟨S128, .f32⟩ : BufTy).Contents (Elt Ideal) := m ((c : Thread nD τ).loc main_arg8)
abbrev x9 : (⟨S32x128, .f32⟩ : BufTy).Contents (Elt Ideal) := m ((c : Thread nD τ).loc main_arg9)
abbrev x10 : (⟨S128, .f32⟩ : BufTy).Contents (Elt Ideal) := m ((c : Thread nD τ).loc main_arg10)
abbrev x11 : (⟨S128x128, .f32⟩ : BufTy).Contents (Elt Ideal) := m ((c : Thread nD τ).loc main_arg11)
abbrev x12 : (⟨S128, .f32⟩ : BufTy).Contents (Elt Ideal) := m ((c : Thread nD τ).loc main_arg12)
abbrev x13 : (⟨S128x128, .f32⟩ : BufTy).Contents (Elt Ideal) := m ((c : Thread nD τ).loc main_arg13)
abbrev x14 : (⟨S128, .f32⟩ : BufTy).Contents (Elt Ideal) := m ((c : Thread nD τ).loc main_arg14)
abbrev x15 : (⟨S256x128, .f32⟩ : BufTy).Contents (Elt Ideal) := m ((c : Thread nD τ).loc main_arg15)
abbrev x16 : (⟨S128, .f32⟩ : BufTy).Contents (Elt Ideal) := m ((c : Thread nD τ).loc main_arg16)
abbrev x17 : (⟨S128x2, .f32⟩ : BufTy).Contents (Elt Ideal) := m ((c : Thread nD τ).loc main_arg17)
abbrev x18 : (⟨S2, .f32⟩ : BufTy).Contents (Elt Ideal) := m ((c : Thread nD τ).loc main_arg18)

/-! ### What the first stretch of host operations makes -/

theorem w1_src : W1 m ρ c (Proc.devRef .tc main_v1) = Cert.ReferenceIdeal.Read.val_main_v1 (F := Ideal) (x1 m c) := by
  show StableHlo.after hostOps0 (W0 m ρ c) (Proc.devRef .tc main_v1) = _
  dsimp only [hostOps0]
  after_results
  rfl
theorem w1_dst : W1 m ρ c (Proc.devRef .tc main_v3) = Cert.ReferenceIdeal.Read.val_main_v3 (F := Ideal) (x1 m c) := by
  show StableHlo.after hostOps0 (W0 m ρ c) (Proc.devRef .tc main_v3) = _
  dsimp only [hostOps0]
  after_results
  rfl
theorem w1_gathered : (W1 m ρ c (Proc.devRef .tc main_v12) : S600000x128.Idx → EReal) = Cert.ReferenceIdeal.Read.val_main_v10 (F := Ideal) (x0 m c) (x1 m c) := by
  show StableHlo.after hostOps0 (W0 m ρ c) (Proc.devRef .tc main_v12) = _
  dsimp only [hostOps0]
  after_results
  rfl
theorem w1_We : (W1 m ρ c (Proc.devRef .tc main_v4) : S32x128.Idx → EReal) = (x3 m c : S32x128.Idx → EReal) := by
  show StableHlo.after hostOps0 (W0 m ρ c) (Proc.devRef .tc main_v4) = _
  dsimp only [hostOps0]
  after_results
  rfl
theorem w1_be (q : Fin 128) : (W1 m ρ c (Proc.devRef .tc main_v5) : S1x128.Idx → EReal) (ix2 (0 : Fin 1) q) = (x4 m c : S128.Idx → EReal) (ix1 q) := by
  have h : (W1 m ρ c (Proc.devRef .tc main_v5) : S1x128.Idx → EReal) = shapeCast S1x128 (x4 m c : S128.Idx → EReal) shapeCasts_S128_S1x128 := by
    show StableHlo.after hostOps0 (W0 m ρ c) (Proc.devRef .tc main_v5) = _
    dsimp only [hostOps0]
    after_results
    rfl
  rw [h]
  exact shapeCast_a_1a_apply _ _ (0 : Fin 1) q

/-! ### The first messages -/

theorem messages1 : (W2 m ρ c (Proc.devRef .tc main_v13) : S600000x128.Idx → EReal) = Cert.ReferenceIdeal.Read.val_main_v15 (F := Ideal) (x0 m c) (x1 m c) (x2 m c) (x3 m c) (x4 m c) := by
  refine (W2_arr m ρ c 4).trans ?_
  refine (Message1.final_of (V1 m ρ) c (Cert.ReferenceIdeal.Read.val_main_v10 (F := Ideal) (x0 m c) (x1 m c)) (x2 m c) (x3 m c) (x4 m c)
    (w1_gathered m ρ c) (Carried.at1_main_arg2 m ρ c) (w1_We m ρ c) (w1_be m ρ c)).trans ?_
  funext i
  obtain ⟨p, q, rfl⟩ : ∃ (p : Fin 600000) (q : Fin 128), i = ix2 p q := ⟨i 0, i 1, eq_ix2 i⟩
  exact (msg_host_read (n := 600000) (k := 32) (d := 128) (Cert.ReferenceIdeal.Read.val_main_v10 (F := Ideal) (x0 m c) (x1 m c)) (x2 m c) (x3 m c) (x4 m c) _ _ none p q).symm

/-! ### The first node update -/

set_option maxHeartbeats 4000000 in
theorem w3_mean : (W3 m ρ c (Proc.devRef .tc main_v25) : S100000x128.Idx → EReal) = Cert.ReferenceIdeal.Read.val_main_v27 (F := Ideal) (x0 m c) (x1 m c) (x2 m c) (x3 m c) (x4 m c) := by
  show StableHlo.after hostOps1 (W2 m ρ c) (Proc.devRef .tc main_v25) = _
  generalize hW : W2 m ρ c = W
  dsimp only [hostOps1]
  after_results
  subst hW
  rw [messages1 m ρ c, Carried.at2_main_v3 m ρ c, w1_dst m ρ c]
  rfl
set_option maxHeartbeats 4000000 in
theorem w3_Wl : (W3 m ρ c (Proc.devRef .tc main_v26) : S128x128.Idx → EReal) = (x5 m c : S128x128.Idx → EReal) := by
  show StableHlo.after hostOps1 (W2 m ρ c) (Proc.devRef .tc main_v26) = _
  generalize hW : W2 m ρ c = W
  dsimp only [hostOps1]
  after_results
  subst hW
  rw [Carried.at2_main_arg5 m ρ c]
  rfl
set_option maxHeartbeats 4000000 in
theorem w3_Wr : (W3 m ρ c (Proc.devRef .tc main_v27) : S128x128.Idx → EReal) = (x7 m c : S128x128.Idx → EReal) := by
  show StableHlo.after hostOps1 (W2 m ρ c) (Proc.devRef .tc main_v27) = _
  generalize hW : W2 m ρ c = W
  dsimp only [hostOps1]
  after_results
  subst hW
  rw [Carried.at2_main_arg7 m ρ c]
  rfl
set_option maxHeartbeats 4000000 in
theorem w3_bl (q : Fin 128) : (W3 m ρ c (Proc.devRef .tc main_v28) : S1x128.Idx → EReal) (ix2 (0 : Fin 1) q) = (x6 m c : S128.Idx → EReal) (ix1 q) := by
  have h : (W3 m ρ c (Proc.devRef .tc main_v28) : S1x128.Idx → EReal) = shapeCast S1x128 (x6 m c : S128.Idx → EReal) shapeCasts_S128_S1x128 := by
    show StableHlo.after hostOps1 (W2 m ρ c) (Proc.devRef .tc main_v28) = _
    generalize hW : W2 m ρ c = W
    dsimp only [hostOps1]
    after_results
    subst hW
    rw [Carried.at2_main_arg6 m ρ c]
    rfl
  rw [h]
  exact shapeCast_a_1a_apply _ _ (0 : Fin 1) q
set_option maxHeartbeats 4000000 in
theorem w3_br (q : Fin 128) : (W3 m ρ c (Proc.devRef .tc main_v29) : S1x128.Idx → EReal) (ix2 (0 : Fin 1) q) = (x8 m c : S128.Idx → EReal) (ix1 q) := by
  have h : (W3 m ρ c (Proc.devRef .tc main_v29) : S1x128.Idx → EReal) = shapeCast S1x128 (x8 m c : S128.Idx → EReal) shapeCasts_S128_S1x128 := by
    show StableHlo.after hostOps1 (W2 m ρ c) (Proc.devRef .tc main_v29) = _
    generalize hW : W2 m ρ c = W
    dsimp only [hostOps1]
    after_results
    subst hW
    rw [Carried.at2_main_arg8 m ρ c]
    rfl
  rw [h]
  exact shapeCast_a_1a_apply _ _ (0 : Fin 1) q

theorem nodes1 : (W4 m ρ c (Proc.devRef .tc main_v30) : S100000x128.Idx → EReal) = Cert.ReferenceIdeal.Read.val_main_v37 (F := Ideal) (x0 m c) (x1 m c) (x2 m c) (x3 m c) (x4 m c) (x5 m c) (x6 m c) (x7 m c) (x8 m c) := by
  refine (W4_arr m ρ c 6).trans ?_
  refine (Update1.final_of (V3 m ρ) c (Cert.ReferenceIdeal.Read.val_main_v27 (F := Ideal) (x0 m c) (x1 m c) (x2 m c) (x3 m c) (x4 m c)) (x0 m c) (x5 m c) (x7 m c) (x6 m c) (x8 m c)
    (w3_mean m ρ c) (Carried.at3_main_arg0 m ρ c) (w3_Wl m ρ c) (w3_Wr m ρ c) (w3_bl m ρ c) (w3_br m ρ c)).trans ?_
  funext i
  obtain ⟨p, q, rfl⟩ : ∃ (p : Fin 100000) (q : Fin 128), i = ix2 p q := ⟨i 0, i 1, eq_ix2 i⟩
  exact (dense_host_read (n := 100000) (k := 128) (d := 128) (Cert.ReferenceIdeal.Read.val_main_v27 (F := Ideal) (x0 m c) (x1 m c) (x2 m c) (x3 m c) (x4 m c)) (x0 m c) (x5 m c) (x7 m c) (x6 m c) (x8 m c) _ _ _ none p q).symm

/-! ### The second messages -/

set_option maxHeartbeats 4000000 in
theorem w5_gathered : (W5 m ρ c (Proc.devRef .tc main_v39) : S600000x128.Idx → EReal) = Cert.ReferenceIdeal.Read.val_main_v44 (F := Ideal) (x0 m c) (x1 m c) (x2 m c) (x3 m c) (x4 m c) (x5 m c) (x6 m c) (x7 m c) (x8 m c) := by
  show StableHlo.after hostOps2 (W4 m ρ c) (Proc.devRef .tc main_v39) = _
  generalize hW : W4 m ρ c = W
  dsimp only [hostOps2]
  after_results
  subst hW
  rw [nodes1 m ρ c, Carried.at4_main_v1 m ρ c, w1_src m ρ c]
  rfl
set_option maxHeartbeats 4000000 in
theorem w5_We : (W5 m ρ c (Proc.devRef .tc main_v31) : S32x128.Idx → EReal) = (x9 m c : S32x128.Idx → EReal) := by
  show StableHlo.after hostOps2 (W4 m ρ c) (Proc.devRef .tc main_v31) = _
  generalize hW : W4 m ρ c = W
  dsimp only [hostOps2]
  after_results
  subst hW
  rw [Carried.at4_main_arg9 m ρ c]
  rfl
set_option maxHeartbeats 4000000 in
theorem w5_be (q : Fin 128) : (W5 m ρ c (Proc.devRef .tc main_v32) : S1x128.Idx → EReal) (ix2 (0 : Fin 1) q) = (x10 m c : S128.Idx → EReal) (ix1 q) := by
  have h : (W5 m ρ c (Proc.devRef .tc main_v32) : S1x128.Idx → EReal) = shapeCast S1x128 (x10 m c : S128.Idx → EReal) shapeCasts_S128_S1x128 := by
    show StableHlo.after hostOps2 (W4 m ρ c) (Proc.devRef .tc main_v32) = _
    generalize hW : W4 m ρ c = W
    dsimp only [hostOps2]
    after_results
    subst hW
    rw [Carried.at4_main_arg10 m ρ c]
    rfl
  rw [h]
  exact shapeCast_a_1a_apply _ _ (0 : Fin 1) q

theorem messages2 : (W6 m ρ c (Proc.devRef .tc main_v40) : S600000x128.Idx → EReal) = Cert.ReferenceIdeal.Read.val_main_v49 (F := Ideal) (x0 m c) (x1 m c) (x2 m c) (x3 m c) (x4 m c) (x5 m c) (x6 m c) (x7 m c) (x8 m c) (x9 m c) (x10 m c) := by
  refine (W6_arr m ρ c 4).trans ?_
  refine (Message2.final_of (V5 m ρ) c (Cert.ReferenceIdeal.Read.val_main_v44 (F := Ideal) (x0 m c) (x1 m c) (x2 m c) (x3 m c) (x4 m c) (x5 m c) (x6 m c) (x7 m c) (x8 m c)) (x2 m c) (x9 m c) (x10 m c)
    (w5_gathered m ρ c) (Carried.at5_main_arg2 m ρ c) (w5_We m ρ c) (w5_be m ρ c)).trans ?_
  funext i
  obtain ⟨p, q, rfl⟩ : ∃ (p : Fin 600000) (q : Fin 128), i = ix2 p q := ⟨i 0, i 1, eq_ix2 i⟩
  exact (msg_host_read (n := 600000) (k := 32) (d := 128) (Cert.ReferenceIdeal.Read.val_main_v44 (F := Ideal) (x0 m c) (x1 m c) (x2 m c) (x3 m c) (x4 m c) (x5 m c) (x6 m c) (x7 m c) (x8 m c)) (x2 m c) (x9 m c) (x10 m c) _ _ none p q).symm

/-! ### The second node update -/

set_option maxHeartbeats 4000000 in
theorem w7_mean : (W7 m ρ c (Proc.devRef .tc main_v52) : S100000x128.Idx → EReal) = Cert.ReferenceIdeal.Read.val_main_v61 (F := Ideal) (x0 m c) (x1 m c) (x2 m c) (x3 m c) (x4 m c) (x5 m c) (x6 m c) (x7 m c) (x8 m c) (x9 m c) (x10 m c) := by
  show StableHlo.after hostOps3 (W6 m ρ c) (Proc.devRef .tc main_v52) = _
  generalize hW : W6 m ρ c = W
  dsimp only [hostOps3]
  after_results
  subst hW
  rw [messages2 m ρ c, Carried.at6_main_v3 m ρ c, w1_dst m ρ c]
  rfl
set_option maxHeartbeats 4000000 in
theorem w7_nodes1 : (W7 m ρ c (Proc.devRef .tc main_v30) : S100000x128.Idx → EReal) = Cert.ReferenceIdeal.Read.val_main_v37 (F := Ideal) (x0 m c) (x1 m c) (x2 m c) (x3 m c) (x4 m c) (x5 m c) (x6 m c) (x7 m c) (x8 m c) :=
  (Carried.at7_main_v30 m ρ c).trans (nodes1 m ρ c)
set_option maxHeartbeats 4000000 in
theorem w7_Wl : (W7 m ρ c (Proc.devRef .tc main_v53) : S128x128.Idx → EReal) = (x11 m c : S128x128.Idx → EReal) := by
  show StableHlo.after hostOps3 (W6 m ρ c) (Proc.devRef .tc main_v53) = _
  generalize hW : W6 m ρ c = W
  dsimp only [hostOps3]
  after_results
  subst hW
  rw [Carried.at6_main_arg11 m ρ c]
  rfl
set_option maxHeartbeats 4000000 in
theorem w7_Wr : (W7 m ρ c (Proc.devRef .tc main_v54) : S128x128.Idx → EReal) = (x13 m c : S128x128.Idx → EReal) := by
  show StableHlo.after hostOps3 (W6 m ρ c) (Proc.devRef .tc main_v54) = _
  generalize hW : W6 m ρ c = W
  dsimp only [hostOps3]
  after_results
  subst hW
  rw [Carried.at6_main_arg13 m ρ c]
  rfl
set_option maxHeartbeats 4000000 in
theorem w7_bl (q : Fin 128) : (W7 m ρ c (Proc.devRef .tc main_v55) : S1x128.Idx → EReal) (ix2 (0 : Fin 1) q) = (x12 m c : S128.Idx → EReal) (ix1 q) := by
  have h : (W7 m ρ c (Proc.devRef .tc main_v55) : S1x128.Idx → EReal) = shapeCast S1x128 (x12 m c : S128.Idx → EReal) shapeCasts_S128_S1x128 := by
    show StableHlo.after hostOps3 (W6 m ρ c) (Proc.devRef .tc main_v55) = _
    generalize hW : W6 m ρ c = W
    dsimp only [hostOps3]
    after_results
    subst hW
    rw [Carried.at6_main_arg12 m ρ c]
    rfl
  rw [h]
  exact shapeCast_a_1a_apply _ _ (0 : Fin 1) q
set_option maxHeartbeats 4000000 in
theorem w7_br (q : Fin 128) : (W7 m ρ c (Proc.devRef .tc main_v56) : S1x128.Idx → EReal) (ix2 (0 : Fin 1) q) = (x14 m c : S128.Idx → EReal) (ix1 q) := by
  have h : (W7 m ρ c (Proc.devRef .tc main_v56) : S1x128.Idx → EReal) = shapeCast S1x128 (x14 m c : S128.Idx → EReal) shapeCasts_S128_S1x128 := by
    show StableHlo.after hostOps3 (W6 m ρ c) (Proc.devRef .tc main_v56) = _
    generalize hW : W6 m ρ c = W
    dsimp only [hostOps3]
    after_results
    subst hW
    rw [Carried.at6_main_arg14 m ρ c]
    rfl
  rw [h]
  exact shapeCast_a_1a_apply _ _ (0 : Fin 1) q

theorem nodes2 : (W8 m ρ c (Proc.devRef .tc main_v57) : S100000x128.Idx → EReal) = Cert.ReferenceIdeal.Read.val_main_v71 (F := Ideal) (x0 m c) (x1 m c) (x2 m c) (x3 m c) (x4 m c) (x5 m c) (x6 m c) (x7 m c) (x8 m c) (x9 m c) (x10 m c) (x11 m c) (x12 m c) (x13 m c) (x14 m c) := by
  refine (W8_arr m ρ c 6).trans ?_
  refine (Update2.final_of (V7 m ρ) c (Cert.ReferenceIdeal.Read.val_main_v61 (F := Ideal) (x0 m c) (x1 m c) (x2 m c) (x3 m c) (x4 m c) (x5 m c) (x6 m c) (x7 m c) (x8 m c) (x9 m c) (x10 m c)) (Cert.ReferenceIdeal.Read.val_main_v37 (F := Ideal) (x0 m c) (x1 m c) (x2 m c) (x3 m c) (x4 m c) (x5 m c) (x6 m c) (x7 m c) (x8 m c)) (x11 m c) (x13 m c) (x12 m c) (x14 m c)
    (w7_mean m ρ c) (w7_nodes1 m ρ c) (w7_Wl m ρ c) (w7_Wr m ρ c) (w7_bl m ρ c) (w7_br m ρ c)).trans ?_
  funext i
  obtain ⟨p, q, rfl⟩ : ∃ (p : Fin 100000) (q : Fin 128), i = ix2 p q := ⟨i 0, i 1, eq_ix2 i⟩
  exact (dense_host_read (n := 100000) (k := 128) (d := 128) (Cert.ReferenceIdeal.Read.val_main_v61 (F := Ideal) (x0 m c) (x1 m c) (x2 m c) (x3 m c) (x4 m c) (x5 m c) (x6 m c) (x7 m c) (x8 m c) (x9 m c) (x10 m c)) (Cert.ReferenceIdeal.Read.val_main_v37 (F := Ideal) (x0 m c) (x1 m c) (x2 m c) (x3 m c) (x4 m c) (x5 m c) (x6 m c) (x7 m c) (x8 m c)) (x11 m c) (x13 m c) (x12 m c) (x14 m c) _ _ _ none p q).symm

/-! ### The logits -/

set_option maxHeartbeats 4000000 in
theorem w9_src_rows : (W9 m ρ c (Proc.devRef .tc main_v64) : S600000x128.Idx → EReal) = Cert.ReferenceIdeal.Read.val_main_v78 (F := Ideal) (x0 m c) (x1 m c) (x2 m c) (x3 m c) (x4 m c) (x5 m c) (x6 m c) (x7 m c) (x8 m c) (x9 m c) (x10 m c) (x11 m c) (x12 m c) (x13 m c) (x14 m c) := by
  show StableHlo.after hostOps4 (W8 m ρ c) (Proc.devRef .tc main_v64) = _
  generalize hW : W8 m ρ c = W
  dsimp only [hostOps4]
  after_results
  subst hW
  rw [nodes2 m ρ c, Carried.at8_main_v1 m ρ c, w1_src m ρ c]
  rfl
set_option maxHeartbeats 4000000 in
theorem w9_dst_rows : (W9 m ρ c (Proc.devRef .tc main_v71) : S600000x128.Idx → EReal) = Cert.ReferenceIdeal.Read.val_main_v85 (F := Ideal) (x0 m c) (x1 m c) (x2 m c) (x3 m c) (x4 m c) (x5 m c) (x6 m c) (x7 m c) (x8 m c) (x9 m c) (x10 m c) (x11 m c) (x12 m c) (x13 m c) (x14 m c) := by
  show StableHlo.after hostOps4 (W8 m ρ c) (Proc.devRef .tc main_v71) = _
  generalize hW : W8 m ρ c = W
  dsimp only [hostOps4]
  after_results
  subst hW
  rw [nodes2 m ρ c, Carried.at8_main_v3 m ρ c, w1_dst m ρ c]
  rfl
set_option maxHeartbeats 4000000 in
theorem w9_Wa : (W9 m ρ c (Proc.devRef .tc main_v73) : S128x128.Idx → EReal) = extractStridedSlice S128x128 ![0, 0] (x15 m c : S256x128.Idx → EReal) slices_S256x128_S128x128_0_0 := by
  show StableHlo.after hostOps4 (W8 m ρ c) (Proc.devRef .tc main_v73) = _
  generalize hW : W8 m ρ c = W
  dsimp only [hostOps4]
  after_results
  subst hW
  rw [Carried.at8_main_arg15 m ρ c]
  rfl
set_option maxHeartbeats 4000000 in
theorem w9_Wb : (W9 m ρ c (Proc.devRef .tc main_v75) : S128x128.Idx → EReal) = extractStridedSlice S128x128 ![128, 0] (x15 m c : S256x128.Idx → EReal) slices_S256x128_S128x128_128_0 := by
  show StableHlo.after hostOps4 (W8 m ρ c) (Proc.devRef .tc main_v75) = _
  generalize hW : W8 m ρ c = W
  dsimp only [hostOps4]
  after_results
  subst hW
  rw [Carried.at8_main_arg15 m ρ c]
  rfl
set_option maxHeartbeats 4000000 in
theorem w9_b1 (q : Fin 128) : (W9 m ρ c (Proc.devRef .tc main_v76) : S1x128.Idx → EReal) (ix2 (0 : Fin 1) q) = (x16 m c : S128.Idx → EReal) (ix1 q) := by
  have h : (W9 m ρ c (Proc.devRef .tc main_v76) : S1x128.Idx → EReal) = shapeCast S1x128 (x16 m c : S128.Idx → EReal) shapeCasts_S128_S1x128 := by
    show StableHlo.after hostOps4 (W8 m ρ c) (Proc.devRef .tc main_v76) = _
    generalize hW : W8 m ρ c = W
    dsimp only [hostOps4]
    after_results
    subst hW
    rw [Carried.at8_main_arg16 m ρ c]
    rfl
  rw [h]
  exact shapeCast_a_1a_apply _ _ (0 : Fin 1) q
set_option maxHeartbeats 4000000 in
theorem w9_W2 : (W9 m ρ c (Proc.devRef .tc main_v77) : S128x2.Idx → EReal) = (x17 m c : S128x2.Idx → EReal) := by
  show StableHlo.after hostOps4 (W8 m ρ c) (Proc.devRef .tc main_v77) = _
  generalize hW : W8 m ρ c = W
  dsimp only [hostOps4]
  after_results
  subst hW
  rw [Carried.at8_main_arg17 m ρ c]
  rfl
set_option maxHeartbeats 4000000 in
theorem w9_b2 (q : Fin 2) : (W9 m ρ c (Proc.devRef .tc main_v78) : S1x2.Idx → EReal) (ix2 (0 : Fin 1) q) = (x18 m c : S2.Idx → EReal) (ix1 q) := by
  have h : (W9 m ρ c (Proc.devRef .tc main_v78) : S1x2.Idx → EReal) = shapeCast S1x2 (x18 m c : S2.Idx → EReal) shapeCasts_S2_S1x2 := by
    show StableHlo.after hostOps4 (W8 m ρ c) (Proc.devRef .tc main_v78) = _
    generalize hW : W8 m ρ c = W
    dsimp only [hostOps4]
    after_results
    subst hW
    rw [Carried.at8_main_arg18 m ρ c]
    rfl
  rw [h]
  exact shapeCast_a_1a_apply _ _ (0 : Fin 1) q

theorem logits : (W10 m ρ c (Proc.devRef .tc main_v79) : S600000x2.Idx → EReal) = Cert.ReferenceIdeal.Read.val_main_v95 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) (x17 m c) (x18 m c) := by
  refine (W10_arr m ρ c 7).trans ?_
  refine (Predictor.final_of (V9 m ρ) c (Cert.ReferenceIdeal.Read.val_main_v78 (F := Ideal) (x0 m c) (x1 m c) (x2 m c) (x3 m c) (x4 m c) (x5 m c) (x6 m c) (x7 m c) (x8 m c) (x9 m c) (x10 m c) (x11 m c) (x12 m c) (x13 m c) (x14 m c)) (Cert.ReferenceIdeal.Read.val_main_v85 (F := Ideal) (x0 m c) (x1 m c) (x2 m c) (x3 m c) (x4 m c) (x5 m c) (x6 m c) (x7 m c) (x8 m c) (x9 m c) (x10 m c) (x11 m c) (x12 m c) (x13 m c) (x14 m c))
    (extractStridedSlice S128x128 ![0, 0] (x15 m c : S256x128.Idx → EReal) slices_S256x128_S128x128_0_0)
    (extractStridedSlice S128x128 ![128, 0] (x15 m c : S256x128.Idx → EReal) slices_S256x128_S128x128_128_0) (x16 m c) (x17 m c) (x18 m c)
    (w9_src_rows m ρ c) (w9_dst_rows m ρ c) (w9_Wa m ρ c) (w9_Wb m ρ c) (w9_b1 m ρ c) (w9_W2 m ρ c) (w9_b2 m ρ c)).trans ?_
  funext i
  obtain ⟨p, q, rfl⟩ : ∃ (p : Fin 600000) (q : Fin 2), i = ix2 p q := ⟨i 0, i 1, eq_ix2 i⟩
  exact (pred_host_read (n := 600000) (a := 128) (h := 128) (o := 2) (w := 256) rfl (Cert.ReferenceIdeal.Read.val_main_v78 (F := Ideal) (x0 m c) (x1 m c) (x2 m c) (x3 m c) (x4 m c) (x5 m c) (x6 m c) (x7 m c) (x8 m c) (x9 m c) (x10 m c) (x11 m c) (x12 m c) (x13 m c) (x14 m c)) (Cert.ReferenceIdeal.Read.val_main_v85 (F := Ideal) (x0 m c) (x1 m c) (x2 m c) (x3 m c) (x4 m c) (x5 m c) (x6 m c) (x7 m c) (x8 m c) (x9 m c) (x10 m c) (x11 m c) (x12 m c) (x13 m c) (x14 m c))
    (x15 m c) (x16 m c) (x17 m c) (x18 m c) _ slices_S256x128_S128x128_0_0 slices_S256x128_S128x128_128_0 _ _ _ _ _ none p q).symm

end Cert.KernelIdeal.Chain

end
-- ==== Proof.lean ====
/- A two-layer edge-aware graph network with an edge predictor, as five pipelined kernels among host gathers and scatters,
   against its plain reference, equal as extended reals.

   One layer: every edge's message is its source node's row plus the edge features against a weight matrix plus a bias;
   the messages are summed into their destination nodes and divided by the degree bounded below by 1; a node's update is
   the lower bound 0 of the mean against the neighbour weights plus a bias, plus the node's own row against the self
   weights plus a bias. The predictor takes, per edge, the two endpoint rows of the second layer against the two halves of
   a stacked weight matrix, adds a bias, bounds below by 0, and applies a last weight matrix and bias.

   The kernels compute the messages, the updates and the predictor block by block over row tiles; the gathers, the
   scatters and the division are host operations on both sides, the same ones. At the ideal instance a change of float
   format is the identity and a product accumulated into zero is the plain sum of products, so each kernel's output
   array is, entry by entry, what the reference's host operations compute from the same operands; the one
   rearrangement is the predictor's first product, which the reference takes over the two endpoint rows set side by
   side: a sum over the joined axis is the sum over its first half plus the sum over its second half. That holds in any
   commutative monoid, so the precondition (finite inputs) is never opened.

   The three frames are the generated ones (the reference's is its generated run with the result dropped); the
   idealization rewrote nothing, so there is nothing to preserve. -/
import proofs.«128431_j42597485641878_1_alg».proof.Defs
import proofs.«128431_j42597485641878_1_alg».proof.Proof.Gen.Kernel
import proofs.«128431_j42597485641878_1_alg».proof.Proof.Gen.Kernel.Skeleton
import proofs.«128431_j42597485641878_1_alg».proof.Proof.Gen.Kernel.Launch
import proofs.«128431_j42597485641878_1_alg».proof.Proof.Gen.Kernel.Points
import proofs.«128431_j42597485641878_1_alg».proof.Proof.Gen.Kernel.Frame
import proofs.«128431_j42597485641878_1_alg».proof.Proof.Gen.KernelIdeal
import proofs.«128431_j42597485641878_1_alg».proof.Proof.Gen.KernelIdeal.Skeleton
import proofs.«128431_j42597485641878_1_alg».proof.Proof.Gen.KernelIdeal.Launch
import proofs.«128431_j42597485641878_1_alg».proof.Proof.Gen.KernelIdeal.Points
import proofs.«128431_j42597485641878_1_alg».proof.Proof.Gen.KernelIdeal.Frame
import proofs.«128431_j42597485641878_1_alg».proof.Proof.Gen.ReferenceIdeal
import proofs.«128431_j42597485641878_1_alg».proof.Proof.Gen.ReferenceIdeal.Run
import proofs.«128431_j42597485641878_1_alg».proof.Proof.Gen.ReferenceIdeal.Read
import proofs.«128431_j42597485641878_1_alg».proof.Proof.Gen.Pre_finite_inputs
import proofs.«128431_j42597485641878_1_alg».proof.Proof.KernelRun
import proofs.«128431_j42597485641878_1_alg».proof.Proof.Chain
import Idealize.ShloMosaic.Adequacy
import Idealize.ShloMosaic.Init

noncomputable section

namespace Cert.Proof

open Idealize.ShloMosaic Idealize.SL.Sem

/-- The word-level kernel terminates, faults nowhere and leaves its arguments: the generated frame. -/
theorem frame_kernel : Cert.frame_Kernel := fun m ρ _ => Cert.Kernel.Gen.frame m ρ

/-- The same for the idealized kernel. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the logits at the reference's stage of the
    arguments: the kernel's last boundary holds it layer by layer, and the reference's run is that stage by
    definition. -/
theorem algebraic : Cert.algebraic_KernelIdeal_ReferenceIdeal := by
  intro m ρ m' ρ' _ hagree
  refine ⟨fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.Chain.logits m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18⟩ := hagree c
    rw [Cert.ReferenceIdeal.Read.val_main_v95_eq, h0, h1, h2, h3, h4, h5, h6, h7, h8, h9, h10, h11, h12, h13, h14, h15, h16, h17, h18]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
